-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S3200000 : Shape := ⟨1, ![3200000]⟩
abbrev S1x64 : Shape := ⟨2, ![1, 64]⟩
abbrev S64 : Shape := ⟨1, ![64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S3x64 .f32) (main_arg7 : FVec F S64x1 .f32) (main_arg8 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000 .f32) (main_arg1 : IVec S3200000 32) (main_arg2 : IVec S3200000 32) (main_arg3 : FVec F S1x64 .f32) (main_arg4 : FVec F S64 .f32) (main_arg5 : FVec F S3x64x64 .f32) (main_arg6 : FVec F S3x64 .f32) (main_arg7 : FVec F S64x1 .f32) (main_arg8 : FVec F S1 .f32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_v13 main_v16
-- ==== Kernel.lean ====
abbrev S100000 : Shape := ⟨1, ![100000]⟩
abbrev S3200000 : Shape := ⟨1, ![3200000]⟩
abbrev S1x64 : Shape := ⟨2, ![1, 64]⟩
abbrev S64 : Shape := ⟨1, ![64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x3 : Shape := ⟨2, ![100000, 3]⟩
abbrev S1x64x64 : Shape := ⟨3, ![1, 64, 64]⟩
abbrev S64x64 : Shape := ⟨2, ![64, 64]⟩
abbrev S100000x64 : Shape := ⟨2, ![100000, 64]⟩
abbrev S4000x3 : Shape := ⟨2, ![4000, 3]⟩
abbrev S4000x64 : Shape := ⟨2, ![4000, 64]⟩
abbrev S4000x1 : Shape := ⟨2, ![4000, 1]⟩
abbrev S1x1 : Shape := ⟨2, ![1, 1]⟩
abbrev S3300000x64 : Shape := ⟨2, ![3300000, 64]⟩

abbrev nBuf : Space → Nat
  | .hbm => 100
  | .vmem => 32
  | .smem => 0
  | _ => 0

abbrev bufTy : (tb : Table) → Fin (tcTables nBuf tb) → BufTy
  | .hbm, ⟨0, _⟩ => ⟨S100000, .f32⟩
  | .hbm, ⟨1, _⟩ => ⟨S3200000, .i32⟩
  | .hbm, ⟨2, _⟩ => ⟨S3200000, .i32⟩
  | .hbm, ⟨3, _⟩ => ⟨S1x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S3300000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x1, .f32⟩
  | .hbm, ⟨38, _⟩ => ⟨S100000x1, .f32⟩
  | .hbm, ⟨39, _⟩ => ⟨S100000x3, .f32⟩
  | .hbm, ⟨40, _⟩ => ⟨S1x64, .f32⟩
  | .hbm, ⟨41, _⟩ => ⟨S1x64x64, .f32⟩
  | .hbm, ⟨42, _⟩ => ⟨S64x64, .f32⟩
  | .hbm, ⟨43, _⟩ => ⟨S100000x64, .f32⟩
  | .hbm, ⟨44, _⟩ => ⟨S1x1, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x64, .f32⟩
  | .hbm, ⟨54, _⟩ => ⟨S_, .f32⟩
  | .hbm, ⟨55, _⟩ => ⟨S100000x64, .f32⟩
  | .hbm, ⟨56, _⟩ => ⟨S3300000x1, .i32⟩
  | .hbm, ⟨57, _⟩ => ⟨S100000x64, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S1x64x64, .f32⟩
  | .hbm, ⟨62, _⟩ => ⟨S64x64, .f32⟩
  | .hbm, ⟨63, _⟩ => ⟨S100000x64, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x64, .f32⟩
  | .hbm, ⟨73, _⟩ => ⟨S_, .f32⟩
  | .hbm, ⟨74, _⟩ => ⟨S100000x64, .f32⟩
  | .hbm, ⟨75, _⟩ => ⟨S3300000x1, .i32⟩
  | .hbm, ⟨76, _⟩ => ⟨S100000x64, .f32⟩
  | .hbm, ⟨77, _⟩ => ⟨S1x64, .f32⟩
  | .hbm, ⟨78, _⟩ => ⟨S64, .f32⟩
  | .hbm, ⟨79, _⟩ => ⟨S1x64, .f32⟩
  | .hbm, ⟨80, _⟩ => ⟨S1x64x64, .f32⟩
  | .hbm, ⟨81, _⟩ => ⟨S64x64, .f32⟩
  | .hbm, ⟨82, _⟩ => ⟨S100000x64, .f32⟩
  | .hbm, ⟨83, _⟩ => ⟨S_, .i32⟩
  | .hbm, ⟨84, _⟩ => ⟨S3300000, .i32⟩
  | .hbm, ⟨85, _⟩ => ⟨S3300000, .i1⟩
  | .hbm, ⟨86, _⟩ => ⟨S_, .i32⟩
  | .hbm, ⟨87, _⟩ => ⟨S3300000, .i32⟩
  | .hbm, ⟨88, _⟩ => ⟨S3300000, .i32⟩
  | .hbm, ⟨89, _⟩ => ⟨S3300000, .i32⟩
  | .hbm, ⟨90, _⟩ => ⟨S3300000x1, .i32⟩
  | .hbm, ⟨91, _⟩ => ⟨S3300000x64, .f32⟩
  | .hbm, ⟨92, _⟩ => ⟨S_, .f32⟩
  | .hbm, ⟨93, _⟩ => ⟨S100000x64, .f32⟩
  | .hbm, ⟨94, _⟩ => ⟨S3300000x1, .i32⟩
  | .hbm, ⟨95, _⟩ => ⟨S100000x64, .f32⟩
  | .hbm, ⟨96, _⟩ => ⟨S1x64, .f32⟩
  | .hbm, ⟨97, _⟩ => ⟨S64, .f32⟩
  | .hbm, ⟨98, _⟩ => ⟨S1x64, .f32⟩
  | .hbm, ⟨99, _⟩ => ⟨S100000x1, .f32⟩
  | .local _ .vmem, ⟨0, _⟩ => ⟨S4000x3, .f32⟩
  | .local _ .vmem, ⟨1, _⟩ => ⟨S4000x3, .f32⟩
  | .local _ .vmem, ⟨2, _⟩ => ⟨S1x64, .f32⟩
  | .local _ .vmem, ⟨3, _⟩ => ⟨S1x64, .f32⟩
  | .local _ .vmem, ⟨4, _⟩ => ⟨S64x64, .f32⟩
  | .local _ .vmem, ⟨5, _⟩ => ⟨S4000x64, .f32⟩
  | .local _ .vmem, ⟨6, _⟩ => ⟨S4000x64, .f32⟩
  | .local _ .vmem, ⟨7, _⟩ => ⟨S4000x3, .f32⟩
  | .local _ .vmem, ⟨8, _⟩ => ⟨S4000x3, .f32⟩
  | .local _ .vmem, ⟨9, _⟩ => ⟨S4000x64, .f32⟩
  | .local _ .vmem, ⟨10, _⟩ => ⟨S4000x64, .f32⟩
  | .local _ .vmem, ⟨11, _⟩ => ⟨S1x64, .f32⟩
  | .local _ .vmem, ⟨12, _⟩ => ⟨S64x64, .f32⟩
  | .local _ .vmem, ⟨13, _⟩ => ⟨S4000x64, .f32⟩
  | .local _ .vmem, ⟨14, _⟩ => ⟨S4000x64, .f32⟩
  | .local _ .vmem, ⟨15, _⟩ => ⟨S4000x3, .f32⟩
  | .local _ .vmem, ⟨16, _⟩ => ⟨S4000x3, .f32⟩
  | .local _ .vmem, ⟨17, _⟩ => ⟨S4000x64, .f32⟩
  | .local _ .vmem, ⟨18, _⟩ => ⟨S4000x64, .f32⟩
  | .local _ .vmem, ⟨19, _⟩ => ⟨S1x64, .f32⟩
  | .local _ .vmem, ⟨20, _⟩ => ⟨S64x64, .f32⟩
  | .local _ .vmem, ⟨21, _⟩ => ⟨S4000x64, .f32⟩
  | .local _ .vmem, ⟨22, _⟩ => ⟨S4000x64, .f32⟩
  | .local _ .vmem, ⟨23, _⟩ => ⟨S4000x3, .f32⟩
  | .local _ .vmem, ⟨24, _⟩ => ⟨S4000x3, .f32⟩
  | .local _ .vmem, ⟨25, _⟩ => ⟨S4000x64, .f32⟩
  | .local _ .vmem, ⟨26, _⟩ => ⟨S4000x64, .f32⟩
  | .local _ .vmem, ⟨27, _⟩ => ⟨S1x64, .f32⟩
  | .local _ .vmem, ⟨28, _⟩ => ⟨S64x1, .f32⟩
  | .local _ .vmem, ⟨29, _⟩ => ⟨S1x1, .f32⟩
  | .local _ .vmem, ⟨30, _⟩ => ⟨S4000x1, .f32⟩
  | .local _ .vmem, ⟨31, _⟩ => ⟨S4000x1, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v11 : Ref sig .tc := ⟨.hbm, 29, rfl⟩
abbrev main_cst_4 : Ref sig .tc := ⟨.hbm, 30, rfl⟩
abbrev main_v12 : Ref sig .tc := ⟨.hbm, 31, rfl⟩
abbrev main_v13 : Ref sig .tc := ⟨.hbm, 32, rfl⟩
abbrev main_cst_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  shapeCasts_S64_S1x64 : S64.ShapeCasts S1x64
  slices_S3x64x64_S1x64x64_0_0_0 : S3x64x64.Slices ![0, 0, 0] S1x64x64
  shapeCasts_S1x64x64_S64x64 : S1x64x64.ShapeCasts S64x64
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  slices_S4000x3_o0_0_S4000x1 : S4000x3.Slices ![0, 0] S4000x1
  slices_S4000x3_o0_1_S4000x1 : S4000x3.Slices ![0, 1] S4000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4000x1_S4000x64 : S4000x1.Broadcasts S4000x64
  broadcasts_S1x64_S4000x64 : S1x64.Broadcasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4000x64_S4000x64_0_0 : ∀ a, (![0, 0] : Fin 2 → Nat) a + S4000x64.size a ≤ S4000x64.size a
  h_S4000x64 : 0 < S4000x64.numel
  shapeCasts_S1_S1x1 : S1.ShapeCasts S1x1
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S4000x3_o0_2_S4000x1 : S4000x3.Slices ![0, 2] S4000x1
  shapeCasts_S4000x64_S4000x64 : S4000x64.ShapeCasts S4000x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S100000_S3300000x1_S3300000_n_0_0_1_wf : ScatterDims.WF S100000 S3300000x1 S3300000 [] [0] [0] 1
  dot_S4000x64_S64x64_S4000x64_1_0_0_1_n_n_wf : DotDims.WF S4000x64 S64x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S100000x3.size a
  hwx0_0 : ∀ i : grid0.Coords, EltTy.bits .f32 = 32 ∨ (Rect.block (s := S100000x3) S4000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .f32 = 32 ∨ (Rect.block (s := S100000x64) S4000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x3.size a ≤ S100000x3.size a
  hwx1_0 : ∀ i : grid1.Coords, EltTy.bits .f32 = 32 ∨ (Rect.block (s := S100000x3) S4000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x3.size a ≤ S100000x3.size a
  hwx2_0 : ∀ i : grid2.Coords, EltTy.bits .f32 = 32 ∨ (Rect.block (s := S100000x3) S4000x3.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x3.size a ≤ S100000x3.size a
  hwx3_0 : ∀ i : grid3.Coords, EltTy.bits .f32 = 32 ∨ (Rect.block (s := S100000x3) S4000x3.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x1.size a ≤ S100000x1.size a
  hwx3_5 : ∀ i : grid3.Coords, EltTy.bits .f32 = 32 ∨ (Rect.block (s := S100000x1) S4000x1.size (cc3_transform_5 i) (hinb3_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_v19) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S4000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S4000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v19) S4000x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v19) S4000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v24) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S4000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000 : Shape := ⟨1, ![100000]⟩
abbrev S3200000 : Shape := ⟨1, ![3200000]⟩
abbrev S1x64 : Shape := ⟨2, ![1, 64]⟩
abbrev S64 : Shape := ⟨1, ![64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S1x64x64 : Shape := ⟨3, ![1, 64, 64]⟩
abbrev S64x64 : Shape := ⟨2, ![64, 64]⟩
abbrev S3300000x64 : Shape := ⟨2, ![3300000, 64]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S100000, .f32⟩
  | 1 => ⟨S3200000, .i32⟩
  | 2 => ⟨S3200000, .i32⟩
  | 3 => ⟨S1x64, .f32⟩
  | 4 => ⟨S64, .f32⟩
  | 5 => ⟨S3x64x64, .f32⟩
  | 6 => ⟨S3x64, .f32⟩
  | 7 => ⟨S64x1, .f32⟩
  | 8 => ⟨S1, .f32⟩
  | 9 => ⟨S100000, .i32⟩
  | 10 => ⟨S3300000, .i32⟩
  | 11 => ⟨S3300000, .i32⟩
  | 12 => ⟨S_, .f32⟩
  | 13 => ⟨S3300000, .f32⟩
  | 14 => ⟨S_, .f32⟩
  | 15 => ⟨S100000, .f32⟩
  | 16 => ⟨S3300000x1, .i32⟩
  | 17 => ⟨S100000, .f32⟩
  | 18 => ⟨S_, .f32⟩
  | 19 => ⟨S_, .f32⟩
  | 20 => ⟨S100000, .f32⟩
  | 21 => ⟨S100000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S100000x1, .f32⟩
  | 34 => ⟨S_, .f32⟩
  | 35 => ⟨S100000, .f32⟩
  | 36 => ⟨S100000, .f32⟩
  | 37 => ⟨S100000x1, .f32⟩
  | 38 => ⟨S100000x1, .f32⟩
  | 39 => ⟨S100000x64, .f32⟩
  | 40 => ⟨S1x64, .f32⟩
  | 41 => ⟨S100000x64, .f32⟩
  | 42 => ⟨S100000x64, .f32⟩
  | 43 => ⟨S1x64x64, .f32⟩
  | 44 => ⟨S64x64, .f32⟩
  | 45 => ⟨S1x64, .f32⟩
  | 46 => ⟨S64, .f32⟩
  | 47 => ⟨S100000x64, .f32⟩
  | 48 => ⟨S100000x64, .f32⟩
  | 49 => ⟨S100000x64, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x64, .f32⟩
  | 59 => ⟨S_, .f32⟩
  | 60 => ⟨S100000x64, .f32⟩
  | 61 => ⟨S3300000x1, .i32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S_, .f32⟩
  | 70 => ⟨S100000x64, .f32⟩
  | 71 => ⟨S100000x64, .i1⟩
  | 72 => ⟨S_, .f32⟩
  | 73 => ⟨S100000x64, .f32⟩
  | 74 => ⟨S100000x64, .f32⟩
  | 75 => ⟨S100000x64, .f32⟩
  | 76 => ⟨S1x64x64, .f32⟩
  | 77 => ⟨S64x64, .f32⟩
  | 78 => ⟨S1x64, .f32⟩
  | 79 => ⟨S64, .f32⟩
  | 80 => ⟨S100000x64, .f32⟩
  | 81 => ⟨S100000x64, .f32⟩
  | 82 => ⟨S100000x64, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000x64, .f32⟩
  | 92 => ⟨S_, .f32⟩
  | 93 => ⟨S100000x64, .f32⟩
  | 94 => ⟨S3300000x1, .i32⟩
  | 95 => ⟨S100000x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S_, .f32⟩
  | 103 => ⟨S100000x64, .f32⟩
  | 104 => ⟨S100000x64, .i1⟩
  | 105 => ⟨S_, .f32⟩
  | 106 => ⟨S100000x64, .f32⟩
  | 107 => ⟨S100000x64, .f32⟩
  | 108 => ⟨S100000x64, .f32⟩
  | 109 => ⟨S1x64x64, .f32⟩
  | 110 => ⟨S64x64, .f32⟩
  | 111 => ⟨S1x64, .f32⟩
  | 112 => ⟨S64, .f32⟩
  | 113 => ⟨S100000x64, .f32⟩
  | 114 => ⟨S100000x64, .f32⟩
  | 115 => ⟨S100000x64, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S3300000x64, .f32⟩
  | 125 => ⟨S_, .f32⟩
  | 126 => ⟨S100000x64, .f32⟩
  | 127 => ⟨S3300000x1, .i32⟩
  | _ => ⟨S100000, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S100000x1, .f32⟩
  | 7 => ⟨S1x1, .f32⟩
  | 8 => ⟨S100000x1, .f32⟩
  | 9 => ⟨S100000x1, .f32⟩
  | _ => ⟨S100000, .f32⟩

abbrev hbmTy (i : Nat) : BufTy := match i / 128 with
  | 0 => hbmTy0_0 i
  | 1 => hbmTy0_1 i
  | _ => ⟨S100000, .f32⟩

abbrev bufTy : (tb : Table) → Fin (tcTables nBuf tb) → BufTy
  | .hbm, ⟨i, _⟩ => hbmTy i
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v11 : Ref sig .tc := ⟨.hbm, 29, rfl⟩
abbrev main_cst_4 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_9 : Ref sig .tc := ⟨.hbm, 83, rfl⟩
abbrev main_v53 : Ref sig .tc := ⟨.hbm, 84, rfl⟩
abbrev main_v54 : Ref sig .tc := ⟨.hbm, 85, rfl⟩
abbrev main_c_10 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_call3_cst : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_13 : Ref sig .tc := ⟨.hbm, 116, rfl⟩
abbrev main_v76 : Ref sig .tc := ⟨.hbm, 117, rfl⟩
abbrev main_v77 : Ref sig .tc := ⟨.hbm, 118, rfl⟩
abbrev main_c_14 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_15 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩

abbrev nD : Nat := 1
abbrev τ : Topo := Topo.v7x

variable {F : FTy → Type} [FloatOps F]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  dot_S100000x1_S1x64_S100000x64_1_0_0_1_n_n_wf : DotDims.WF S100000x1 S1x64 S100000x64 [1] [0] [0] [1] [] []
  dot_S100000x64_S64x64_S100000x64_1_0_0_1_n_n_wf : DotDims.WF S100000x64 S64x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.K.Region0.lean ====
/- Region 0 of @main (pallas_call 0, `cc0__k0_kernel`) at a parameter `V`, the TensorCore's buffer contents
   when the region is entered. The body loads the whole staging rectangle of each of its 4 input windows, computes
   one value from them, and stores it over the whole staging rectangle of its output window 4. So: what an input's
   buffer holds at a grid point is that window's block of its array (fetched at that point or, for a window whose block
   index is constant, once at the first point and left in place); what the output's buffer holds after the body is the
   canonical contents of the one covering store over the payload of the input blocks. From these: the proof data of the
   pipeline, the body's triple, and the body obligation at every grid point. -/
import proofs.«109159_j7215545057639_1_alg».proof.Proof.Gen.Kernel.Launch
import proofs.«109159_j7215545057639_1_alg».proof.Proof.Gen.Kernel.Skeleton
import proofs.«109159_j7215545057639_1_alg».proof.Proof.Gen.Kernel.Points
import Idealize.ShloMosaic.Lib.Pipeline.FrameBody
import Idealize.ShloMosaic.Lib.Ring
import Idealize.ShloMosaic.Lib.Tactic

-- membership in a rectangle whose long axis has 4000 coordinates recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows (or the whole) of its array, as the region finds it, that the
    window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    the block index has not moved since the last fetch, for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether the pipeline fetched it there or
    the block index has not moved since the last fetch, for any proof data whose array is `V`'s and whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether the pipeline fetched it there or
    the block index has not moved since the last fetch, for any proof data whose array is `V`'s and whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether the pipeline fetched it there or
    the block index has not moved since the last fetch, for any proof data whose array is `V`'s and whose body leaves
    the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: one whole rectangle per window -/

abbrev r0_0 : Rect S4000x3 := Rect.unit (s := S4000x3) ![0, 0] S4000x3.size inb_S4000x3_S4000x3_0_0
abbrev r0_1 : Rect S1x64 := Rect.unit (s := S1x64) ![0, 0] S1x64.size inb_S1x64_S1x64_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S4000x64 := Rect.unit (s := S4000x64) ![0, 0] S4000x64.size inb_S4000x64_S4000x64_0_0

/-! ## What the body leaves in the output window's buffer -/

/-- Window 4's staging buffer after the body, from the input windows' blocks: its one store, over the whole buffer,
    of the payload of the loaded blocks. -/
def out0_4 (x0 : Vec F S4000x3 .f32) (x1 : Vec F S1x64 .f32) (x2 : Vec F S1x64 .f32) (x3 : Vec F S64x64 .f32) : Vec F S4000x64 .f32 :=
  View.canon [⟨r0_4, k0_pay1 (View.ld x0 r0_0) (View.ld x1 r0_1) (View.ld x2 r0_2) (View.ld x3 r0_3)⟩]

/-- The one store covers the buffer. -/
theorem cover0_4 (p0 : Vec F S4000x64 .f32) (y : S4000x64.Idx) :
    ∃ pc ∈ ([⟨r0_4, p0⟩] : List (View.Piece (Elt F) S4000x64 .f32)), y ∈ pc.1.set :=
  View.cover_of_tiled [⟨r0_4, p0⟩] S4000x64.size (by rfl) y

/-! ## The body's triple -/

set_option maxHeartbeats 1000000 in
/-- The kernel body on whole staging memrefs, the inputs' at read contents `xJ` and the output's at anything, runs to the
    continuation holding the inputs' as they were and the output's at `out0_4` of the inputs'. -/
theorem sound_kernel0 (c : Dev nD) (E : Set ℕ) (i : grid0.Coords) (arg1 : Memref sig .tc .vmem S4000x3 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S4000x64 .f32) (harg5 : arg5.IsWhole)
    (x0 : Vec F S4000x3 .f32) (x1 : Vec F S1x64 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__k0_kernel i arg1 harg1 arg2 harg2 arg3 harg3 arg4 harg4 arg5 harg5) K := by
  simp only [cc0__k0_kernel_eq_skeleton]; unfold cc0__k0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them; after the body at point `t` each
    input's buffer at its block and the output's at `out0_4` of the input blocks; the invariant that of a body which
    keeps nothing of its own; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- Region 1 of @main (pallas_call 1, `cc1__kmid_kernel`) at a parameter `V`, the TensorCore's buffer contents
   when the region is entered. The body loads the whole staging rectangle of each of its 4 input windows, computes
   one value from them, and stores it over the whole staging rectangle of its output window 4. So: what an input's
   buffer holds at a grid point is that window's block of its array (fetched at that point or, for a window whose block
   index is constant, once at the first point and left in place); what the output's buffer holds after the body is the
   canonical contents of the one covering store over the payload of the input blocks. From these: the proof data of the
   pipeline, the body's triple, and the body obligation at every grid point. -/
import proofs.«109159_j7215545057639_1_alg».proof.Proof.Gen.Kernel.Launch
import proofs.«109159_j7215545057639_1_alg».proof.Proof.Gen.Kernel.Skeleton
import proofs.«109159_j7215545057639_1_alg».proof.Proof.Gen.Kernel.Points
import Idealize.ShloMosaic.Lib.Pipeline.FrameBody
import Idealize.ShloMosaic.Lib.Ring
import Idealize.ShloMosaic.Lib.Tactic

-- membership in a rectangle whose long axis has 4000 coordinates recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows (or the whole) of its array, as the region finds it, that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    the block index has not moved since the last fetch, for any proof data whose array is `V`'s and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the pipeline fetched it there or
    the block index has not moved since the last fetch, for any proof data whose array is `V`'s and whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the pipeline fetched it there or
    the block index has not moved since the last fetch, for any proof data whose array is `V`'s and whose body leaves
    the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the pipeline fetched it there or
    the block index has not moved since the last fetch, for any proof data whose array is `V`'s and whose body leaves
    the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one whole rectangle per window -/

abbrev r1_0 : Rect S4000x3 := Rect.unit (s := S4000x3) ![0, 0] S4000x3.size inb_S4000x3_S4000x3_0_0
abbrev r1_1 : Rect S4000x64 := Rect.unit (s := S4000x64) ![0, 0] S4000x64.size inb_S4000x64_S4000x64_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0
abbrev r1_4 : Rect S4000x64 := Rect.unit (s := S4000x64) ![0, 0] S4000x64.size inb_S4000x64_S4000x64_0_0

/-! ## What the body leaves in the output window's buffer -/

/-- Window 4's staging buffer after the body, from the input windows' blocks: its one store, over the whole buffer,
    of the payload of the loaded blocks. -/
def out1_4 (x0 : Vec F S4000x3 .f32) (x1 : Vec F S4000x64 .f32) (x2 : Vec F S1x64 .f32) (x3 : Vec F S64x64 .f32) : Vec F S4000x64 .f32 :=
  View.canon [⟨r1_4, k1_pay1 (View.ld x0 r1_0) (View.ld x1 r1_1) (View.ld x2 r1_2) (View.ld x3 r1_3)⟩]

/-- The one store covers the buffer. -/
theorem cover1_4 (p0 : Vec F S4000x64 .f32) (y : S4000x64.Idx) :
    ∃ pc ∈ ([⟨r1_4, p0⟩] : List (View.Piece (Elt F) S4000x64 .f32)), y ∈ pc.1.set :=
  View.cover_of_tiled [⟨r1_4, p0⟩] S4000x64.size (by rfl) y

/-! ## The body's triple -/

set_option maxHeartbeats 1000000 in
/-- The kernel body on whole staging memrefs, the inputs' at read contents `xJ` and the output's at anything, runs to the
    continuation holding the inputs' as they were and the output's at `out1_4` of the inputs'. -/
theorem sound_kernel1 (c : Dev nD) (E : Set ℕ) (i : grid1.Coords) (arg1 : Memref sig .tc .vmem S4000x3 .f32) (harg1 : arg1.IsWhole) (arg2 : Memref sig .tc .vmem S4000x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S4000x64 .f32) (harg5 : arg5.IsWhole)
    (x0 : Vec F S4000x3 .f32) (x1 : Vec F S4000x64 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__kmid_kernel i arg1 harg1 arg2 harg2 arg3 harg3 arg4 harg4 arg5 harg5) K := by
  simp only [cc1__kmid_kernel_eq_skeleton]; unfold cc1__kmid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them; after the body at point `t` each
    input's buffer at its block and the output's at `out1_4` of the input blocks; the invariant that of a body which
    keeps nothing of its own; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/- Region 2 of @main (pallas_call 2, `cc2__kmid_kernel`) at a parameter `V`, the TensorCore's buffer contents
   when the region is entered. The body loads the whole staging rectangle of each of its 4 input windows, computes
   one value from them, and stores it over the whole staging rectangle of its output window 4. So: what an input's
   buffer holds at a grid point is that window's block of its array (fetched at that point or, for a window whose block
   index is constant, once at the first point and left in place); what the output's buffer holds after the body is the
   canonical contents of the one covering store over the payload of the input blocks. From these: the proof data of the
   pipeline, the body's triple, and the body obligation at every grid point. -/
import proofs.«109159_j7215545057639_1_alg».proof.Proof.Gen.Kernel.Launch
import proofs.«109159_j7215545057639_1_alg».proof.Proof.Gen.Kernel.Skeleton
import proofs.«109159_j7215545057639_1_alg».proof.Proof.Gen.Kernel.Points
import Idealize.ShloMosaic.Lib.Pipeline.FrameBody
import Idealize.ShloMosaic.Lib.Ring
import Idealize.ShloMosaic.Lib.Tactic

-- membership in a rectangle whose long axis has 4000 coordinates recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows (or the whole) of its array, as the region finds it, that the
    window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    the block index has not moved since the last fetch, for any proof data whose array is `V`'s and whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether the pipeline fetched it there or
    the block index has not moved since the last fetch, for any proof data whose array is `V`'s and whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether the pipeline fetched it there or
    the block index has not moved since the last fetch, for any proof data whose array is `V`'s and whose body leaves
    the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether the pipeline fetched it there or
    the block index has not moved since the last fetch, for any proof data whose array is `V`'s and whose body leaves
    the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: one whole rectangle per window -/

abbrev r2_0 : Rect S4000x3 := Rect.unit (s := S4000x3) ![0, 0] S4000x3.size inb_S4000x3_S4000x3_0_0
abbrev r2_1 : Rect S4000x64 := Rect.unit (s := S4000x64) ![0, 0] S4000x64.size inb_S4000x64_S4000x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0
abbrev r2_4 : Rect S4000x64 := Rect.unit (s := S4000x64) ![0, 0] S4000x64.size inb_S4000x64_S4000x64_0_0

/-! ## What the body leaves in the output window's buffer -/

/-- Window 4's staging buffer after the body, from the input windows' blocks: its one store, over the whole buffer,
    of the payload of the loaded blocks. -/
def out2_4 (x0 : Vec F S4000x3 .f32) (x1 : Vec F S4000x64 .f32) (x2 : Vec F S1x64 .f32) (x3 : Vec F S64x64 .f32) : Vec F S4000x64 .f32 :=
  View.canon [⟨r2_4, k2_pay1 (View.ld x0 r2_0) (View.ld x1 r2_1) (View.ld x2 r2_2) (View.ld x3 r2_3)⟩]

/-- The one store covers the buffer. -/
theorem cover2_4 (p0 : Vec F S4000x64 .f32) (y : S4000x64.Idx) :
    ∃ pc ∈ ([⟨r2_4, p0⟩] : List (View.Piece (Elt F) S4000x64 .f32)), y ∈ pc.1.set :=
  View.cover_of_tiled [⟨r2_4, p0⟩] S4000x64.size (by rfl) y

/-! ## The body's triple -/

set_option maxHeartbeats 1000000 in
/-- The kernel body on whole staging memrefs, the inputs' at read contents `xJ` and the output's at anything, runs to the
    continuation holding the inputs' as they were and the output's at `out2_4` of the inputs'. -/
theorem sound_kernel2 (c : Dev nD) (E : Set ℕ) (i : grid2.Coords) (arg1 : Memref sig .tc .vmem S4000x3 .f32) (harg1 : arg1.IsWhole) (arg2 : Memref sig .tc .vmem S4000x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S4000x64 .f32) (harg5 : arg5.IsWhole)
    (x0 : Vec F S4000x3 .f32) (x1 : Vec F S4000x64 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__kmid_kernel i arg1 harg1 arg2 harg2 arg3 harg3 arg4 harg4 arg5 harg5) K := by
  simp only [cc2__kmid_kernel_eq_skeleton]; unfold cc2__kmid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them; after the body at point `t` each
    input's buffer at its block and the output's at `out2_4` of the input blocks; the invariant that of a body which
    keeps nothing of its own; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/- Region 3 of @main (pallas_call 3, `cc3__kfinal_kernel`) at a parameter `V`, the TensorCore's buffer contents
   when the region is entered. The body loads the whole staging rectangle of each of its 5 input windows, computes
   one value from them, and stores it over the whole staging rectangle of its output window 5. So: what an input's
   buffer holds at a grid point is that window's block of its array (fetched at that point or, for a window whose block
   index is constant, once at the first point and left in place); what the output's buffer holds after the body is the
   canonical contents of the one covering store over the payload of the input blocks. From these: the proof data of the
   pipeline, the body's triple, and the body obligation at every grid point. -/
import proofs.«109159_j7215545057639_1_alg».proof.Proof.Gen.Kernel.Launch
import proofs.«109159_j7215545057639_1_alg».proof.Proof.Gen.Kernel.Skeleton
import proofs.«109159_j7215545057639_1_alg».proof.Proof.Gen.Kernel.Points
import Idealize.ShloMosaic.Lib.Pipeline.FrameBody
import Idealize.ShloMosaic.Lib.Ring
import Idealize.ShloMosaic.Lib.Tactic

-- membership in a rectangle whose long axis has 4000 coordinates recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows (or the whole) of its array, as the region finds it, that the
    window's index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or
    the block index has not moved since the last fetch, for any proof data whose array is `V`'s and whose body leaves
    the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether the pipeline fetched it there or
    the block index has not moved since the last fetch, for any proof data whose array is `V`'s and whose body leaves
    the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether the pipeline fetched it there or
    the block index has not moved since the last fetch, for any proof data whose array is `V`'s and whose body leaves
    the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether the pipeline fetched it there or
    the block index has not moved since the last fetch, for any proof data whose array is `V`'s and whose body leaves
    the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether the pipeline fetched it there or
    the block index has not moved since the last fetch, for any proof data whose array is `V`'s and whose body leaves
    the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: one whole rectangle per window -/

abbrev r3_0 : Rect S4000x3 := Rect.unit (s := S4000x3) ![0, 0] S4000x3.size inb_S4000x3_S4000x3_0_0
abbrev r3_1 : Rect S4000x64 := Rect.unit (s := S4000x64) ![0, 0] S4000x64.size inb_S4000x64_S4000x64_0_0
abbrev r3_2 : Rect S1x64 := Rect.unit (s := S1x64) ![0, 0] S1x64.size inb_S1x64_S1x64_0_0
abbrev r3_3 : Rect S64x1 := Rect.unit (s := S64x1) ![0, 0] S64x1.size inb_S64x1_S64x1_0_0
abbrev r3_4 : Rect S1x1 := Rect.unit (s := S1x1) ![0, 0] S1x1.size inb_S1x1_S1x1_0_0
abbrev r3_5 : Rect S4000x1 := Rect.unit (s := S4000x1) ![0, 0] S4000x1.size inb_S4000x1_S4000x1_0_0

/-! ## What the body leaves in the output window's buffer -/

/-- Window 5's staging buffer after the body, from the input windows' blocks: its one store, over the whole buffer,
    of the payload of the loaded blocks. -/
def out3_5 (x0 : Vec F S4000x3 .f32) (x1 : Vec F S4000x64 .f32) (x2 : Vec F S1x64 .f32) (x3 : Vec F S64x1 .f32) (x4 : Vec F S1x1 .f32) : Vec F S4000x1 .f32 :=
  View.canon [⟨r3_5, k3_pay1 (View.ld x0 r3_0) (View.ld x1 r3_1) (View.ld x2 r3_2) (View.ld x3 r3_3) (View.ld x4 r3_4)⟩]

/-- The one store covers the buffer. -/
theorem cover3_5 (p0 : Vec F S4000x1 .f32) (y : S4000x1.Idx) :
    ∃ pc ∈ ([⟨r3_5, p0⟩] : List (View.Piece (Elt F) S4000x1 .f32)), y ∈ pc.1.set :=
  View.cover_of_tiled [⟨r3_5, p0⟩] S4000x1.size (by rfl) y

/-! ## The body's triple -/

set_option maxHeartbeats 1000000 in
/-- The kernel body on whole staging memrefs, the inputs' at read contents `xJ` and the output's at anything, runs to the
    continuation holding the inputs' as they were and the output's at `out3_5` of the inputs'. -/
theorem sound_kernel3 (c : Dev nD) (E : Set ℕ) (i : grid3.Coords) (arg1 : Memref sig .tc .vmem S4000x3 .f32) (harg1 : arg1.IsWhole) (arg2 : Memref sig .tc .vmem S4000x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S4000x1 .f32) (harg6 : arg6.IsWhole)
    (x0 : Vec F S4000x3 .f32) (x1 : Vec F S4000x64 .f32) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__kfinal_kernel i arg1 harg1 arg2 harg2 arg3 harg3 arg4 harg4 arg5 harg5 arg6 harg6) K := by
  simp only [cc3__kfinal_kernel_eq_skeleton]; unfold cc3__kfinal_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and the output's at `out3_5` of the input blocks; the invariant that of a body which
    keeps nothing of its own; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/- The run of @main: four kernel regions among stretches of host operations.
   The buffer contents at every boundary between two items are a fold from the launch memory: a stretch of host
   operations takes the contents to what its operations compute from them; a region takes them to the same contents
   except at its windows' arrays, which end at what the pipeline's write-backs leave (an input window's array as the
   region found it, the output window's array at the blocks the body left, point by point). Each region is run from
   its body obligation (the region modules); the thread state carried from item to item is "every unscoped buffer at
   the boundary's contents, the generator register at some state, nothing owed". The last state, read against the
   final memory, says that every unscoped buffer ends at the last boundary's contents; and no item writes an argument. -/
import proofs.«109159_j7215545057639_1_alg».proof.Proof.K.Region0
import proofs.«109159_j7215545057639_1_alg».proof.Proof.K.Region1
import proofs.«109159_j7215545057639_1_alg».proof.Proof.K.Region2
import proofs.«109159_j7215545057639_1_alg».proof.Proof.K.Region3
import proofs.«109159_j7215545057639_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`: the contents region 0 is entered from. -/
abbrev Win0 : Dev nD → Valuation τ sig (Elt F) := fun c => StableHlo.after hostOps0_4 (W4 m ρ c)
/-- The same read at the TensorCore's references (what region 0's proof data take). -/
abbrev Vin0 : (c : Dev nD) → (b : Ref sig .tc) → Buf (Elt F) ((c : Thread nD τ).loc b) := fun c b => Win0 m ρ c b
/-- At region 0's exit: its windows' arrays at what the pipeline leaves (an input's as entered, the output's at its
    write-backs folded over the grid), every other buffer as entered. -/
def Wexit0 (c : Dev nD) : Valuation τ sig (Elt F) :=
  Pipeline.withArrays spec0 c (Win0 m ρ c) fun w => (dat0 (Vin0 m ρ) c).arrAt w cfg0.N
theorem Wexit_arr0 (c : Dev nD) (w : Fin cfg0.W) :
    Wexit0 m ρ c (Proc.devRef .tc (Pipeline.arrRef spec0 w)) = (dat0 (Vin0 m ρ) c).arrAt w cfg0.N := by
  unfold Wexit0; exact Pipeline.withArrays_arr spec0 launch0.win.arr_inj c _ _ w
theorem Wexit_of_ne0 (c : Dev nD) (b : Ref sig .tc) (hb : ∀ w, Pipeline.arrRef spec0 w ≠ b) :
    Wexit0 m ρ c (Proc.devRef .tc b) = Win0 m ρ c (Proc.devRef .tc b) := by
  unfold Wexit0; exact Pipeline.withArrays_of_ne spec0 c _ _ b hb
/-- An input window's array leaves region 0 as it entered. -/
theorem Wexit_in0 (c : Dev nD) (w : Fin cfg0.W) (hw : (cfg0.win w).isOut = false) :
    Wexit0 m ρ c (Proc.devRef .tc (Pipeline.arrRef spec0 w)) = Win0 m ρ c (Proc.devRef .tc (Pipeline.arrRef spec0 w)) :=
  (Wexit_arr0 m ρ c w).trans (((dat0 (Vin0 m ρ) c).arrAt_in w hw _).trans (A_eq0 (Vin0 m ρ) c w))
/-- The same read at the TensorCore's references (region 0's exit contents). -/
abbrev Vexit0 : (c : Dev nD) → (b : Ref sig .tc) → Buf (Elt F) ((c : Thread nD τ).loc b) := fun c b => Wexit0 m ρ c b
/-- At region 0's exit each of its arrays holds what the pipeline leaves and every other buffer what it held at entry. -/
theorem hF0 (c : Dev nD) (w : Fin cfg0.W) : (dat0 (Vin0 m ρ) c).arrAt w cfg0.N = Vexit0 m ρ c (Pipeline.arrRef spec0 w) :=
  (Wexit_arr0 m ρ c w).symm
theorem hrest0 (c : Dev nD) : ∀ b, b ∉ Finset.univ.image (Pipeline.arrRef spec0) → Vexit0 m ρ c b = Vin0 m ρ c b :=
  fun b hb => Wexit_of_ne0 m ρ c b fun w e => hb (Finset.mem_image.mpr ⟨w, Finset.mem_univ _, e⟩)

/-- After `hostOps1`: the contents region 1 is entered from. -/
abbrev Win1 : Dev nD → Valuation τ sig (Elt F) := fun c => StableHlo.after hostOps1 (Wexit0 m ρ c)
/-- The same read at the TensorCore's references (what region 1's proof data take). -/
abbrev Vin1 : (c : Dev nD) → (b : Ref sig .tc) → Buf (Elt F) ((c : Thread nD τ).loc b) := fun c b => Win1 m ρ c b
/-- At region 1's exit: its windows' arrays at what the pipeline leaves (an input's as entered, the output's at its
    write-backs folded over the grid), every other buffer as entered. -/
def Wexit1 (c : Dev nD) : Valuation τ sig (Elt F) :=
  Pipeline.withArrays spec1 c (Win1 m ρ c) fun w => (dat1 (Vin1 m ρ) c).arrAt w cfg1.N
theorem Wexit_arr1 (c : Dev nD) (w : Fin cfg1.W) :
    Wexit1 m ρ c (Proc.devRef .tc (Pipeline.arrRef spec1 w)) = (dat1 (Vin1 m ρ) c).arrAt w cfg1.N := by
  unfold Wexit1; exact Pipeline.withArrays_arr spec1 launch1.win.arr_inj c _ _ w
theorem Wexit_of_ne1 (c : Dev nD) (b : Ref sig .tc) (hb : ∀ w, Pipeline.arrRef spec1 w ≠ b) :
    Wexit1 m ρ c (Proc.devRef .tc b) = Win1 m ρ c (Proc.devRef .tc b) := by
  unfold Wexit1; exact Pipeline.withArrays_of_ne spec1 c _ _ b hb
/-- An input window's array leaves region 1 as it entered. -/
theorem Wexit_in1 (c : Dev nD) (w : Fin cfg1.W) (hw : (cfg1.win w).isOut = false) :
    Wexit1 m ρ c (Proc.devRef .tc (Pipeline.arrRef spec1 w)) = Win1 m ρ c (Proc.devRef .tc (Pipeline.arrRef spec1 w)) :=
  (Wexit_arr1 m ρ c w).trans (((dat1 (Vin1 m ρ) c).arrAt_in w hw _).trans (A_eq1 (Vin1 m ρ) c w))
/-- The same read at the TensorCore's references (region 1's exit contents). -/
abbrev Vexit1 : (c : Dev nD) → (b : Ref sig .tc) → Buf (Elt F) ((c : Thread nD τ).loc b) := fun c b => Wexit1 m ρ c b
/-- At region 1's exit each of its arrays holds what the pipeline leaves and every other buffer what it held at entry. -/
theorem hF1 (c : Dev nD) (w : Fin cfg1.W) : (dat1 (Vin1 m ρ) c).arrAt w cfg1.N = Vexit1 m ρ c (Pipeline.arrRef spec1 w) :=
  (Wexit_arr1 m ρ c w).symm
theorem hrest1 (c : Dev nD) : ∀ b, b ∉ Finset.univ.image (Pipeline.arrRef spec1) → Vexit1 m ρ c b = Vin1 m ρ c b :=
  fun b hb => Wexit_of_ne1 m ρ c b fun w e => hb (Finset.mem_image.mpr ⟨w, Finset.mem_univ _, e⟩)

/-- After `hostOps2`: the contents region 2 is entered from. -/
abbrev Win2 : Dev nD → Valuation τ sig (Elt F) := fun c => StableHlo.after hostOps2 (Wexit1 m ρ c)
/-- The same read at the TensorCore's references (what region 2's proof data take). -/
abbrev Vin2 : (c : Dev nD) → (b : Ref sig .tc) → Buf (Elt F) ((c : Thread nD τ).loc b) := fun c b => Win2 m ρ c b
/-- At region 2's exit: its windows' arrays at what the pipeline leaves (an input's as entered, the output's at its
    write-backs folded over the grid), every other buffer as entered. -/
def Wexit2 (c : Dev nD) : Valuation τ sig (Elt F) :=
  Pipeline.withArrays spec2 c (Win2 m ρ c) fun w => (dat2 (Vin2 m ρ) c).arrAt w cfg2.N
theorem Wexit_arr2 (c : Dev nD) (w : Fin cfg2.W) :
    Wexit2 m ρ c (Proc.devRef .tc (Pipeline.arrRef spec2 w)) = (dat2 (Vin2 m ρ) c).arrAt w cfg2.N := by
  unfold Wexit2; exact Pipeline.withArrays_arr spec2 launch2.win.arr_inj c _ _ w
theorem Wexit_of_ne2 (c : Dev nD) (b : Ref sig .tc) (hb : ∀ w, Pipeline.arrRef spec2 w ≠ b) :
    Wexit2 m ρ c (Proc.devRef .tc b) = Win2 m ρ c (Proc.devRef .tc b) := by
  unfold Wexit2; exact Pipeline.withArrays_of_ne spec2 c _ _ b hb
/-- An input window's array leaves region 2 as it entered. -/
theorem Wexit_in2 (c : Dev nD) (w : Fin cfg2.W) (hw : (cfg2.win w).isOut = false) :
    Wexit2 m ρ c (Proc.devRef .tc (Pipeline.arrRef spec2 w)) = Win2 m ρ c (Proc.devRef .tc (Pipeline.arrRef spec2 w)) :=
  (Wexit_arr2 m ρ c w).trans (((dat2 (Vin2 m ρ) c).arrAt_in w hw _).trans (A_eq2 (Vin2 m ρ) c w))
/-- The same read at the TensorCore's references (region 2's exit contents). -/
abbrev Vexit2 : (c : Dev nD) → (b : Ref sig .tc) → Buf (Elt F) ((c : Thread nD τ).loc b) := fun c b => Wexit2 m ρ c b
/-- At region 2's exit each of its arrays holds what the pipeline leaves and every other buffer what it held at entry. -/
theorem hF2 (c : Dev nD) (w : Fin cfg2.W) : (dat2 (Vin2 m ρ) c).arrAt w cfg2.N = Vexit2 m ρ c (Pipeline.arrRef spec2 w) :=
  (Wexit_arr2 m ρ c w).symm
theorem hrest2 (c : Dev nD) : ∀ b, b ∉ Finset.univ.image (Pipeline.arrRef spec2) → Vexit2 m ρ c b = Vin2 m ρ c b :=
  fun b hb => Wexit_of_ne2 m ρ c b fun w e => hb (Finset.mem_image.mpr ⟨w, Finset.mem_univ _, e⟩)

/-- After `hostOps3`: the contents region 3 is entered from. -/
abbrev Win3 : Dev nD → Valuation τ sig (Elt F) := fun c => StableHlo.after hostOps3 (Wexit2 m ρ c)
/-- The same read at the TensorCore's references (what region 3's proof data take). -/
abbrev Vin3 : (c : Dev nD) → (b : Ref sig .tc) → Buf (Elt F) ((c : Thread nD τ).loc b) := fun c b => Win3 m ρ c b
/-- At region 3's exit: its windows' arrays at what the pipeline leaves (an input's as entered, the output's at its
    write-backs folded over the grid), every other buffer as entered. -/
def Wexit3 (c : Dev nD) : Valuation τ sig (Elt F) :=
  Pipeline.withArrays spec3 c (Win3 m ρ c) fun w => (dat3 (Vin3 m ρ) c).arrAt w cfg3.N
theorem Wexit_arr3 (c : Dev nD) (w : Fin cfg3.W) :
    Wexit3 m ρ c (Proc.devRef .tc (Pipeline.arrRef spec3 w)) = (dat3 (Vin3 m ρ) c).arrAt w cfg3.N := by
  unfold Wexit3; exact Pipeline.withArrays_arr spec3 launch3.win.arr_inj c _ _ w
theorem Wexit_of_ne3 (c : Dev nD) (b : Ref sig .tc) (hb : ∀ w, Pipeline.arrRef spec3 w ≠ b) :
    Wexit3 m ρ c (Proc.devRef .tc b) = Win3 m ρ c (Proc.devRef .tc b) := by
  unfold Wexit3; exact Pipeline.withArrays_of_ne spec3 c _ _ b hb
/-- An input window's array leaves region 3 as it entered. -/
theorem Wexit_in3 (c : Dev nD) (w : Fin cfg3.W) (hw : (cfg3.win w).isOut = false) :
    Wexit3 m ρ c (Proc.devRef .tc (Pipeline.arrRef spec3 w)) = Win3 m ρ c (Proc.devRef .tc (Pipeline.arrRef spec3 w)) :=
  (Wexit_arr3 m ρ c w).trans (((dat3 (Vin3 m ρ) c).arrAt_in w hw _).trans (A_eq3 (Vin3 m ρ) c w))
/-- The same read at the TensorCore's references (region 3's exit contents). -/
abbrev Vexit3 : (c : Dev nD) → (b : Ref sig .tc) → Buf (Elt F) ((c : Thread nD τ).loc b) := fun c b => Wexit3 m ρ c b
/-- At region 3's exit each of its arrays holds what the pipeline leaves and every other buffer what it held at entry. -/
theorem hF3 (c : Dev nD) (w : Fin cfg3.W) : (dat3 (Vin3 m ρ) c).arrAt w cfg3.N = Vexit3 m ρ c (Pipeline.arrRef spec3 w) :=
  (Wexit_arr3 m ρ c w).symm
theorem hrest3 (c : Dev nD) : ∀ b, b ∉ Finset.univ.image (Pipeline.arrRef spec3) → Vexit3 m ρ c b = Vin3 m ρ c b :=
  fun b hb => Wexit_of_ne3 m ρ c b fun w e => hb (Finset.mem_image.mpr ⟨w, Finset.mem_univ _, e⟩)

/-- The contents at the end of @main. -/
abbrev Wend : Dev nD → Valuation τ sig (Elt F) := fun c => Wexit3 m ρ c

/-! ### The arguments end as launched: no stretch of host operations writes one, and a region leaves an argument it
    stages through an input window as it found it and does not touch the others -/

theorem Wend_main_arg0 (c : Dev nD) : Wend m ρ c (Proc.devRef .tc main_arg0) = m ((c : Thread nD τ).loc main_arg0) :=
  calc Wend m ρ c (Proc.devRef .tc main_arg0)
    _ = Win3 m ρ c (Proc.devRef .tc main_arg0) := Wexit_of_ne3 m ρ c main_arg0 (by decide)
    _ = Wexit2 m ρ c (Proc.devRef .tc main_arg0) := StableHlo.after_of_writes_sub hostOps3 _ hostOps3_writes (by decide)
    _ = Win2 m ρ c (Proc.devRef .tc main_arg0) := Wexit_of_ne2 m ρ c main_arg0 (by decide)
    _ = Wexit1 m ρ c (Proc.devRef .tc main_arg0) := StableHlo.after_of_writes_sub hostOps2 _ hostOps2_writes (by decide)
    _ = Win1 m ρ c (Proc.devRef .tc main_arg0) := Wexit_of_ne1 m ρ c main_arg0 (by decide)
    _ = Wexit0 m ρ c (Proc.devRef .tc main_arg0) := StableHlo.after_of_writes_sub hostOps1 _ hostOps1_writes (by decide)
    _ = Win0 m ρ c (Proc.devRef .tc main_arg0) := Wexit_of_ne0 m ρ c main_arg0 (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem Wend_main_arg1 (c : Dev nD) : Wend m ρ c (Proc.devRef .tc main_arg1) = m ((c : Thread nD τ).loc main_arg1) :=
  calc Wend m ρ c (Proc.devRef .tc main_arg1)
    _ = Win3 m ρ c (Proc.devRef .tc main_arg1) := Wexit_of_ne3 m ρ c main_arg1 (by decide)
    _ = Wexit2 m ρ c (Proc.devRef .tc main_arg1) := StableHlo.after_of_writes_sub hostOps3 _ hostOps3_writes (by decide)
    _ = Win2 m ρ c (Proc.devRef .tc main_arg1) := Wexit_of_ne2 m ρ c main_arg1 (by decide)
    _ = Wexit1 m ρ c (Proc.devRef .tc main_arg1) := StableHlo.after_of_writes_sub hostOps2 _ hostOps2_writes (by decide)
    _ = Win1 m ρ c (Proc.devRef .tc main_arg1) := Wexit_of_ne1 m ρ c main_arg1 (by decide)
    _ = Wexit0 m ρ c (Proc.devRef .tc main_arg1) := StableHlo.after_of_writes_sub hostOps1 _ hostOps1_writes (by decide)
    _ = Win0 m ρ c (Proc.devRef .tc main_arg1) := Wexit_of_ne0 m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem Wend_main_arg2 (c : Dev nD) : Wend m ρ c (Proc.devRef .tc main_arg2) = m ((c : Thread nD τ).loc main_arg2) :=
  calc Wend m ρ c (Proc.devRef .tc main_arg2)
    _ = Win3 m ρ c (Proc.devRef .tc main_arg2) := Wexit_of_ne3 m ρ c main_arg2 (by decide)
    _ = Wexit2 m ρ c (Proc.devRef .tc main_arg2) := StableHlo.after_of_writes_sub hostOps3 _ hostOps3_writes (by decide)
    _ = Win2 m ρ c (Proc.devRef .tc main_arg2) := Wexit_of_ne2 m ρ c main_arg2 (by decide)
    _ = Wexit1 m ρ c (Proc.devRef .tc main_arg2) := StableHlo.after_of_writes_sub hostOps2 _ hostOps2_writes (by decide)
    _ = Win1 m ρ c (Proc.devRef .tc main_arg2) := Wexit_of_ne1 m ρ c main_arg2 (by decide)
    _ = Wexit0 m ρ c (Proc.devRef .tc main_arg2) := StableHlo.after_of_writes_sub hostOps1 _ hostOps1_writes (by decide)
    _ = Win0 m ρ c (Proc.devRef .tc main_arg2) := Wexit_of_ne0 m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem Wend_main_arg3 (c : Dev nD) : Wend m ρ c (Proc.devRef .tc main_arg3) = m ((c : Thread nD τ).loc main_arg3) :=
  calc Wend m ρ c (Proc.devRef .tc main_arg3)
    _ = Win3 m ρ c (Proc.devRef .tc main_arg3) := Wexit_of_ne3 m ρ c main_arg3 (by decide)
    _ = Wexit2 m ρ c (Proc.devRef .tc main_arg3) := StableHlo.after_of_writes_sub hostOps3 _ hostOps3_writes (by decide)
    _ = Win2 m ρ c (Proc.devRef .tc main_arg3) := Wexit_of_ne2 m ρ c main_arg3 (by decide)
    _ = Wexit1 m ρ c (Proc.devRef .tc main_arg3) := StableHlo.after_of_writes_sub hostOps2 _ hostOps2_writes (by decide)
    _ = Win1 m ρ c (Proc.devRef .tc main_arg3) := Wexit_of_ne1 m ρ c main_arg3 (by decide)
    _ = Wexit0 m ρ c (Proc.devRef .tc main_arg3) := StableHlo.after_of_writes_sub hostOps1 _ hostOps1_writes (by decide)
    _ = Win0 m ρ c (Proc.devRef .tc main_arg3) := Wexit_in0 m ρ c 1 rfl
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem Wend_main_arg4 (c : Dev nD) : Wend m ρ c (Proc.devRef .tc main_arg4) = m ((c : Thread nD τ).loc main_arg4) :=
  calc Wend m ρ c (Proc.devRef .tc main_arg4)
    _ = Win3 m ρ c (Proc.devRef .tc main_arg4) := Wexit_of_ne3 m ρ c main_arg4 (by decide)
    _ = Wexit2 m ρ c (Proc.devRef .tc main_arg4) := StableHlo.after_of_writes_sub hostOps3 _ hostOps3_writes (by decide)
    _ = Win2 m ρ c (Proc.devRef .tc main_arg4) := Wexit_of_ne2 m ρ c main_arg4 (by decide)
    _ = Wexit1 m ρ c (Proc.devRef .tc main_arg4) := StableHlo.after_of_writes_sub hostOps2 _ hostOps2_writes (by decide)
    _ = Win1 m ρ c (Proc.devRef .tc main_arg4) := Wexit_of_ne1 m ρ c main_arg4 (by decide)
    _ = Wexit0 m ρ c (Proc.devRef .tc main_arg4) := StableHlo.after_of_writes_sub hostOps1 _ hostOps1_writes (by decide)
    _ = Win0 m ρ c (Proc.devRef .tc main_arg4) := Wexit_of_ne0 m ρ c main_arg4 (by decide)
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem Wend_main_arg5 (c : Dev nD) : Wend m ρ c (Proc.devRef .tc main_arg5) = m ((c : Thread nD τ).loc main_arg5) :=
  calc Wend m ρ c (Proc.devRef .tc main_arg5)
    _ = Win3 m ρ c (Proc.devRef .tc main_arg5) := Wexit_of_ne3 m ρ c main_arg5 (by decide)
    _ = Wexit2 m ρ c (Proc.devRef .tc main_arg5) := StableHlo.after_of_writes_sub hostOps3 _ hostOps3_writes (by decide)
    _ = Win2 m ρ c (Proc.devRef .tc main_arg5) := Wexit_of_ne2 m ρ c main_arg5 (by decide)
    _ = Wexit1 m ρ c (Proc.devRef .tc main_arg5) := StableHlo.after_of_writes_sub hostOps2 _ hostOps2_writes (by decide)
    _ = Win1 m ρ c (Proc.devRef .tc main_arg5) := Wexit_of_ne1 m ρ c main_arg5 (by decide)
    _ = Wexit0 m ρ c (Proc.devRef .tc main_arg5) := StableHlo.after_of_writes_sub hostOps1 _ hostOps1_writes (by decide)
    _ = Win0 m ρ c (Proc.devRef .tc main_arg5) := Wexit_of_ne0 m ρ c main_arg5 (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem Wend_main_arg6 (c : Dev nD) : Wend m ρ c (Proc.devRef .tc main_arg6) = m ((c : Thread nD τ).loc main_arg6) :=
  calc Wend m ρ c (Proc.devRef .tc main_arg6)
    _ = Win3 m ρ c (Proc.devRef .tc main_arg6) := Wexit_of_ne3 m ρ c main_arg6 (by decide)
    _ = Wexit2 m ρ c (Proc.devRef .tc main_arg6) := StableHlo.after_of_writes_sub hostOps3 _ hostOps3_writes (by decide)
    _ = Win2 m ρ c (Proc.devRef .tc main_arg6) := Wexit_of_ne2 m ρ c main_arg6 (by decide)
    _ = Wexit1 m ρ c (Proc.devRef .tc main_arg6) := StableHlo.after_of_writes_sub hostOps2 _ hostOps2_writes (by decide)
    _ = Win1 m ρ c (Proc.devRef .tc main_arg6) := Wexit_of_ne1 m ρ c main_arg6 (by decide)
    _ = Wexit0 m ρ c (Proc.devRef .tc main_arg6) := StableHlo.after_of_writes_sub hostOps1 _ hostOps1_writes (by decide)
    _ = Win0 m ρ c (Proc.devRef .tc main_arg6) := Wexit_of_ne0 m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem Wend_main_arg7 (c : Dev nD) : Wend m ρ c (Proc.devRef .tc main_arg7) = m ((c : Thread nD τ).loc main_arg7) :=
  calc Wend m ρ c (Proc.devRef .tc main_arg7)
    _ = Win3 m ρ c (Proc.devRef .tc main_arg7) := Wexit_in3 m ρ c 3 rfl
    _ = Wexit2 m ρ c (Proc.devRef .tc main_arg7) := StableHlo.after_of_writes_sub hostOps3 _ hostOps3_writes (by decide)
    _ = Win2 m ρ c (Proc.devRef .tc main_arg7) := Wexit_of_ne2 m ρ c main_arg7 (by decide)
    _ = Wexit1 m ρ c (Proc.devRef .tc main_arg7) := StableHlo.after_of_writes_sub hostOps2 _ hostOps2_writes (by decide)
    _ = Win1 m ρ c (Proc.devRef .tc main_arg7) := Wexit_of_ne1 m ρ c main_arg7 (by decide)
    _ = Wexit0 m ρ c (Proc.devRef .tc main_arg7) := StableHlo.after_of_writes_sub hostOps1 _ hostOps1_writes (by decide)
    _ = Win0 m ρ c (Proc.devRef .tc main_arg7) := Wexit_of_ne0 m ρ c main_arg7 (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
theorem Wend_main_arg8 (c : Dev nD) : Wend m ρ c (Proc.devRef .tc main_arg8) = m ((c : Thread nD τ).loc main_arg8) :=
  calc Wend m ρ c (Proc.devRef .tc main_arg8)
    _ = Win3 m ρ c (Proc.devRef .tc main_arg8) := Wexit_of_ne3 m ρ c main_arg8 (by decide)
    _ = Wexit2 m ρ c (Proc.devRef .tc main_arg8) := StableHlo.after_of_writes_sub hostOps3 _ hostOps3_writes (by decide)
    _ = Win2 m ρ c (Proc.devRef .tc main_arg8) := Wexit_of_ne2 m ρ c main_arg8 (by decide)
    _ = Wexit1 m ρ c (Proc.devRef .tc main_arg8) := StableHlo.after_of_writes_sub hostOps2 _ hostOps2_writes (by decide)
    _ = Win1 m ρ c (Proc.devRef .tc main_arg8) := Wexit_of_ne1 m ρ c main_arg8 (by decide)
    _ = Wexit0 m ρ c (Proc.devRef .tc main_arg8) := StableHlo.after_of_writes_sub hostOps1 _ hostOps1_writes (by decide)
    _ = Win0 m ρ c (Proc.devRef .tc main_arg8) := Wexit_of_ne0 m ρ c main_arg8 (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every pipeline's proof data, each at its region's entry contents: a literal match on the pipeline's index. -/
def pdats : (p : Fin 4) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (Wend m ρ c) ∗ ∃ r, prngReg c r)

/-! ## The regions as segments -/

-- applying a library lemma stated over the pinned configuration unifies with the printed one only when unification
-- may unfold plain definitions in a metavariable's type
set_option backward.isDefEq.respectTransparency.types false in
/-- REGION 0 over the thread state: entered from every unscoped buffer at `Win0`, left at `Wexit0`. Its arrays are
    split out of the unscoped buffers at entry and put back at the exit contents; the generator register goes into the
    body's invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (Win0 m ρ c) ∗ R c)
  post c := iprop(StableHlo.held (c : Thread nD τ) (Pipeline.ucRefs τ sig) (Wexit0 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vexit0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- REGION 1 over the thread state: entered from every unscoped buffer at `Win1`, left at `Wexit1`. Its arrays are
    split out of the unscoped buffers at entry and put back at the exit contents; the generator register goes into the
    body's invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (Win1 m ρ c) ∗ R c)
  post c := iprop(StableHlo.held (c : Thread nD τ) (Pipeline.ucRefs τ sig) (Wexit1 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vexit1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- REGION 2 over the thread state: entered from every unscoped buffer at `Win2`, left at `Wexit2`. Its arrays are
    split out of the unscoped buffers at entry and put back at the exit contents; the generator register goes into the
    body's invariant and comes out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (Win2 m ρ c) ∗ R c)
  post c := iprop(StableHlo.held (c : Thread nD τ) (Pipeline.ucRefs τ sig) (Wexit2 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vexit2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- REGION 3 over the thread state: entered from every unscoped buffer at `Win3`, left at `Wexit3`. Its arrays are
    split out of the unscoped buffers at entry and put back at the exit contents; the generator register goes into the
    body's invariant and comes out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (Win3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vin3 m ρ c) (Vexit3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 12 items in order: a host segment per stretch from its boundary's contents, a region per pallas_call. -/
abbrev segsH : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (Wexit0 m ρ)),
    .region (reg1 m ρ),
    .host (hseg hostOps2 hostOps2_sub hostOps2_fresh (Wexit1 m ρ)),
    .region (reg2 m ρ),
    .host (hseg hostOps3 hostOps3_sub hostOps3_fresh (Wexit2 m ρ)),
    .region (reg3 m ρ) ]

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and in every final state every unscoped buffer holds the last boundary's contents `Wend`. -/
theorem run : θ_run (defs (F := F)) (onTc (τ := τ) (main (F := F))) ⟨m, fun _ => 0, ρ⟩ (fun r => ∀ c : Dev nD,
      ∀ b ∈ Pipeline.ucRefs τ sig, r.2.mem (((c : Thread nD τ)).1, b) = Wend m ρ c b) :=
  Pipeline.θ_run_regions_kit (pcfgs (F := F)) adm (pdats m ρ) () cellOf_inj emb₁ defs₀ 𝒱₀ L lv m ρ main (segsH m ρ)
    (fun c Q => by
      rewrite [main_chain c, Pipeline.Seg.run_eq_chain,
        show (segsH m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun s h c => h c)

/-- THE FRAME at any `F`: every argument array ends as launched — the run's post read at the arguments. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := F)) _ _).mono (fun r h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c),
     (h c _ (mem_uc main_arg5 (by decide))).trans (Wend_main_arg5 m ρ c),
     (h c _ (mem_uc main_arg6 (by decide))).trans (Wend_main_arg6 m ρ c),
     (h c _ (mem_uc main_arg7 (by decide))).trans (Wend_main_arg7 m ρ c),
     (h c _ (mem_uc main_arg8 (by decide))).trans (Wend_main_arg8 m ρ c)⟩) (run m ρ)

end Cert.Kernel.Hand

end
-- ==== Proof.KI.Region0.lean ====
/- Region 0 of @main (pallas_call 0, `cc0__k0_kernel`) at a parameter `V`, the TensorCore's buffer contents
   when the region is entered. The body loads the whole staging rectangle of each of its 4 input windows, computes
   one value from them, and stores it over the whole staging rectangle of its output window 4. So: what an input's
   buffer holds at a grid point is that window's block of its array (fetched at that point or, for a window whose block
   index is constant, once at the first point and left in place); what the output's buffer holds after the body is the
   canonical contents of the one covering store over the payload of the input blocks. From these: the proof data of the
   pipeline, the body's triple, and the body obligation at every grid point. -/
import proofs.«109159_j7215545057639_1_alg».proof.Proof.Gen.KernelIdeal.Launch
import proofs.«109159_j7215545057639_1_alg».proof.Proof.Gen.KernelIdeal.Skeleton
import proofs.«109159_j7215545057639_1_alg».proof.Proof.Gen.KernelIdeal.Points
import Idealize.ShloMosaic.Lib.Pipeline.FrameBody
import Idealize.ShloMosaic.Lib.Ring
import Idealize.ShloMosaic.Lib.Tactic

-- membership in a rectangle whose long axis has 4000 coordinates recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows (or the whole) of its array, as the region finds it, that the
    window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    the block index has not moved since the last fetch, for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether the pipeline fetched it there or
    the block index has not moved since the last fetch, for any proof data whose array is `V`'s and whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether the pipeline fetched it there or
    the block index has not moved since the last fetch, for any proof data whose array is `V`'s and whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether the pipeline fetched it there or
    the block index has not moved since the last fetch, for any proof data whose array is `V`'s and whose body leaves
    the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: one whole rectangle per window -/

abbrev r0_0 : Rect S4000x3 := Rect.unit (s := S4000x3) ![0, 0] S4000x3.size inb_S4000x3_S4000x3_0_0
abbrev r0_1 : Rect S1x64 := Rect.unit (s := S1x64) ![0, 0] S1x64.size inb_S1x64_S1x64_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S4000x64 := Rect.unit (s := S4000x64) ![0, 0] S4000x64.size inb_S4000x64_S4000x64_0_0

/-! ## What the body leaves in the output window's buffer -/

/-- Window 4's staging buffer after the body, from the input windows' blocks: its one store, over the whole buffer,
    of the payload of the loaded blocks. -/
def out0_4 (x0 : Vec F S4000x3 .f32) (x1 : Vec F S1x64 .f32) (x2 : Vec F S1x64 .f32) (x3 : Vec F S64x64 .f32) : Vec F S4000x64 .f32 :=
  View.canon [⟨r0_4, k0_pay1 (View.ld x0 r0_0) (View.ld x1 r0_1) (View.ld x2 r0_2) (View.ld x3 r0_3)⟩]

/-- The one store covers the buffer. -/
theorem cover0_4 (p0 : Vec F S4000x64 .f32) (y : S4000x64.Idx) :
    ∃ pc ∈ ([⟨r0_4, p0⟩] : List (View.Piece (Elt F) S4000x64 .f32)), y ∈ pc.1.set :=
  View.cover_of_tiled [⟨r0_4, p0⟩] S4000x64.size (by rfl) y

/-! ## The body's triple -/

set_option maxHeartbeats 1000000 in
/-- The kernel body on whole staging memrefs, the inputs' at read contents `xJ` and the output's at anything, runs to the
    continuation holding the inputs' as they were and the output's at `out0_4` of the inputs'. -/
theorem sound_kernel0 (c : Dev nD) (E : Set ℕ) (i : grid0.Coords) (arg1 : Memref sig .tc .vmem S4000x3 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S4000x64 .f32) (harg5 : arg5.IsWhole)
    (x0 : Vec F S4000x3 .f32) (x1 : Vec F S1x64 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__k0_kernel i arg1 harg1 arg2 harg2 arg3 harg3 arg4 harg4 arg5 harg5) K := by
  simp only [cc0__k0_kernel_eq_skeleton]; unfold cc0__k0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them; after the body at point `t` each
    input's buffer at its block and the output's at `out0_4` of the input blocks; the invariant that of a body which
    keeps nothing of its own; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- Region 1 of @main (pallas_call 1, `cc1__kmid_kernel`) at a parameter `V`, the TensorCore's buffer contents
   when the region is entered. The body loads the whole staging rectangle of each of its 4 input windows, computes
   one value from them, and stores it over the whole staging rectangle of its output window 4. So: what an input's
   buffer holds at a grid point is that window's block of its array (fetched at that point or, for a window whose block
   index is constant, once at the first point and left in place); what the output's buffer holds after the body is the
   canonical contents of the one covering store over the payload of the input blocks. From these: the proof data of the
   pipeline, the body's triple, and the body obligation at every grid point. -/
import proofs.«109159_j7215545057639_1_alg».proof.Proof.Gen.KernelIdeal.Launch
import proofs.«109159_j7215545057639_1_alg».proof.Proof.Gen.KernelIdeal.Skeleton
import proofs.«109159_j7215545057639_1_alg».proof.Proof.Gen.KernelIdeal.Points
import Idealize.ShloMosaic.Lib.Pipeline.FrameBody
import Idealize.ShloMosaic.Lib.Ring
import Idealize.ShloMosaic.Lib.Tactic

-- membership in a rectangle whose long axis has 4000 coordinates recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows (or the whole) of its array, as the region finds it, that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    the block index has not moved since the last fetch, for any proof data whose array is `V`'s and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the pipeline fetched it there or
    the block index has not moved since the last fetch, for any proof data whose array is `V`'s and whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the pipeline fetched it there or
    the block index has not moved since the last fetch, for any proof data whose array is `V`'s and whose body leaves
    the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the pipeline fetched it there or
    the block index has not moved since the last fetch, for any proof data whose array is `V`'s and whose body leaves
    the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one whole rectangle per window -/

abbrev r1_0 : Rect S4000x3 := Rect.unit (s := S4000x3) ![0, 0] S4000x3.size inb_S4000x3_S4000x3_0_0
abbrev r1_1 : Rect S4000x64 := Rect.unit (s := S4000x64) ![0, 0] S4000x64.size inb_S4000x64_S4000x64_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0
abbrev r1_4 : Rect S4000x64 := Rect.unit (s := S4000x64) ![0, 0] S4000x64.size inb_S4000x64_S4000x64_0_0

/-! ## What the body leaves in the output window's buffer -/

/-- Window 4's staging buffer after the body, from the input windows' blocks: its one store, over the whole buffer,
    of the payload of the loaded blocks. -/
def out1_4 (x0 : Vec F S4000x3 .f32) (x1 : Vec F S4000x64 .f32) (x2 : Vec F S1x64 .f32) (x3 : Vec F S64x64 .f32) : Vec F S4000x64 .f32 :=
  View.canon [⟨r1_4, k1_pay1 (View.ld x0 r1_0) (View.ld x1 r1_1) (View.ld x2 r1_2) (View.ld x3 r1_3)⟩]

/-- The one store covers the buffer. -/
theorem cover1_4 (p0 : Vec F S4000x64 .f32) (y : S4000x64.Idx) :
    ∃ pc ∈ ([⟨r1_4, p0⟩] : List (View.Piece (Elt F) S4000x64 .f32)), y ∈ pc.1.set :=
  View.cover_of_tiled [⟨r1_4, p0⟩] S4000x64.size (by rfl) y

/-! ## The body's triple -/

set_option maxHeartbeats 1000000 in
/-- The kernel body on whole staging memrefs, the inputs' at read contents `xJ` and the output's at anything, runs to the
    continuation holding the inputs' as they were and the output's at `out1_4` of the inputs'. -/
theorem sound_kernel1 (c : Dev nD) (E : Set ℕ) (i : grid1.Coords) (arg1 : Memref sig .tc .vmem S4000x3 .f32) (harg1 : arg1.IsWhole) (arg2 : Memref sig .tc .vmem S4000x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S4000x64 .f32) (harg5 : arg5.IsWhole)
    (x0 : Vec F S4000x3 .f32) (x1 : Vec F S4000x64 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__kmid_kernel i arg1 harg1 arg2 harg2 arg3 harg3 arg4 harg4 arg5 harg5) K := by
  simp only [cc1__kmid_kernel_eq_skeleton]; unfold cc1__kmid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them; after the body at point `t` each
    input's buffer at its block and the output's at `out1_4` of the input blocks; the invariant that of a body which
    keeps nothing of its own; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/- Region 2 of @main (pallas_call 2, `cc2__kmid_kernel`) at a parameter `V`, the TensorCore's buffer contents
   when the region is entered. The body loads the whole staging rectangle of each of its 4 input windows, computes
   one value from them, and stores it over the whole staging rectangle of its output window 4. So: what an input's
   buffer holds at a grid point is that window's block of its array (fetched at that point or, for a window whose block
   index is constant, once at the first point and left in place); what the output's buffer holds after the body is the
   canonical contents of the one covering store over the payload of the input blocks. From these: the proof data of the
   pipeline, the body's triple, and the body obligation at every grid point. -/
import proofs.«109159_j7215545057639_1_alg».proof.Proof.Gen.KernelIdeal.Launch
import proofs.«109159_j7215545057639_1_alg».proof.Proof.Gen.KernelIdeal.Skeleton
import proofs.«109159_j7215545057639_1_alg».proof.Proof.Gen.KernelIdeal.Points
import Idealize.ShloMosaic.Lib.Pipeline.FrameBody
import Idealize.ShloMosaic.Lib.Ring
import Idealize.ShloMosaic.Lib.Tactic

-- membership in a rectangle whose long axis has 4000 coordinates recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows (or the whole) of its array, as the region finds it, that the
    window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    the block index has not moved since the last fetch, for any proof data whose array is `V`'s and whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether the pipeline fetched it there or
    the block index has not moved since the last fetch, for any proof data whose array is `V`'s and whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether the pipeline fetched it there or
    the block index has not moved since the last fetch, for any proof data whose array is `V`'s and whose body leaves
    the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether the pipeline fetched it there or
    the block index has not moved since the last fetch, for any proof data whose array is `V`'s and whose body leaves
    the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: one whole rectangle per window -/

abbrev r2_0 : Rect S4000x3 := Rect.unit (s := S4000x3) ![0, 0] S4000x3.size inb_S4000x3_S4000x3_0_0
abbrev r2_1 : Rect S4000x64 := Rect.unit (s := S4000x64) ![0, 0] S4000x64.size inb_S4000x64_S4000x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0
abbrev r2_4 : Rect S4000x64 := Rect.unit (s := S4000x64) ![0, 0] S4000x64.size inb_S4000x64_S4000x64_0_0

/-! ## What the body leaves in the output window's buffer -/

/-- Window 4's staging buffer after the body, from the input windows' blocks: its one store, over the whole buffer,
    of the payload of the loaded blocks. -/
def out2_4 (x0 : Vec F S4000x3 .f32) (x1 : Vec F S4000x64 .f32) (x2 : Vec F S1x64 .f32) (x3 : Vec F S64x64 .f32) : Vec F S4000x64 .f32 :=
  View.canon [⟨r2_4, k2_pay1 (View.ld x0 r2_0) (View.ld x1 r2_1) (View.ld x2 r2_2) (View.ld x3 r2_3)⟩]

/-- The one store covers the buffer. -/
theorem cover2_4 (p0 : Vec F S4000x64 .f32) (y : S4000x64.Idx) :
    ∃ pc ∈ ([⟨r2_4, p0⟩] : List (View.Piece (Elt F) S4000x64 .f32)), y ∈ pc.1.set :=
  View.cover_of_tiled [⟨r2_4, p0⟩] S4000x64.size (by rfl) y

/-! ## The body's triple -/

set_option maxHeartbeats 1000000 in
/-- The kernel body on whole staging memrefs, the inputs' at read contents `xJ` and the output's at anything, runs to the
    continuation holding the inputs' as they were and the output's at `out2_4` of the inputs'. -/
theorem sound_kernel2 (c : Dev nD) (E : Set ℕ) (i : grid2.Coords) (arg1 : Memref sig .tc .vmem S4000x3 .f32) (harg1 : arg1.IsWhole) (arg2 : Memref sig .tc .vmem S4000x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S4000x64 .f32) (harg5 : arg5.IsWhole)
    (x0 : Vec F S4000x3 .f32) (x1 : Vec F S4000x64 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__kmid_kernel i arg1 harg1 arg2 harg2 arg3 harg3 arg4 harg4 arg5 harg5) K := by
  simp only [cc2__kmid_kernel_eq_skeleton]; unfold cc2__kmid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them; after the body at point `t` each
    input's buffer at its block and the output's at `out2_4` of the input blocks; the invariant that of a body which
    keeps nothing of its own; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/- Region 3 of @main (pallas_call 3, `cc3__kfinal_kernel`) at a parameter `V`, the TensorCore's buffer contents
   when the region is entered. The body loads the whole staging rectangle of each of its 5 input windows, computes
   one value from them, and stores it over the whole staging rectangle of its output window 5. So: what an input's
   buffer holds at a grid point is that window's block of its array (fetched at that point or, for a window whose block
   index is constant, once at the first point and left in place); what the output's buffer holds after the body is the
   canonical contents of the one covering store over the payload of the input blocks. From these: the proof data of the
   pipeline, the body's triple, and the body obligation at every grid point. -/
import proofs.«109159_j7215545057639_1_alg».proof.Proof.Gen.KernelIdeal.Launch
import proofs.«109159_j7215545057639_1_alg».proof.Proof.Gen.KernelIdeal.Skeleton
import proofs.«109159_j7215545057639_1_alg».proof.Proof.Gen.KernelIdeal.Points
import Idealize.ShloMosaic.Lib.Pipeline.FrameBody
import Idealize.ShloMosaic.Lib.Ring
import Idealize.ShloMosaic.Lib.Tactic

-- membership in a rectangle whose long axis has 4000 coordinates recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: the rows (or the whole) of its array, as the region finds it, that the
    window's index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there or
    the block index has not moved since the last fetch, for any proof data whose array is `V`'s and whose body leaves
    the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether the pipeline fetched it there or
    the block index has not moved since the last fetch, for any proof data whose array is `V`'s and whose body leaves
    the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether the pipeline fetched it there or
    the block index has not moved since the last fetch, for any proof data whose array is `V`'s and whose body leaves
    the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether the pipeline fetched it there or
    the block index has not moved since the last fetch, for any proof data whose array is `V`'s and whose body leaves
    the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether the pipeline fetched it there or
    the block index has not moved since the last fetch, for any proof data whose array is `V`'s and whose body leaves
    the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: one whole rectangle per window -/

abbrev r3_0 : Rect S4000x3 := Rect.unit (s := S4000x3) ![0, 0] S4000x3.size inb_S4000x3_S4000x3_0_0
abbrev r3_1 : Rect S4000x64 := Rect.unit (s := S4000x64) ![0, 0] S4000x64.size inb_S4000x64_S4000x64_0_0
abbrev r3_2 : Rect S1x64 := Rect.unit (s := S1x64) ![0, 0] S1x64.size inb_S1x64_S1x64_0_0
abbrev r3_3 : Rect S64x1 := Rect.unit (s := S64x1) ![0, 0] S64x1.size inb_S64x1_S64x1_0_0
abbrev r3_4 : Rect S1x1 := Rect.unit (s := S1x1) ![0, 0] S1x1.size inb_S1x1_S1x1_0_0
abbrev r3_5 : Rect S4000x1 := Rect.unit (s := S4000x1) ![0, 0] S4000x1.size inb_S4000x1_S4000x1_0_0

/-! ## What the body leaves in the output window's buffer -/

/-- Window 5's staging buffer after the body, from the input windows' blocks: its one store, over the whole buffer,
    of the payload of the loaded blocks. -/
def out3_5 (x0 : Vec F S4000x3 .f32) (x1 : Vec F S4000x64 .f32) (x2 : Vec F S1x64 .f32) (x3 : Vec F S64x1 .f32) (x4 : Vec F S1x1 .f32) : Vec F S4000x1 .f32 :=
  View.canon [⟨r3_5, k3_pay1 (View.ld x0 r3_0) (View.ld x1 r3_1) (View.ld x2 r3_2) (View.ld x3 r3_3) (View.ld x4 r3_4)⟩]

/-- The one store covers the buffer. -/
theorem cover3_5 (p0 : Vec F S4000x1 .f32) (y : S4000x1.Idx) :
    ∃ pc ∈ ([⟨r3_5, p0⟩] : List (View.Piece (Elt F) S4000x1 .f32)), y ∈ pc.1.set :=
  View.cover_of_tiled [⟨r3_5, p0⟩] S4000x1.size (by rfl) y

/-! ## The body's triple -/

set_option maxHeartbeats 1000000 in
/-- The kernel body on whole staging memrefs, the inputs' at read contents `xJ` and the output's at anything, runs to the
    continuation holding the inputs' as they were and the output's at `out3_5` of the inputs'. -/
theorem sound_kernel3 (c : Dev nD) (E : Set ℕ) (i : grid3.Coords) (arg1 : Memref sig .tc .vmem S4000x3 .f32) (harg1 : arg1.IsWhole) (arg2 : Memref sig .tc .vmem S4000x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S4000x1 .f32) (harg6 : arg6.IsWhole)
    (x0 : Vec F S4000x3 .f32) (x1 : Vec F S4000x64 .f32) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__kfinal_kernel i arg1 harg1 arg2 harg2 arg3 harg3 arg4 harg4 arg5 harg5 arg6 harg6) K := by
  simp only [cc3__kfinal_kernel_eq_skeleton]; unfold cc3__kfinal_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at point `t` each
    input's buffer at its block and the output's at `out3_5` of the input blocks; the invariant that of a body which
    keeps nothing of its own; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/- The run of @main: four kernel regions among stretches of host operations.
   The buffer contents at every boundary between two items are a fold from the launch memory: a stretch of host
   operations takes the contents to what its operations compute from them; a region takes them to the same contents
   except at its windows' arrays, which end at what the pipeline's write-backs leave (an input window's array as the
   region found it, the output window's array at the blocks the body left, point by point). Each region is run from
   its body obligation (the region modules); the thread state carried from item to item is "every unscoped buffer at
   the boundary's contents, the generator register at some state, nothing owed". The last state, read against the
   final memory, says that every unscoped buffer ends at the last boundary's contents; and no item writes an argument. -/
import proofs.«109159_j7215545057639_1_alg».proof.Proof.KI.Region0
import proofs.«109159_j7215545057639_1_alg».proof.Proof.KI.Region1
import proofs.«109159_j7215545057639_1_alg».proof.Proof.KI.Region2
import proofs.«109159_j7215545057639_1_alg».proof.Proof.KI.Region3
import proofs.«109159_j7215545057639_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`: the contents region 0 is entered from. -/
abbrev Win0 : Dev nD → Valuation τ sig (Elt F) := fun c => StableHlo.after hostOps0_4 (W4 m ρ c)
/-- The same read at the TensorCore's references (what region 0's proof data take). -/
abbrev Vin0 : (c : Dev nD) → (b : Ref sig .tc) → Buf (Elt F) ((c : Thread nD τ).loc b) := fun c b => Win0 m ρ c b
/-- At region 0's exit: its windows' arrays at what the pipeline leaves (an input's as entered, the output's at its
    write-backs folded over the grid), every other buffer as entered. -/
def Wexit0 (c : Dev nD) : Valuation τ sig (Elt F) :=
  Pipeline.withArrays spec0 c (Win0 m ρ c) fun w => (dat0 (Vin0 m ρ) c).arrAt w cfg0.N
theorem Wexit_arr0 (c : Dev nD) (w : Fin cfg0.W) :
    Wexit0 m ρ c (Proc.devRef .tc (Pipeline.arrRef spec0 w)) = (dat0 (Vin0 m ρ) c).arrAt w cfg0.N := by
  unfold Wexit0; exact Pipeline.withArrays_arr spec0 launch0.win.arr_inj c _ _ w
theorem Wexit_of_ne0 (c : Dev nD) (b : Ref sig .tc) (hb : ∀ w, Pipeline.arrRef spec0 w ≠ b) :
    Wexit0 m ρ c (Proc.devRef .tc b) = Win0 m ρ c (Proc.devRef .tc b) := by
  unfold Wexit0; exact Pipeline.withArrays_of_ne spec0 c _ _ b hb
/-- An input window's array leaves region 0 as it entered. -/
theorem Wexit_in0 (c : Dev nD) (w : Fin cfg0.W) (hw : (cfg0.win w).isOut = false) :
    Wexit0 m ρ c (Proc.devRef .tc (Pipeline.arrRef spec0 w)) = Win0 m ρ c (Proc.devRef .tc (Pipeline.arrRef spec0 w)) :=
  (Wexit_arr0 m ρ c w).trans (((dat0 (Vin0 m ρ) c).arrAt_in w hw _).trans (A_eq0 (Vin0 m ρ) c w))
/-- The same read at the TensorCore's references (region 0's exit contents). -/
abbrev Vexit0 : (c : Dev nD) → (b : Ref sig .tc) → Buf (Elt F) ((c : Thread nD τ).loc b) := fun c b => Wexit0 m ρ c b
/-- At region 0's exit each of its arrays holds what the pipeline leaves and every other buffer what it held at entry. -/
theorem hF0 (c : Dev nD) (w : Fin cfg0.W) : (dat0 (Vin0 m ρ) c).arrAt w cfg0.N = Vexit0 m ρ c (Pipeline.arrRef spec0 w) :=
  (Wexit_arr0 m ρ c w).symm
theorem hrest0 (c : Dev nD) : ∀ b, b ∉ Finset.univ.image (Pipeline.arrRef spec0) → Vexit0 m ρ c b = Vin0 m ρ c b :=
  fun b hb => Wexit_of_ne0 m ρ c b fun w e => hb (Finset.mem_image.mpr ⟨w, Finset.mem_univ _, e⟩)

/-- After `hostOps1`: the contents region 1 is entered from. -/
abbrev Win1 : Dev nD → Valuation τ sig (Elt F) := fun c => StableHlo.after hostOps1 (Wexit0 m ρ c)
/-- The same read at the TensorCore's references (what region 1's proof data take). -/
abbrev Vin1 : (c : Dev nD) → (b : Ref sig .tc) → Buf (Elt F) ((c : Thread nD τ).loc b) := fun c b => Win1 m ρ c b
/-- At region 1's exit: its windows' arrays at what the pipeline leaves (an input's as entered, the output's at its
    write-backs folded over the grid), every other buffer as entered. -/
def Wexit1 (c : Dev nD) : Valuation τ sig (Elt F) :=
  Pipeline.withArrays spec1 c (Win1 m ρ c) fun w => (dat1 (Vin1 m ρ) c).arrAt w cfg1.N
theorem Wexit_arr1 (c : Dev nD) (w : Fin cfg1.W) :
    Wexit1 m ρ c (Proc.devRef .tc (Pipeline.arrRef spec1 w)) = (dat1 (Vin1 m ρ) c).arrAt w cfg1.N := by
  unfold Wexit1; exact Pipeline.withArrays_arr spec1 launch1.win.arr_inj c _ _ w
theorem Wexit_of_ne1 (c : Dev nD) (b : Ref sig .tc) (hb : ∀ w, Pipeline.arrRef spec1 w ≠ b) :
    Wexit1 m ρ c (Proc.devRef .tc b) = Win1 m ρ c (Proc.devRef .tc b) := by
  unfold Wexit1; exact Pipeline.withArrays_of_ne spec1 c _ _ b hb
/-- An input window's array leaves region 1 as it entered. -/
theorem Wexit_in1 (c : Dev nD) (w : Fin cfg1.W) (hw : (cfg1.win w).isOut = false) :
    Wexit1 m ρ c (Proc.devRef .tc (Pipeline.arrRef spec1 w)) = Win1 m ρ c (Proc.devRef .tc (Pipeline.arrRef spec1 w)) :=
  (Wexit_arr1 m ρ c w).trans (((dat1 (Vin1 m ρ) c).arrAt_in w hw _).trans (A_eq1 (Vin1 m ρ) c w))
/-- The same read at the TensorCore's references (region 1's exit contents). -/
abbrev Vexit1 : (c : Dev nD) → (b : Ref sig .tc) → Buf (Elt F) ((c : Thread nD τ).loc b) := fun c b => Wexit1 m ρ c b
/-- At region 1's exit each of its arrays holds what the pipeline leaves and every other buffer what it held at entry. -/
theorem hF1 (c : Dev nD) (w : Fin cfg1.W) : (dat1 (Vin1 m ρ) c).arrAt w cfg1.N = Vexit1 m ρ c (Pipeline.arrRef spec1 w) :=
  (Wexit_arr1 m ρ c w).symm
theorem hrest1 (c : Dev nD) : ∀ b, b ∉ Finset.univ.image (Pipeline.arrRef spec1) → Vexit1 m ρ c b = Vin1 m ρ c b :=
  fun b hb => Wexit_of_ne1 m ρ c b fun w e => hb (Finset.mem_image.mpr ⟨w, Finset.mem_univ _, e⟩)

/-- After `hostOps2`: the contents region 2 is entered from. -/
abbrev Win2 : Dev nD → Valuation τ sig (Elt F) := fun c => StableHlo.after hostOps2 (Wexit1 m ρ c)
/-- The same read at the TensorCore's references (what region 2's proof data take). -/
abbrev Vin2 : (c : Dev nD) → (b : Ref sig .tc) → Buf (Elt F) ((c : Thread nD τ).loc b) := fun c b => Win2 m ρ c b
/-- At region 2's exit: its windows' arrays at what the pipeline leaves (an input's as entered, the output's at its
    write-backs folded over the grid), every other buffer as entered. -/
def Wexit2 (c : Dev nD) : Valuation τ sig (Elt F) :=
  Pipeline.withArrays spec2 c (Win2 m ρ c) fun w => (dat2 (Vin2 m ρ) c).arrAt w cfg2.N
theorem Wexit_arr2 (c : Dev nD) (w : Fin cfg2.W) :
    Wexit2 m ρ c (Proc.devRef .tc (Pipeline.arrRef spec2 w)) = (dat2 (Vin2 m ρ) c).arrAt w cfg2.N := by
  unfold Wexit2; exact Pipeline.withArrays_arr spec2 launch2.win.arr_inj c _ _ w
theorem Wexit_of_ne2 (c : Dev nD) (b : Ref sig .tc) (hb : ∀ w, Pipeline.arrRef spec2 w ≠ b) :
    Wexit2 m ρ c (Proc.devRef .tc b) = Win2 m ρ c (Proc.devRef .tc b) := by
  unfold Wexit2; exact Pipeline.withArrays_of_ne spec2 c _ _ b hb
/-- An input window's array leaves region 2 as it entered. -/
theorem Wexit_in2 (c : Dev nD) (w : Fin cfg2.W) (hw : (cfg2.win w).isOut = false) :
    Wexit2 m ρ c (Proc.devRef .tc (Pipeline.arrRef spec2 w)) = Win2 m ρ c (Proc.devRef .tc (Pipeline.arrRef spec2 w)) :=
  (Wexit_arr2 m ρ c w).trans (((dat2 (Vin2 m ρ) c).arrAt_in w hw _).trans (A_eq2 (Vin2 m ρ) c w))
/-- The same read at the TensorCore's references (region 2's exit contents). -/
abbrev Vexit2 : (c : Dev nD) → (b : Ref sig .tc) → Buf (Elt F) ((c : Thread nD τ).loc b) := fun c b => Wexit2 m ρ c b
/-- At region 2's exit each of its arrays holds what the pipeline leaves and every other buffer what it held at entry. -/
theorem hF2 (c : Dev nD) (w : Fin cfg2.W) : (dat2 (Vin2 m ρ) c).arrAt w cfg2.N = Vexit2 m ρ c (Pipeline.arrRef spec2 w) :=
  (Wexit_arr2 m ρ c w).symm
theorem hrest2 (c : Dev nD) : ∀ b, b ∉ Finset.univ.image (Pipeline.arrRef spec2) → Vexit2 m ρ c b = Vin2 m ρ c b :=
  fun b hb => Wexit_of_ne2 m ρ c b fun w e => hb (Finset.mem_image.mpr ⟨w, Finset.mem_univ _, e⟩)

/-- After `hostOps3`: the contents region 3 is entered from. -/
abbrev Win3 : Dev nD → Valuation τ sig (Elt F) := fun c => StableHlo.after hostOps3 (Wexit2 m ρ c)
/-- The same read at the TensorCore's references (what region 3's proof data take). -/
abbrev Vin3 : (c : Dev nD) → (b : Ref sig .tc) → Buf (Elt F) ((c : Thread nD τ).loc b) := fun c b => Win3 m ρ c b
/-- At region 3's exit: its windows' arrays at what the pipeline leaves (an input's as entered, the output's at its
    write-backs folded over the grid), every other buffer as entered. -/
def Wexit3 (c : Dev nD) : Valuation τ sig (Elt F) :=
  Pipeline.withArrays spec3 c (Win3 m ρ c) fun w => (dat3 (Vin3 m ρ) c).arrAt w cfg3.N
theorem Wexit_arr3 (c : Dev nD) (w : Fin cfg3.W) :
    Wexit3 m ρ c (Proc.devRef .tc (Pipeline.arrRef spec3 w)) = (dat3 (Vin3 m ρ) c).arrAt w cfg3.N := by
  unfold Wexit3; exact Pipeline.withArrays_arr spec3 launch3.win.arr_inj c _ _ w
theorem Wexit_of_ne3 (c : Dev nD) (b : Ref sig .tc) (hb : ∀ w, Pipeline.arrRef spec3 w ≠ b) :
    Wexit3 m ρ c (Proc.devRef .tc b) = Win3 m ρ c (Proc.devRef .tc b) := by
  unfold Wexit3; exact Pipeline.withArrays_of_ne spec3 c _ _ b hb
/-- An input window's array leaves region 3 as it entered. -/
theorem Wexit_in3 (c : Dev nD) (w : Fin cfg3.W) (hw : (cfg3.win w).isOut = false) :
    Wexit3 m ρ c (Proc.devRef .tc (Pipeline.arrRef spec3 w)) = Win3 m ρ c (Proc.devRef .tc (Pipeline.arrRef spec3 w)) :=
  (Wexit_arr3 m ρ c w).trans (((dat3 (Vin3 m ρ) c).arrAt_in w hw _).trans (A_eq3 (Vin3 m ρ) c w))
/-- The same read at the TensorCore's references (region 3's exit contents). -/
abbrev Vexit3 : (c : Dev nD) → (b : Ref sig .tc) → Buf (Elt F) ((c : Thread nD τ).loc b) := fun c b => Wexit3 m ρ c b
/-- At region 3's exit each of its arrays holds what the pipeline leaves and every other buffer what it held at entry. -/
theorem hF3 (c : Dev nD) (w : Fin cfg3.W) : (dat3 (Vin3 m ρ) c).arrAt w cfg3.N = Vexit3 m ρ c (Pipeline.arrRef spec3 w) :=
  (Wexit_arr3 m ρ c w).symm
theorem hrest3 (c : Dev nD) : ∀ b, b ∉ Finset.univ.image (Pipeline.arrRef spec3) → Vexit3 m ρ c b = Vin3 m ρ c b :=
  fun b hb => Wexit_of_ne3 m ρ c b fun w e => hb (Finset.mem_image.mpr ⟨w, Finset.mem_univ _, e⟩)

/-- The contents at the end of @main. -/
abbrev Wend : Dev nD → Valuation τ sig (Elt F) := fun c => Wexit3 m ρ c

/-! ### The arguments end as launched: no stretch of host operations writes one, and a region leaves an argument it
    stages through an input window as it found it and does not touch the others -/

theorem Wend_main_arg0 (c : Dev nD) : Wend m ρ c (Proc.devRef .tc main_arg0) = m ((c : Thread nD τ).loc main_arg0) :=
  calc Wend m ρ c (Proc.devRef .tc main_arg0)
    _ = Win3 m ρ c (Proc.devRef .tc main_arg0) := Wexit_of_ne3 m ρ c main_arg0 (by decide)
    _ = Wexit2 m ρ c (Proc.devRef .tc main_arg0) := StableHlo.after_of_writes_sub hostOps3 _ hostOps3_writes (by decide)
    _ = Win2 m ρ c (Proc.devRef .tc main_arg0) := Wexit_of_ne2 m ρ c main_arg0 (by decide)
    _ = Wexit1 m ρ c (Proc.devRef .tc main_arg0) := StableHlo.after_of_writes_sub hostOps2 _ hostOps2_writes (by decide)
    _ = Win1 m ρ c (Proc.devRef .tc main_arg0) := Wexit_of_ne1 m ρ c main_arg0 (by decide)
    _ = Wexit0 m ρ c (Proc.devRef .tc main_arg0) := StableHlo.after_of_writes_sub hostOps1 _ hostOps1_writes (by decide)
    _ = Win0 m ρ c (Proc.devRef .tc main_arg0) := Wexit_of_ne0 m ρ c main_arg0 (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem Wend_main_arg1 (c : Dev nD) : Wend m ρ c (Proc.devRef .tc main_arg1) = m ((c : Thread nD τ).loc main_arg1) :=
  calc Wend m ρ c (Proc.devRef .tc main_arg1)
    _ = Win3 m ρ c (Proc.devRef .tc main_arg1) := Wexit_of_ne3 m ρ c main_arg1 (by decide)
    _ = Wexit2 m ρ c (Proc.devRef .tc main_arg1) := StableHlo.after_of_writes_sub hostOps3 _ hostOps3_writes (by decide)
    _ = Win2 m ρ c (Proc.devRef .tc main_arg1) := Wexit_of_ne2 m ρ c main_arg1 (by decide)
    _ = Wexit1 m ρ c (Proc.devRef .tc main_arg1) := StableHlo.after_of_writes_sub hostOps2 _ hostOps2_writes (by decide)
    _ = Win1 m ρ c (Proc.devRef .tc main_arg1) := Wexit_of_ne1 m ρ c main_arg1 (by decide)
    _ = Wexit0 m ρ c (Proc.devRef .tc main_arg1) := StableHlo.after_of_writes_sub hostOps1 _ hostOps1_writes (by decide)
    _ = Win0 m ρ c (Proc.devRef .tc main_arg1) := Wexit_of_ne0 m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem Wend_main_arg2 (c : Dev nD) : Wend m ρ c (Proc.devRef .tc main_arg2) = m ((c : Thread nD τ).loc main_arg2) :=
  calc Wend m ρ c (Proc.devRef .tc main_arg2)
    _ = Win3 m ρ c (Proc.devRef .tc main_arg2) := Wexit_of_ne3 m ρ c main_arg2 (by decide)
    _ = Wexit2 m ρ c (Proc.devRef .tc main_arg2) := StableHlo.after_of_writes_sub hostOps3 _ hostOps3_writes (by decide)
    _ = Win2 m ρ c (Proc.devRef .tc main_arg2) := Wexit_of_ne2 m ρ c main_arg2 (by decide)
    _ = Wexit1 m ρ c (Proc.devRef .tc main_arg2) := StableHlo.after_of_writes_sub hostOps2 _ hostOps2_writes (by decide)
    _ = Win1 m ρ c (Proc.devRef .tc main_arg2) := Wexit_of_ne1 m ρ c main_arg2 (by decide)
    _ = Wexit0 m ρ c (Proc.devRef .tc main_arg2) := StableHlo.after_of_writes_sub hostOps1 _ hostOps1_writes (by decide)
    _ = Win0 m ρ c (Proc.devRef .tc main_arg2) := Wexit_of_ne0 m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem Wend_main_arg3 (c : Dev nD) : Wend m ρ c (Proc.devRef .tc main_arg3) = m ((c : Thread nD τ).loc main_arg3) :=
  calc Wend m ρ c (Proc.devRef .tc main_arg3)
    _ = Win3 m ρ c (Proc.devRef .tc main_arg3) := Wexit_of_ne3 m ρ c main_arg3 (by decide)
    _ = Wexit2 m ρ c (Proc.devRef .tc main_arg3) := StableHlo.after_of_writes_sub hostOps3 _ hostOps3_writes (by decide)
    _ = Win2 m ρ c (Proc.devRef .tc main_arg3) := Wexit_of_ne2 m ρ c main_arg3 (by decide)
    _ = Wexit1 m ρ c (Proc.devRef .tc main_arg3) := StableHlo.after_of_writes_sub hostOps2 _ hostOps2_writes (by decide)
    _ = Win1 m ρ c (Proc.devRef .tc main_arg3) := Wexit_of_ne1 m ρ c main_arg3 (by decide)
    _ = Wexit0 m ρ c (Proc.devRef .tc main_arg3) := StableHlo.after_of_writes_sub hostOps1 _ hostOps1_writes (by decide)
    _ = Win0 m ρ c (Proc.devRef .tc main_arg3) := Wexit_in0 m ρ c 1 rfl
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem Wend_main_arg4 (c : Dev nD) : Wend m ρ c (Proc.devRef .tc main_arg4) = m ((c : Thread nD τ).loc main_arg4) :=
  calc Wend m ρ c (Proc.devRef .tc main_arg4)
    _ = Win3 m ρ c (Proc.devRef .tc main_arg4) := Wexit_of_ne3 m ρ c main_arg4 (by decide)
    _ = Wexit2 m ρ c (Proc.devRef .tc main_arg4) := StableHlo.after_of_writes_sub hostOps3 _ hostOps3_writes (by decide)
    _ = Win2 m ρ c (Proc.devRef .tc main_arg4) := Wexit_of_ne2 m ρ c main_arg4 (by decide)
    _ = Wexit1 m ρ c (Proc.devRef .tc main_arg4) := StableHlo.after_of_writes_sub hostOps2 _ hostOps2_writes (by decide)
    _ = Win1 m ρ c (Proc.devRef .tc main_arg4) := Wexit_of_ne1 m ρ c main_arg4 (by decide)
    _ = Wexit0 m ρ c (Proc.devRef .tc main_arg4) := StableHlo.after_of_writes_sub hostOps1 _ hostOps1_writes (by decide)
    _ = Win0 m ρ c (Proc.devRef .tc main_arg4) := Wexit_of_ne0 m ρ c main_arg4 (by decide)
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem Wend_main_arg5 (c : Dev nD) : Wend m ρ c (Proc.devRef .tc main_arg5) = m ((c : Thread nD τ).loc main_arg5) :=
  calc Wend m ρ c (Proc.devRef .tc main_arg5)
    _ = Win3 m ρ c (Proc.devRef .tc main_arg5) := Wexit_of_ne3 m ρ c main_arg5 (by decide)
    _ = Wexit2 m ρ c (Proc.devRef .tc main_arg5) := StableHlo.after_of_writes_sub hostOps3 _ hostOps3_writes (by decide)
    _ = Win2 m ρ c (Proc.devRef .tc main_arg5) := Wexit_of_ne2 m ρ c main_arg5 (by decide)
    _ = Wexit1 m ρ c (Proc.devRef .tc main_arg5) := StableHlo.after_of_writes_sub hostOps2 _ hostOps2_writes (by decide)
    _ = Win1 m ρ c (Proc.devRef .tc main_arg5) := Wexit_of_ne1 m ρ c main_arg5 (by decide)
    _ = Wexit0 m ρ c (Proc.devRef .tc main_arg5) := StableHlo.after_of_writes_sub hostOps1 _ hostOps1_writes (by decide)
    _ = Win0 m ρ c (Proc.devRef .tc main_arg5) := Wexit_of_ne0 m ρ c main_arg5 (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem Wend_main_arg6 (c : Dev nD) : Wend m ρ c (Proc.devRef .tc main_arg6) = m ((c : Thread nD τ).loc main_arg6) :=
  calc Wend m ρ c (Proc.devRef .tc main_arg6)
    _ = Win3 m ρ c (Proc.devRef .tc main_arg6) := Wexit_of_ne3 m ρ c main_arg6 (by decide)
    _ = Wexit2 m ρ c (Proc.devRef .tc main_arg6) := StableHlo.after_of_writes_sub hostOps3 _ hostOps3_writes (by decide)
    _ = Win2 m ρ c (Proc.devRef .tc main_arg6) := Wexit_of_ne2 m ρ c main_arg6 (by decide)
    _ = Wexit1 m ρ c (Proc.devRef .tc main_arg6) := StableHlo.after_of_writes_sub hostOps2 _ hostOps2_writes (by decide)
    _ = Win1 m ρ c (Proc.devRef .tc main_arg6) := Wexit_of_ne1 m ρ c main_arg6 (by decide)
    _ = Wexit0 m ρ c (Proc.devRef .tc main_arg6) := StableHlo.after_of_writes_sub hostOps1 _ hostOps1_writes (by decide)
    _ = Win0 m ρ c (Proc.devRef .tc main_arg6) := Wexit_of_ne0 m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem Wend_main_arg7 (c : Dev nD) : Wend m ρ c (Proc.devRef .tc main_arg7) = m ((c : Thread nD τ).loc main_arg7) :=
  calc Wend m ρ c (Proc.devRef .tc main_arg7)
    _ = Win3 m ρ c (Proc.devRef .tc main_arg7) := Wexit_in3 m ρ c 3 rfl
    _ = Wexit2 m ρ c (Proc.devRef .tc main_arg7) := StableHlo.after_of_writes_sub hostOps3 _ hostOps3_writes (by decide)
    _ = Win2 m ρ c (Proc.devRef .tc main_arg7) := Wexit_of_ne2 m ρ c main_arg7 (by decide)
    _ = Wexit1 m ρ c (Proc.devRef .tc main_arg7) := StableHlo.after_of_writes_sub hostOps2 _ hostOps2_writes (by decide)
    _ = Win1 m ρ c (Proc.devRef .tc main_arg7) := Wexit_of_ne1 m ρ c main_arg7 (by decide)
    _ = Wexit0 m ρ c (Proc.devRef .tc main_arg7) := StableHlo.after_of_writes_sub hostOps1 _ hostOps1_writes (by decide)
    _ = Win0 m ρ c (Proc.devRef .tc main_arg7) := Wexit_of_ne0 m ρ c main_arg7 (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
theorem Wend_main_arg8 (c : Dev nD) : Wend m ρ c (Proc.devRef .tc main_arg8) = m ((c : Thread nD τ).loc main_arg8) :=
  calc Wend m ρ c (Proc.devRef .tc main_arg8)
    _ = Win3 m ρ c (Proc.devRef .tc main_arg8) := Wexit_of_ne3 m ρ c main_arg8 (by decide)
    _ = Wexit2 m ρ c (Proc.devRef .tc main_arg8) := StableHlo.after_of_writes_sub hostOps3 _ hostOps3_writes (by decide)
    _ = Win2 m ρ c (Proc.devRef .tc main_arg8) := Wexit_of_ne2 m ρ c main_arg8 (by decide)
    _ = Wexit1 m ρ c (Proc.devRef .tc main_arg8) := StableHlo.after_of_writes_sub hostOps2 _ hostOps2_writes (by decide)
    _ = Win1 m ρ c (Proc.devRef .tc main_arg8) := Wexit_of_ne1 m ρ c main_arg8 (by decide)
    _ = Wexit0 m ρ c (Proc.devRef .tc main_arg8) := StableHlo.after_of_writes_sub hostOps1 _ hostOps1_writes (by decide)
    _ = Win0 m ρ c (Proc.devRef .tc main_arg8) := Wexit_of_ne0 m ρ c main_arg8 (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every pipeline's proof data, each at its region's entry contents: a literal match on the pipeline's index. -/
def pdats : (p : Fin 4) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (Wend m ρ c) ∗ ∃ r, prngReg c r)

/-! ## The regions as segments -/

-- applying a library lemma stated over the pinned configuration unifies with the printed one only when unification
-- may unfold plain definitions in a metavariable's type
set_option backward.isDefEq.respectTransparency.types false in
/-- REGION 0 over the thread state: entered from every unscoped buffer at `Win0`, left at `Wexit0`. Its arrays are
    split out of the unscoped buffers at entry and put back at the exit contents; the generator register goes into the
    body's invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (Win0 m ρ c) ∗ R c)
  post c := iprop(StableHlo.held (c : Thread nD τ) (Pipeline.ucRefs τ sig) (Wexit0 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vexit0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- REGION 1 over the thread state: entered from every unscoped buffer at `Win1`, left at `Wexit1`. Its arrays are
    split out of the unscoped buffers at entry and put back at the exit contents; the generator register goes into the
    body's invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (Win1 m ρ c) ∗ R c)
  post c := iprop(StableHlo.held (c : Thread nD τ) (Pipeline.ucRefs τ sig) (Wexit1 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vexit1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- REGION 2 over the thread state: entered from every unscoped buffer at `Win2`, left at `Wexit2`. Its arrays are
    split out of the unscoped buffers at entry and put back at the exit contents; the generator register goes into the
    body's invariant and comes out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (Win2 m ρ c) ∗ R c)
  post c := iprop(StableHlo.held (c : Thread nD τ) (Pipeline.ucRefs τ sig) (Wexit2 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vexit2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- REGION 3 over the thread state: entered from every unscoped buffer at `Win3`, left at `Wexit3`. Its arrays are
    split out of the unscoped buffers at entry and put back at the exit contents; the generator register goes into the
    body's invariant and comes out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (Win3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vin3 m ρ c) (Vexit3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 12 items in order: a host segment per stretch from its boundary's contents, a region per pallas_call. -/
abbrev segsH : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (Wexit0 m ρ)),
    .region (reg1 m ρ),
    .host (hseg hostOps2 hostOps2_sub hostOps2_fresh (Wexit1 m ρ)),
    .region (reg2 m ρ),
    .host (hseg hostOps3 hostOps3_sub hostOps3_fresh (Wexit2 m ρ)),
    .region (reg3 m ρ) ]

-- the launch theorem's implicit arguments are found by unifying its conclusion with this one, which takes unfolding
-- plain definitions in a metavariable's type
set_option backward.isDefEq.respectTransparency.types false in
/-- THE RUN: from any memory with zero counters, every weakly fair execution of @main on the TensorCores terminates,
    nothing faulting, and in every final state every unscoped buffer holds the last boundary's contents `Wend`. -/
theorem run : θ_run (defs (F := F)) (onTc (τ := τ) (main (F := F))) ⟨m, fun _ => 0, ρ⟩ (fun r => ∀ c : Dev nD,
      ∀ b ∈ Pipeline.ucRefs τ sig, r.2.mem (((c : Thread nD τ)).1, b) = Wend m ρ c b) :=
  Pipeline.θ_run_regions_kit (pcfgs (F := F)) adm (pdats m ρ) () cellOf_inj emb₁ defs₀ 𝒱₀ L lv m ρ main (segsH m ρ)
    (fun c Q => by
      rewrite [main_chain c, Pipeline.Seg.run_eq_chain,
        show (segsH m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun s h c => h c)

/-- THE FRAME at any `F`: every argument array ends as launched — the run's post read at the arguments. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := F)) _ _).mono (fun r h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c),
     (h c _ (mem_uc main_arg5 (by decide))).trans (Wend_main_arg5 m ρ c),
     (h c _ (mem_uc main_arg6 (by decide))).trans (Wend_main_arg6 m ρ c),
     (h c _ (mem_uc main_arg7 (by decide))).trans (Wend_main_arg7 m ρ c),
     (h c _ (mem_uc main_arg8 (by decide))).trans (Wend_main_arg8 m ρ c)⟩) (run m ρ)

end Cert.KernelIdeal.Hand

end
-- ==== Proof.Ref.Ops.lean ====
import proofs.«109159_j7215545057639_1_alg».proof.Proof.Gen.ReferenceIdeal
import Idealize.ShloMosaic.Lib.StableHlo.Run

/-!
# The reference program as a list of host operations

The reference's `@main` is a straight line of 129 host operations once its four calls (two lower clips, two
leaky ReLUs, the latter calling a select) are replaced by the callee's operations over the call's own buffers.
The line is cut into five consecutive stretches along the stages of the network; for each stretch: the operations,
that they touch TensorCore buffers only, the list of buffers they write, and that any other buffer keeps its
contents through the stretch.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The graph's preparation: the node numbers, the two endpoint arrays with self loops, and for each of them the degree (ones scatter-added into zeros), its clip below at one, its power `-1/2`, and that vector as a column. -/
abbrev cG : List (HloOp τ sig (Elt F)) :=
  [ StableHlo.nullary main_v0 (iotaInDim S100000 32 0),
    StableHlo.binary main_arg1 main_v0 main_v1 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_arg2 main_v0 main_v2 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v3 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v4 (broadcastInDim S100000 ![] bcast_S_S100000 : (⟨S_, .f32⟩ : BufTy).Contents (Elt F) → (⟨S100000, .f32⟩ : BufTy).Contents (Elt F)),
    StableHlo.unary main_v1 main_v5 (broadcastInDim S3300000x1 ![0] bcast_S3300000_S3300000x1_0 : (⟨S3300000, .i32⟩ : BufTy).Contents (Elt F) → (⟨S3300000x1, .i32⟩ : BufTy).Contents (Elt F)),
    StableHlo.ternary main_v4 main_v5 main_v3 main_v6 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x3F800000#32),
    StableHlo.TRef.unary (.of main_cst_1 : StableHlo.TRef sig ⟨S_, .f32⟩) main_call0.v0 id,
    StableHlo.TRef.unary main_call0.v0 main_call0.v1 (broadcastInDim S100000 ![] bcast_S_S100000),
    StableHlo.TRef.binary main_call0.v1 (.of main_v6 : StableHlo.TRef sig ⟨S100000, .f32⟩) main_call0.v2 maximumf,
    StableHlo.nullary main_cst_2 (constant S_ .f32 0x00000000#32),
    StableHlo.unary main_cst_2 main_v8 (broadcastInDim S100000 ![] bcast_S_S100000 : (⟨S_, .f32⟩ : BufTy).Contents (Elt F) → (⟨S100000, .f32⟩ : BufTy).Contents (Elt F)),
    StableHlo.unary main_v2 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v3 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_3 (constant S_ .f32 0x3F800000#32),
    StableHlo.TRef.unary (.of main_cst_3 : StableHlo.TRef sig ⟨S_, .f32⟩) main_call1.v0 id,
    StableHlo.TRef.unary main_call1.v0 main_call1.v1 (broadcastInDim S100000 ![] bcast_S_S100000),
    StableHlo.TRef.binary main_call1.v1 (.of main_v10 : StableHlo.TRef sig ⟨S100000, .f32⟩) main_call1.v2 maximumf,
    StableHlo.nullary main_cst_4 (constant S_ .f32 0xBF000000#32),
    StableHlo.unary main_cst_4 main_v12 (broadcastInDim S100000 ![] bcast_S_S100000 : (⟨S_, .f32⟩ : BufTy).Contents (Elt F) → (⟨S100000, .f32⟩ : BufTy).Contents (Elt F)),
    StableHlo.binary main_v7 main_v12 main_v13 (Host.powf : (⟨S100000, .f32⟩ : BufTy).Contents (Elt F) → (⟨S100000, .f32⟩ : BufTy).Contents (Elt F) → (⟨S100000, .f32⟩ : BufTy).Contents (Elt F)),
    StableHlo.unary main_v13 main_v14 (broadcastInDim S100000x1 ![0] bcast_S100000_S100000x1_0 : (⟨S100000, .f32⟩ : BufTy).Contents (Elt F) → (⟨S100000x1, .f32⟩ : BufTy).Contents (Elt F)),
    StableHlo.nullary main_cst_5 (constant S_ .f32 0xBF000000#32),
    StableHlo.unary main_cst_5 main_v15 (broadcastInDim S100000 ![] bcast_S_S100000 : (⟨S_, .f32⟩ : BufTy).Contents (Elt F) → (⟨S100000, .f32⟩ : BufTy).Contents (Elt F)),
    StableHlo.binary main_v11 main_v15 main_v16 (Host.powf : (⟨S100000, .f32⟩ : BufTy).Contents (Elt F) → (⟨S100000, .f32⟩ : BufTy).Contents (Elt F) → (⟨S100000, .f32⟩ : BufTy).Contents (Elt F)),
    StableHlo.unary main_v16 main_v17 (broadcastInDim S100000x1 ![0] bcast_S100000_S100000x1_0 : (⟨S100000, .f32⟩ : BufTy).Contents (Elt F) → (⟨S100000x1, .f32⟩ : BufTy).Contents (Elt F)) ]

/-- The first layer: the input embedding, the slices of the first weight and bias, the scaling by the source norm, the dense product, the wrapped gather indices, gather and scatter-add over the edges, the scaling by the destination norm, the bias, and the leaky ReLU's seven operations. -/
abbrev cL1 : List (HloOp τ sig (Elt F)) :=
  [ StableHlo.unary main_arg0 main_v18 (broadcastInDim S100000x1 ![0] bcast_S100000_S100000x1_0 : (⟨S100000, .f32⟩ : BufTy).Contents (Elt F) → (⟨S100000x1, .f32⟩ : BufTy).Contents (Elt F)),
    StableHlo.binary main_v18 main_arg3 main_v19 ((fun l r => Host.dotGeneral dot_S100000x1_S1x64_S100000x64_1_0_0_1_n_n none l r) : (⟨S100000x1, .f32⟩ : BufTy).Contents (Elt F) → (⟨S1x64, .f32⟩ : BufTy).Contents (Elt F) → (⟨S100000x64, .f32⟩ : BufTy).Contents (Elt F)),
    StableHlo.unary main_arg4 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S100000x64 ![0, 1] bcast_S1x64_S100000x64_0_1 : (⟨S1x64, .f32⟩ : BufTy).Contents (Elt F) → (⟨S100000x64, .f32⟩ : BufTy).Contents (Elt F)),
    StableHlo.binary main_v19 main_v21 main_v22 (addf : (⟨S100000x64, .f32⟩ : BufTy).Contents (Elt F) → (⟨S100000x64, .f32⟩ : BufTy).Contents (Elt F) → (⟨S100000x64, .f32⟩ : BufTy).Contents (Elt F)),
    StableHlo.unary main_arg5 main_v23 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v23 main_v24 rfl shapeCasts_S1x64x64_S64x64,
    StableHlo.unary main_arg6 main_v25 ((extractStridedSlice S1x64 ![0, 0] · slices_S3x64_S1x64_0_0) : (⟨S3x64, .f32⟩ : BufTy).Contents (Elt F) → (⟨S1x64, .f32⟩ : BufTy).Contents (Elt F)),
    StableHlo.reshape main_v25 main_v26 rfl shapeCasts_S1x64_S64,
    StableHlo.unary main_v14 main_v27 (broadcastInDim S100000x64 ![0, 1] bcast_S100000x1_S100000x64_0_1 : (⟨S100000x1, .f32⟩ : BufTy).Contents (Elt F) → (⟨S100000x64, .f32⟩ : BufTy).Contents (Elt F)),
    StableHlo.binary main_v22 main_v27 main_v28 (mulf : (⟨S100000x64, .f32⟩ : BufTy).Contents (Elt F) → (⟨S100000x64, .f32⟩ : BufTy).Contents (Elt F) → (⟨S100000x64, .f32⟩ : BufTy).Contents (Elt F)),
    StableHlo.binary main_v28 main_v24 main_v29 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c (constantI S_ 32 0#32),
    StableHlo.unary main_c main_v30 (broadcastInDim S3300000 ![] bcast_S_S3300000 : (⟨S_, .i32⟩ : BufTy).Contents (Elt F) → (⟨S3300000, .i32⟩ : BufTy).Contents (Elt F)),
    StableHlo.binary main_v1 main_v30 main_v31 (cmpi .slt : (⟨S3300000, .i32⟩ : BufTy).Contents (Elt F) → (⟨S3300000, .i32⟩ : BufTy).Contents (Elt F) → (⟨S3300000, .i1⟩ : BufTy).Contents (Elt F)),
    StableHlo.nullary main_c_6 (constantI S_ 32 100000#32),
    StableHlo.unary main_c_6 main_v32 (broadcastInDim S3300000 ![] bcast_S_S3300000 : (⟨S_, .i32⟩ : BufTy).Contents (Elt F) → (⟨S3300000, .i32⟩ : BufTy).Contents (Elt F)),
    StableHlo.binary main_v1 main_v32 main_v33 (addi : (⟨S3300000, .i32⟩ : BufTy).Contents (Elt F) → (⟨S3300000, .i32⟩ : BufTy).Contents (Elt F) → (⟨S3300000, .i32⟩ : BufTy).Contents (Elt F)),
    StableHlo.ternary main_v31 main_v33 main_v1 main_v34 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v34 main_v35 (broadcastInDim S3300000x1 ![0] bcast_S3300000_S3300000x1_0 : (⟨S3300000, .i32⟩ : BufTy).Contents (Elt F) → (⟨S3300000x1, .i32⟩ : BufTy).Contents (Elt F)),
    StableHlo.binary main_v29 main_v35 main_v36 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.nullary main_cst_7 (constant S_ .f32 0x00000000#32),
    StableHlo.unary main_cst_7 main_v37 (broadcastInDim S100000x64 ![] bcast_S_S100000x64 : (⟨S_, .f32⟩ : BufTy).Contents (Elt F) → (⟨S100000x64, .f32⟩ : BufTy).Contents (Elt F)),
    StableHlo.unary main_v2 main_v38 (broadcastInDim S3300000x1 ![0] bcast_S3300000_S3300000x1_0 : (⟨S3300000, .i32⟩ : BufTy).Contents (Elt F) → (⟨S3300000x1, .i32⟩ : BufTy).Contents (Elt F)),
    StableHlo.ternary main_v37 main_v38 main_v36 main_v39 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_v17 main_v40 (broadcastInDim S100000x64 ![0, 1] bcast_S100000x1_S100000x64_0_1 : (⟨S100000x1, .f32⟩ : BufTy).Contents (Elt F) → (⟨S100000x64, .f32⟩ : BufTy).Contents (Elt F)),
    StableHlo.binary main_v39 main_v40 main_v41 (mulf : (⟨S100000x64, .f32⟩ : BufTy).Contents (Elt F) → (⟨S100000x64, .f32⟩ : BufTy).Contents (Elt F) → (⟨S100000x64, .f32⟩ : BufTy).Contents (Elt F)),
    StableHlo.unary main_v26 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S100000x64 ![0, 1] bcast_S1x64_S100000x64_0_1 : (⟨S1x64, .f32⟩ : BufTy).Contents (Elt F) → (⟨S100000x64, .f32⟩ : BufTy).Contents (Elt F)),
    StableHlo.binary main_v41 main_v43 main_v44 (addf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x3C23D70A#32),
    StableHlo.TRef.nullary main_call2.cst (constant S_ .f32 0x00000000#32),
    StableHlo.TRef.unary main_call2.cst main_call2.v0 (broadcastInDim S100000x64 ![] bcast_S_S100000x64),
    StableHlo.TRef.binary (.of main_v44 : StableHlo.TRef sig ⟨S100000x64, .f32⟩) main_call2.v0 main_call2.v1 (cmpf .oge),
    StableHlo.TRef.unary (.of main_cst_8 : StableHlo.TRef sig ⟨S_, .f32⟩) main_call2.v2 id,
    StableHlo.TRef.unary main_call2.v2 main_call2.v3 (broadcastInDim S100000x64 ![] bcast_S_S100000x64),
    StableHlo.TRef.binary main_call2.v3 (.of main_v44 : StableHlo.TRef sig ⟨S100000x64, .f32⟩) main_call2.v4 mulf,
    StableHlo.TRef.ternary main_call2.v1 (.of main_v44 : StableHlo.TRef sig ⟨S100000x64, .f32⟩) main_call2.v4 main_call2.call0.v0 select ]

/-- The second layer's weight (slice and reshape) and the slice of its bias. -/
abbrev cL2a : List (HloOp τ sig (Elt F)) :=
  [ StableHlo.unary main_arg5 main_v46 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v46 main_v47 rfl shapeCasts_S1x64x64_S64x64,
    StableHlo.unary main_arg6 main_v48 ((extractStridedSlice S1x64 ![1, 0] · slices_S3x64_S1x64_1_0) : (⟨S3x64, .f32⟩ : BufTy).Contents (Elt F) → (⟨S1x64, .f32⟩ : BufTy).Contents (Elt F)) ]

/-- The rest of the second layer: the bias reshaped, the scaling, the dense product, the aggregation over the edges, the scaling, the bias, and the leaky ReLU. -/
abbrev cL2b : List (HloOp τ sig (Elt F)) :=
  [ StableHlo.reshape main_v48 main_v49 rfl shapeCasts_S1x64_S64,
    StableHlo.unary main_v14 main_v50 (broadcastInDim S100000x64 ![0, 1] bcast_S100000x1_S100000x64_0_1 : (⟨S100000x1, .f32⟩ : BufTy).Contents (Elt F) → (⟨S100000x64, .f32⟩ : BufTy).Contents (Elt F)),
    StableHlo.binary main_v45 main_v50 main_v51 (mulf : (⟨S100000x64, .f32⟩ : BufTy).Contents (Elt F) → (⟨S100000x64, .f32⟩ : BufTy).Contents (Elt F) → (⟨S100000x64, .f32⟩ : BufTy).Contents (Elt F)),
    StableHlo.binary main_v51 main_v47 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_9 (constantI S_ 32 0#32),
    StableHlo.unary main_c_9 main_v53 (broadcastInDim S3300000 ![] bcast_S_S3300000 : (⟨S_, .i32⟩ : BufTy).Contents (Elt F) → (⟨S3300000, .i32⟩ : BufTy).Contents (Elt F)),
    StableHlo.binary main_v1 main_v53 main_v54 (cmpi .slt : (⟨S3300000, .i32⟩ : BufTy).Contents (Elt F) → (⟨S3300000, .i32⟩ : BufTy).Contents (Elt F) → (⟨S3300000, .i1⟩ : BufTy).Contents (Elt F)),
    StableHlo.nullary main_c_10 (constantI S_ 32 100000#32),
    StableHlo.unary main_c_10 main_v55 (broadcastInDim S3300000 ![] bcast_S_S3300000 : (⟨S_, .i32⟩ : BufTy).Contents (Elt F) → (⟨S3300000, .i32⟩ : BufTy).Contents (Elt F)),
    StableHlo.binary main_v1 main_v55 main_v56 (addi : (⟨S3300000, .i32⟩ : BufTy).Contents (Elt F) → (⟨S3300000, .i32⟩ : BufTy).Contents (Elt F) → (⟨S3300000, .i32⟩ : BufTy).Contents (Elt F)),
    StableHlo.ternary main_v54 main_v56 main_v1 main_v57 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v57 main_v58 (broadcastInDim S3300000x1 ![0] bcast_S3300000_S3300000x1_0 : (⟨S3300000, .i32⟩ : BufTy).Contents (Elt F) → (⟨S3300000x1, .i32⟩ : BufTy).Contents (Elt F)),
    StableHlo.binary main_v52 main_v58 main_v59 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.nullary main_cst_11 (constant S_ .f32 0x00000000#32),
    StableHlo.unary main_cst_11 main_v60 (broadcastInDim S100000x64 ![] bcast_S_S100000x64 : (⟨S_, .f32⟩ : BufTy).Contents (Elt F) → (⟨S100000x64, .f32⟩ : BufTy).Contents (Elt F)),
    StableHlo.unary main_v2 main_v61 (broadcastInDim S3300000x1 ![0] bcast_S3300000_S3300000x1_0 : (⟨S3300000, .i32⟩ : BufTy).Contents (Elt F) → (⟨S3300000x1, .i32⟩ : BufTy).Contents (Elt F)),
    StableHlo.ternary main_v60 main_v61 main_v59 main_v62 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_v17 main_v63 (broadcastInDim S100000x64 ![0, 1] bcast_S100000x1_S100000x64_0_1 : (⟨S100000x1, .f32⟩ : BufTy).Contents (Elt F) → (⟨S100000x64, .f32⟩ : BufTy).Contents (Elt F)),
    StableHlo.binary main_v62 main_v63 main_v64 (mulf : (⟨S100000x64, .f32⟩ : BufTy).Contents (Elt F) → (⟨S100000x64, .f32⟩ : BufTy).Contents (Elt F) → (⟨S100000x64, .f32⟩ : BufTy).Contents (Elt F)),
    StableHlo.unary main_v49 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v64 main_v66 main_v67 (addf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3C23D70A#32),
    StableHlo.TRef.nullary main_call3.cst (constant S_ .f32 0x00000000#32),
    StableHlo.TRef.unary main_call3.cst main_call3.v0 (broadcastInDim S100000x64 ![] bcast_S_S100000x64),
    StableHlo.TRef.binary (.of main_v67 : StableHlo.TRef sig ⟨S100000x64, .f32⟩) main_call3.v0 main_call3.v1 (cmpf .oge),
    StableHlo.TRef.unary (.of main_cst_12 : StableHlo.TRef sig ⟨S_, .f32⟩) main_call3.v2 id,
    StableHlo.TRef.unary main_call3.v2 main_call3.v3 (broadcastInDim S100000x64 ![] bcast_S_S100000x64),
    StableHlo.TRef.binary main_call3.v3 (.of main_v67 : StableHlo.TRef sig ⟨S100000x64, .f32⟩) main_call3.v4 mulf,
    StableHlo.TRef.ternary main_call3.v1 (.of main_v67 : StableHlo.TRef sig ⟨S100000x64, .f32⟩) main_call3.v4 main_call3.call0.v0 select ]

/-- The third layer (without activation) and the read-out. -/
abbrev cL3 : List (HloOp τ sig (Elt F)) :=
  [ StableHlo.unary main_arg5 main_v69 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v69 main_v70 rfl shapeCasts_S1x64x64_S64x64,
    StableHlo.unary main_arg6 main_v71 ((extractStridedSlice S1x64 ![2, 0] · slices_S3x64_S1x64_2_0) : (⟨S3x64, .f32⟩ : BufTy).Contents (Elt F) → (⟨S1x64, .f32⟩ : BufTy).Contents (Elt F)),
    StableHlo.reshape main_v71 main_v72 rfl shapeCasts_S1x64_S64,
    StableHlo.unary main_v14 main_v73 (broadcastInDim S100000x64 ![0, 1] bcast_S100000x1_S100000x64_0_1 : (⟨S100000x1, .f32⟩ : BufTy).Contents (Elt F) → (⟨S100000x64, .f32⟩ : BufTy).Contents (Elt F)),
    StableHlo.binary main_v68 main_v73 main_v74 (mulf : (⟨S100000x64, .f32⟩ : BufTy).Contents (Elt F) → (⟨S100000x64, .f32⟩ : BufTy).Contents (Elt F) → (⟨S100000x64, .f32⟩ : BufTy).Contents (Elt F)),
    StableHlo.binary main_v74 main_v70 main_v75 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_13 (constantI S_ 32 0#32),
    StableHlo.unary main_c_13 main_v76 (broadcastInDim S3300000 ![] bcast_S_S3300000 : (⟨S_, .i32⟩ : BufTy).Contents (Elt F) → (⟨S3300000, .i32⟩ : BufTy).Contents (Elt F)),
    StableHlo.binary main_v1 main_v76 main_v77 (cmpi .slt : (⟨S3300000, .i32⟩ : BufTy).Contents (Elt F) → (⟨S3300000, .i32⟩ : BufTy).Contents (Elt F) → (⟨S3300000, .i1⟩ : BufTy).Contents (Elt F)),
    StableHlo.nullary main_c_14 (constantI S_ 32 100000#32),
    StableHlo.unary main_c_14 main_v78 (broadcastInDim S3300000 ![] bcast_S_S3300000 : (⟨S_, .i32⟩ : BufTy).Contents (Elt F) → (⟨S3300000, .i32⟩ : BufTy).Contents (Elt F)),
    StableHlo.binary main_v1 main_v78 main_v79 (addi : (⟨S3300000, .i32⟩ : BufTy).Contents (Elt F) → (⟨S3300000, .i32⟩ : BufTy).Contents (Elt F) → (⟨S3300000, .i32⟩ : BufTy).Contents (Elt F)),
    StableHlo.ternary main_v77 main_v79 main_v1 main_v80 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v80 main_v81 (broadcastInDim S3300000x1 ![0] bcast_S3300000_S3300000x1_0 : (⟨S3300000, .i32⟩ : BufTy).Contents (Elt F) → (⟨S3300000x1, .i32⟩ : BufTy).Contents (Elt F)),
    StableHlo.binary main_v75 main_v81 main_v82 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.nullary main_cst_15 (constant S_ .f32 0x00000000#32),
    StableHlo.unary main_cst_15 main_v83 (broadcastInDim S100000x64 ![] bcast_S_S100000x64 : (⟨S_, .f32⟩ : BufTy).Contents (Elt F) → (⟨S100000x64, .f32⟩ : BufTy).Contents (Elt F)),
    StableHlo.unary main_v2 main_v84 (broadcastInDim S3300000x1 ![0] bcast_S3300000_S3300000x1_0 : (⟨S3300000, .i32⟩ : BufTy).Contents (Elt F) → (⟨S3300000x1, .i32⟩ : BufTy).Contents (Elt F)),
    StableHlo.ternary main_v83 main_v84 main_v82 main_v85 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_v17 main_v86 (broadcastInDim S100000x64 ![0, 1] bcast_S100000x1_S100000x64_0_1 : (⟨S100000x1, .f32⟩ : BufTy).Contents (Elt F) → (⟨S100000x64, .f32⟩ : BufTy).Contents (Elt F)),
    StableHlo.binary main_v85 main_v86 main_v87 (mulf : (⟨S100000x64, .f32⟩ : BufTy).Contents (Elt F) → (⟨S100000x64, .f32⟩ : BufTy).Contents (Elt F) → (⟨S100000x64, .f32⟩ : BufTy).Contents (Elt F)),
    StableHlo.unary main_v72 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S100000x64 ![0, 1] bcast_S1x64_S100000x64_0_1 : (⟨S1x64, .f32⟩ : BufTy).Contents (Elt F) → (⟨S100000x64, .f32⟩ : BufTy).Contents (Elt F)),
    StableHlo.binary main_v87 main_v89 main_v90 (addf : (⟨S100000x64, .f32⟩ : BufTy).Contents (Elt F) → (⟨S100000x64, .f32⟩ : BufTy).Contents (Elt F) → (⟨S100000x64, .f32⟩ : BufTy).Contents (Elt F)),
    StableHlo.binary main_v90 main_arg7 main_v91 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_arg8 main_v92 (broadcastInDim S1x1 ![1] bcast_S1_S1x1_1 : (⟨S1, .f32⟩ : BufTy).Contents (Elt F) → (⟨S1x1, .f32⟩ : BufTy).Contents (Elt F)),
    StableHlo.unary main_v92 main_v93 (broadcastInDim S100000x1 ![0, 1] bcast_S1x1_S100000x1_0_1 : (⟨S1x1, .f32⟩ : BufTy).Contents (Elt F) → (⟨S100000x1, .f32⟩ : BufTy).Contents (Elt F)),
    StableHlo.binary main_v91 main_v93 main_v94 (addf : (⟨S100000x1, .f32⟩ : BufTy).Contents (Elt F) → (⟨S100000x1, .f32⟩ : BufTy).Contents (Elt F) → (⟨S100000x1, .f32⟩ : BufTy).Contents (Elt F)) ]

/-- The first window of `@main` (70 operations). -/
abbrev ops0 : List (HloOp τ sig (Elt F)) := cG ++ (cL1 ++ cL2a)
/-- The second window of `@main` (59 operations). -/
abbrev ops1 : List (HloOp τ sig (Elt F)) := cL2b ++ cL3
/-- `@main`'s 129 operations, in order. -/
abbrev ops : List (HloOp τ sig (Elt F)) := ops0 ++ ops1

set_option maxRecDepth 8192 in
theorem cG_sub : (cG : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub ..⟩

/-- The buffers the stretch writes. -/
abbrev cG_W : List (Ref sig .tc) := [main_v0, main_v1, main_v2, main_cst, main_v3, main_cst_0, main_v4, main_v5, main_v6, main_cst_1, main_call0_v0, main_call0_v1, main_v7, main_cst_2, main_v8, main_v9, main_v10, main_cst_3, main_call1_v0, main_call1_v1, main_v11, main_cst_4, main_v12, main_v13, main_v14, main_cst_5, main_v15, main_v16, main_v17]

set_option maxRecDepth 8192 in
theorem cG_writes : (cG : List (HloOp τ sig (Elt F))).Forall fun op => op.writes ⊆ (cG_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem cG_keep (W : Valuation τ sig (Elt F)) (r : Ref sig .tc) (h : r ∉ cG_W) :
    after cG W (Proc.devRef .tc r) = W (Proc.devRef .tc r) :=
  after_of_writes_sub cG W cG_writes h

set_option maxRecDepth 8192 in
theorem cL1_sub : (cL1 : List (HloOp τ sig (Elt F))).Forall fun op => op.bufs ⊆ tcRefs τ sig :=
  ⟨unary_bufs_sub .., binary_bufs_sub .., unary_bufs_sub .., unary_bufs_sub .., binary_bufs_sub .., unary_bufs_sub .., reshape_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- The buffers the stretch writes. -/
abbrev cL1_W : List (Ref sig .tc) := [main_v18, main_v19, main_v20, main_v21, main_v22, main_v23, main_v24, main_v25, main_v26, main_v27, main_v28, main_v29, main_c, main_v30, main_v31, main_c_6, main_v32, main_v33, main_v34, main_v35, main_v36, main_cst_7, main_v37, main_v38, main_v39, main_v40, main_v41, main_v42, main_v43, main_v44, main_cst_8, main_call2_cst, main_call2_v0, main_call2_v1, main_call2_v2, main_call2_v3, main_call2_v4, main_v45]

set_option maxRecDepth 8192 in
theorem cL1_writes : (cL1 : List (HloOp τ sig (Elt F))).Forall fun op => op.writes ⊆ (cL1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem cL1_keep (W : Valuation τ sig (Elt F)) (r : Ref sig .tc) (h : r ∉ cL1_W) :
    after cL1 W (Proc.devRef .tc r) = W (Proc.devRef .tc r) :=
  after_of_writes_sub cL1 W cL1_writes h

set_option maxRecDepth 8192 in
theorem cL2a_sub : (cL2a : List (HloOp τ sig (Elt F))).Forall fun op => op.bufs ⊆ tcRefs τ sig :=
  ⟨unary_bufs_sub .., reshape_bufs_sub .., unary_bufs_sub ..⟩

/-- The buffers the stretch writes. -/
abbrev cL2a_W : List (Ref sig .tc) := [main_v46, main_v47, main_v48]

set_option maxRecDepth 8192 in
theorem cL2a_writes : (cL2a : List (HloOp τ sig (Elt F))).Forall fun op => op.writes ⊆ (cL2a_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem cL2a_keep (W : Valuation τ sig (Elt F)) (r : Ref sig .tc) (h : r ∉ cL2a_W) :
    after cL2a W (Proc.devRef .tc r) = W (Proc.devRef .tc r) :=
  after_of_writes_sub cL2a W cL2a_writes h

set_option maxRecDepth 8192 in
theorem cL2b_sub : (cL2b : List (HloOp τ sig (Elt F))).Forall fun op => op.bufs ⊆ tcRefs τ sig :=
  ⟨reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- The buffers the stretch writes. -/
abbrev cL2b_W : List (Ref sig .tc) := [main_v49, main_v50, main_v51, main_v52, main_c_9, main_v53, main_v54, main_c_10, main_v55, main_v56, main_v57, main_v58, main_v59, main_cst_11, main_v60, main_v61, main_v62, main_v63, main_v64, main_v65, main_v66, main_v67, main_cst_12, main_call3_cst, main_call3_v0, main_call3_v1, main_call3_v2, main_call3_v3, main_call3_v4, main_v68]

set_option maxRecDepth 8192 in
theorem cL2b_writes : (cL2b : List (HloOp τ sig (Elt F))).Forall fun op => op.writes ⊆ (cL2b_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem cL2b_keep (W : Valuation τ sig (Elt F)) (r : Ref sig .tc) (h : r ∉ cL2b_W) :
    after cL2b W (Proc.devRef .tc r) = W (Proc.devRef .tc r) :=
  after_of_writes_sub cL2b W cL2b_writes h

set_option maxRecDepth 8192 in
theorem cL3_sub : (cL3 : List (HloOp τ sig (Elt F))).Forall fun op => op.bufs ⊆ tcRefs τ sig :=
  ⟨unary_bufs_sub .., reshape_bufs_sub .., unary_bufs_sub .., reshape_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., binary_bufs_sub .., unary_bufs_sub .., unary_bufs_sub .., binary_bufs_sub ..⟩

/-- The buffers the stretch writes. -/
abbrev cL3_W : List (Ref sig .tc) := [main_v69, main_v70, main_v71, main_v72, main_v73, main_v74, main_v75, main_c_13, main_v76, main_v77, main_c_14, main_v78, main_v79, main_v80, main_v81, main_v82, main_cst_15, main_v83, main_v84, main_v85, main_v86, main_v87, main_v88, main_v89, main_v90, main_v91, main_v92, main_v93, main_v94]

set_option maxRecDepth 8192 in
theorem cL3_writes : (cL3 : List (HloOp τ sig (Elt F))).Forall fun op => op.writes ⊆ (cL3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the stretch does not write keeps its contents through it. -/
theorem cL3_keep (W : Valuation τ sig (Elt F)) (r : Ref sig .tc) (h : r ∉ cL3_W) :
    after cL3 W (Proc.devRef .tc r) = W (Proc.devRef .tc r) :=
  after_of_writes_sub cL3 W cL3_writes h

theorem ops_sub : (ops : List (HloOp τ sig (Elt F))).Forall fun op => op.bufs ⊆ tcRefs τ sig :=
  List.forall_iff_forall_mem.mpr fun op h => by
    simp only [ops, ops0, ops1, List.mem_append] at h
    rcases h with (h | h | h) | h | h
    exacts [List.forall_iff_forall_mem.mp cG_sub op h, List.forall_iff_forall_mem.mp cL1_sub op h,
      List.forall_iff_forall_mem.mp cL2a_sub op h, List.forall_iff_forall_mem.mp cL2b_sub op h,
      List.forall_iff_forall_mem.mp cL3_sub op h]

/-- Running two stretches one after the other is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The whole line from any contents, stretch by stretch. -/
theorem after_ops (V : Valuation τ sig (Elt F)) :
    after ops V = after cL3 (after cL2b (after cL2a (after cL1 (after cG V)))) := by
  simp only [ops, ops0, ops1, after_app]

/-- A buffer that no stretch writes keeps its contents through the whole line. -/
theorem ops_keep (V : Valuation τ sig (Elt F)) (r : Ref sig .tc) (h1 : r ∉ cG_W) (h2 : r ∉ cL1_W) (h3 : r ∉ cL2a_W)
    (h4 : r ∉ cL2b_W) (h5 : r ∉ cL3_W) : after ops V (Proc.devRef .tc r) = V (Proc.devRef .tc r) := by
  rw [after_ops, cL3_keep _ r h5, cL2b_keep _ r h4, cL2a_keep _ r h3, cL1_keep _ r h2, cG_keep _ r h1]

end Cert.ReferenceIdeal.Hand

end
-- ==== Proof.Ref.MainEq.lean ====
import proofs.«109159_j7215545057639_1_alg».proof.Proof.Ref.Ops

/-!
# `@main` is the straight line of its operations

Each window of `@main` is the sequence of its stretch of operations: the called functions' bodies unfold at their
calls, and sequencing is reassociated. The two windows in order are the whole line.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The first window: seventy operations, two lower clips and one leaky ReLU among them unfolded. -/
theorem main_part0_eq (c : Dev nD) : main_part0 (F := F) c = seq ops0 := by
  simp only [main_part0, fn_clip.body, fn_leaky_relu.body, fn_where.body, ops0, cG, cL1, cL2a, List.cons_append,
    List.nil_append, seq, bind_assoc, pure_bind]
  rfl

set_option maxRecDepth 16384 in
set_option maxHeartbeats 4000000 in
/-- The second window: fifty-nine operations, one leaky ReLU among them unfolded. -/
theorem main_part1_eq (c : Dev nD) : main_part1 (F := F) c = seq ops1 := by
  simp only [main_part1, fn_leaky_relu.body, fn_where.body, ops1, cL2b, cL3, List.cons_append,
    List.nil_append, seq, bind_assoc, pure_bind]

/-- `@main` runs its two windows in order: the whole line. -/
theorem main_eq (c : Dev nD) : main (F := F) c = seq ops := by
  have h : (seq ops : Prog (TpuEff nD τ sig (Elt F) (Pipeline.Sig Λ₀ (Fin 0) fun p => (pcfgs (F := F) p).Adm) .tc) PUnit)
      = seq ops0 >>= fun _ => seq ops1 := seq_append ops0 ops1
  rw [h, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    `@main` terminates, and every TensorCore buffer ends at the fold of the operations' results over its contents at
    the start. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.Ref.Term.lean ====
import proofs.«109159_j7215545057639_1_alg».proof.ReferenceIdeal

/-!
# The reference's result as a pure function of its nine argument arrays

The reference is a three-layer graph convolution over `N = 100000` nodes and `3200000` directed edges
`(src e, dst e)`, to which one self loop per node is appended (`3300000` edges in all).

* degree normalisation: for an endpoint array `idx` (with self loops), `deg v = max 1 (#{e | idx e = v})`
  (a scatter-add of ones into zeros, then a maximum with one) and `norm v = deg v ^ (-1/2)`;
* one convolution: `x ↦ ((A (x ⊙ normS) W) ⊙ normD) + b`, where `⊙` scales row `v` by the norm of `v`,
  `W` is a 64×64 weight, `A` gathers row `src e` for every edge and scatter-adds it into row `dst e`,
  and `b` is added to every row;
* the network: `embed` (the weight column times a 1×64 matrix plus a bias), convolution, leaky ReLU,
  convolution, leaky ReLU, convolution, and a 64×1 read-out plus a bias.

The names `main_vN` in the comments are the reference program's values that a definition denotes.
-/

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F] [Facts]

/-- An endpoint array of the `3200000` edges followed by one self loop per node (`iota`): `main_v1`, `main_v2`. -/
def withSelfLoops (e : (⟨S3200000, .i32⟩ : BufTy).Contents (Elt F)) : (⟨S3300000, .i32⟩ : BufTy).Contents (Elt F) :=
  (concatenate S3300000 0 [⟨S3200000, e⟩, ⟨S100000, (iotaInDim S100000 32 0 : (⟨S100000, .i32⟩ : BufTy).Contents (Elt F))⟩] concatenates_S3200000_S100000_S3300000_d0 : (⟨S3300000, .i32⟩ : BufTy).Contents (Elt F))

/-- An index array as a one-column index table: `main_v5`, `main_v9`, `main_v35`, `main_v38`, …. -/
def idxColumn (i : (⟨S3300000, .i32⟩ : BufTy).Contents (Elt F)) : (⟨S3300000x1, .i32⟩ : BufTy).Contents (Elt F) :=
  (broadcastInDim S3300000x1 ![0] bcast_S3300000_S3300000x1_0 : (⟨S3300000, .i32⟩ : BufTy).Contents (Elt F) → (⟨S3300000x1, .i32⟩ : BufTy).Contents (Elt F)) i

/-- The number of edges (self loops included) with endpoint `v`, as a float: ones scatter-added into zeros
    (`main_v6`, `main_v10`). -/
def degree (idx : (⟨S3300000, .i32⟩ : BufTy).Contents (Elt F)) : (⟨S100000, .f32⟩ : BufTy).Contents (Elt F) :=
  (Host.scatterAdd scatter_S100000_S3300000x1_S3300000_n_0_0_1
    ((broadcastInDim S100000 ![] bcast_S_S100000 : (⟨S_, .f32⟩ : BufTy).Contents (Elt F) → (⟨S100000, .f32⟩ : BufTy).Contents (Elt F)) (constant S_ .f32 0x00000000#32))
    (idxColumn idx)
    ((broadcastInDim S3300000 ![] bcast_S_S3300000 : (⟨S_, .f32⟩ : BufTy).Contents (Elt F) → (⟨S3300000, .f32⟩ : BufTy).Contents (Elt F)) (constant S_ .f32 0x3F800000#32)) : (⟨S100000, .f32⟩ : BufTy).Contents (Elt F))

/-- The lower clip at one (`jnp.clip(·, 1)`: the bound converted, broadcast, then the maximum): `main_v7`, `main_v11`. -/
def clipBelowOne (x : (⟨S100000, .f32⟩ : BufTy).Contents (Elt F)) : (⟨S100000, .f32⟩ : BufTy).Contents (Elt F) :=
  (maximumf ((broadcastInDim S100000 ![] bcast_S_S100000 : (⟨S_, .f32⟩ : BufTy).Contents (Elt F) → (⟨S100000, .f32⟩ : BufTy).Contents (Elt F)) (id (constant S_ .f32 0x3F800000#32 : (⟨S_, .f32⟩ : BufTy).Contents (Elt F)))) x : (⟨S100000, .f32⟩ : BufTy).Contents (Elt F))

/-- `deg ^ (-1/2)` with the degree clipped below at one: `main_v13` (by `main_v1`), `main_v16` (by `main_v2`). -/
def degNorm (idx : (⟨S3300000, .i32⟩ : BufTy).Contents (Elt F)) : (⟨S100000, .f32⟩ : BufTy).Contents (Elt F) :=
  (Host.powf : (⟨S100000, .f32⟩ : BufTy).Contents (Elt F) → (⟨S100000, .f32⟩ : BufTy).Contents (Elt F) → (⟨S100000, .f32⟩ : BufTy).Contents (Elt F)) (clipBelowOne (degree idx))
    ((broadcastInDim S100000 ![] bcast_S_S100000 : (⟨S_, .f32⟩ : BufTy).Contents (Elt F) → (⟨S100000, .f32⟩ : BufTy).Contents (Elt F)) (constant S_ .f32 0xBF000000#32))

/-- `x ⊙ n`: row `v` of `x` times `n v` (the vector as a column, broadcast along the features, then the product):
    `main_v28`, `main_v41`, `main_v51`, `main_v64`, `main_v74`, `main_v87`. -/
def scaleRows (x : (⟨S100000x64, .f32⟩ : BufTy).Contents (Elt F)) (n : (⟨S100000, .f32⟩ : BufTy).Contents (Elt F)) : (⟨S100000x64, .f32⟩ : BufTy).Contents (Elt F) :=
  (mulf : (⟨S100000x64, .f32⟩ : BufTy).Contents (Elt F) → (⟨S100000x64, .f32⟩ : BufTy).Contents (Elt F) → (⟨S100000x64, .f32⟩ : BufTy).Contents (Elt F)) x
    ((broadcastInDim S100000x64 ![0, 1] bcast_S100000x1_S100000x64_0_1 : (⟨S100000x1, .f32⟩ : BufTy).Contents (Elt F) → (⟨S100000x64, .f32⟩ : BufTy).Contents (Elt F))
      ((broadcastInDim S100000x1 ![0] bcast_S100000_S100000x1_0 : (⟨S100000, .f32⟩ : BufTy).Contents (Elt F) → (⟨S100000x1, .f32⟩ : BufTy).Contents (Elt F)) n))

/-- `x + b` on every row (the bias as a 1×64 row, broadcast along the nodes, then the sum):
    `main_v22`, `main_v44`, `main_v67`, `main_v90`. -/
def addBias (x : (⟨S100000x64, .f32⟩ : BufTy).Contents (Elt F)) (b : (⟨S64, .f32⟩ : BufTy).Contents (Elt F)) : (⟨S100000x64, .f32⟩ : BufTy).Contents (Elt F) :=
  (addf : (⟨S100000x64, .f32⟩ : BufTy).Contents (Elt F) → (⟨S100000x64, .f32⟩ : BufTy).Contents (Elt F) → (⟨S100000x64, .f32⟩ : BufTy).Contents (Elt F)) x
    ((broadcastInDim S100000x64 ![0, 1] bcast_S1x64_S100000x64_0_1 : (⟨S1x64, .f32⟩ : BufTy).Contents (Elt F) → (⟨S100000x64, .f32⟩ : BufTy).Contents (Elt F))
      ((broadcastInDim S1x64 ![1] bcast_S64_S1x64_1 : (⟨S64, .f32⟩ : BufTy).Contents (Elt F) → (⟨S1x64, .f32⟩ : BufTy).Contents (Elt F)) b))

/-- The input layer: the node weights as a column times the 1×64 matrix, plus the bias (`main_v18 … main_v22`). -/
def embed (a0 : (⟨S100000, .f32⟩ : BufTy).Contents (Elt F)) (a3 : (⟨S1x64, .f32⟩ : BufTy).Contents (Elt F)) (a4 : (⟨S64, .f32⟩ : BufTy).Contents (Elt F)) : (⟨S100000x64, .f32⟩ : BufTy).Contents (Elt F) :=
  addBias
    (Host.dotGeneral dot_S100000x1_S1x64_S100000x64_1_0_0_1_n_n none
      ((broadcastInDim S100000x1 ![0] bcast_S100000_S100000x1_0 : (⟨S100000, .f32⟩ : BufTy).Contents (Elt F) → (⟨S100000x1, .f32⟩ : BufTy).Contents (Elt F)) a0) a3 : (⟨S100000x64, .f32⟩ : BufTy).Contents (Elt F))
    a4

/-- Layer `k`'s 64×64 weight: the slice of the weight stack at `off = ![k, 0, 0]`, reshaped
    (`main_v24`, `main_v47`, `main_v70`). -/
def weightAt (off : Fin S3x64x64.rank → Nat) (h : S3x64x64.Slices off S1x64x64) (a5 : (⟨S3x64x64, .f32⟩ : BufTy).Contents (Elt F)) : (⟨S64x64, .f32⟩ : BufTy).Contents (Elt F) :=
  (shapeCast S64x64 (extractStridedSlice S1x64x64 off a5 h : (⟨S1x64x64, .f32⟩ : BufTy).Contents (Elt F)) shapeCasts_S1x64x64_S64x64 : (⟨S64x64, .f32⟩ : BufTy).Contents (Elt F))

/-- Layer `k`'s bias: the slice of the bias stack at `off = ![k, 0]`, reshaped (`main_v26`, `main_v49`, `main_v72`). -/
def biasAt (off : Fin S3x64.rank → Nat) (h : S3x64.Slices off S1x64) (a6 : (⟨S3x64, .f32⟩ : BufTy).Contents (Elt F)) : (⟨S64, .f32⟩ : BufTy).Contents (Elt F) :=
  (shapeCast S64 (extractStridedSlice S1x64 off a6 h : (⟨S1x64, .f32⟩ : BufTy).Contents (Elt F)) shapeCasts_S1x64_S64 : (⟨S64, .f32⟩ : BufTy).Contents (Elt F))

/-- The dense product with a 64×64 weight (`main_v29`, `main_v52`, `main_v75`). -/
def dense (x : (⟨S100000x64, .f32⟩ : BufTy).Contents (Elt F)) (w : (⟨S64x64, .f32⟩ : BufTy).Contents (Elt F)) : (⟨S100000x64, .f32⟩ : BufTy).Contents (Elt F) :=
  (Host.dotGeneral dot_S100000x64_S64x64_S100000x64_1_0_0_1_n_n none x w : (⟨S100000x64, .f32⟩ : BufTy).Contents (Elt F))

/-- The gather's index table: a negative index wrapped by `N` (compare, add, select), as a column
    (`main_v30 … main_v35`, `main_v53 … main_v58`, `main_v76 … main_v81`). -/
def gatherIdx (s : (⟨S3300000, .i32⟩ : BufTy).Contents (Elt F)) : (⟨S3300000x1, .i32⟩ : BufTy).Contents (Elt F) :=
  idxColumn
    ((select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F))
      ((cmpi .slt : (⟨S3300000, .i32⟩ : BufTy).Contents (Elt F) → (⟨S3300000, .i32⟩ : BufTy).Contents (Elt F) → (⟨S3300000, .i1⟩ : BufTy).Contents (Elt F)) s
        ((broadcastInDim S3300000 ![] bcast_S_S3300000 : (⟨S_, .i32⟩ : BufTy).Contents (Elt F) → (⟨S3300000, .i32⟩ : BufTy).Contents (Elt F)) (constantI S_ 32 0#32)))
      ((addi : (⟨S3300000, .i32⟩ : BufTy).Contents (Elt F) → (⟨S3300000, .i32⟩ : BufTy).Contents (Elt F) → (⟨S3300000, .i32⟩ : BufTy).Contents (Elt F)) s
        ((broadcastInDim S3300000 ![] bcast_S_S3300000 : (⟨S_, .i32⟩ : BufTy).Contents (Elt F) → (⟨S3300000, .i32⟩ : BufTy).Contents (Elt F)) (constantI S_ 32 100000#32)))
      s)

/-- The aggregation over edges: row `s e` of `h` gathered for every edge `e` and scatter-added into row `d e` of a
    zero matrix (`main_v36 … main_v39`, `main_v59 … main_v62`, `main_v82 … main_v85`). -/
def aggregate (h : (⟨S100000x64, .f32⟩ : BufTy).Contents (Elt F)) (s d : (⟨S3300000, .i32⟩ : BufTy).Contents (Elt F)) : (⟨S100000x64, .f32⟩ : BufTy).Contents (Elt F) :=
  (Host.scatterAdd scatter_S100000x64_S3300000x1_S3300000x64_1_0_0_1
    ((broadcastInDim S100000x64 ![] bcast_S_S100000x64 : (⟨S_, .f32⟩ : BufTy).Contents (Elt F) → (⟨S100000x64, .f32⟩ : BufTy).Contents (Elt F)) (constant S_ .f32 0x00000000#32))
    (idxColumn d)
    (Host.gather gather_S100000x64_S3300000x1_S3300000x64_1_0_n_n_0_1_164 h (gatherIdx s) : (⟨S3300000x64, .f32⟩ : BufTy).Contents (Elt F)) : (⟨S100000x64, .f32⟩ : BufTy).Contents (Elt F))

/-- One graph convolution: scale by the source norm, multiply by the weight, aggregate over the edges, scale by the
    destination norm, add the bias. -/
def conv (x : (⟨S100000x64, .f32⟩ : BufTy).Contents (Elt F)) (s d : (⟨S3300000, .i32⟩ : BufTy).Contents (Elt F)) (nS nD : (⟨S100000, .f32⟩ : BufTy).Contents (Elt F))
    (w : (⟨S64x64, .f32⟩ : BufTy).Contents (Elt F)) (b : (⟨S64, .f32⟩ : BufTy).Contents (Elt F)) : (⟨S100000x64, .f32⟩ : BufTy).Contents (Elt F) :=
  addBias (scaleRows (aggregate (dense (scaleRows x nS) w) s d) nD) b

/-- Leaky ReLU with slope `α` (a scalar): `x` where `x ≥ 0`, `α · x` elsewhere (the outlined function's seven
    operations: `main_v45`, `main_v68`). -/
def leakyRelu (x : (⟨S100000x64, .f32⟩ : BufTy).Contents (Elt F)) (α : (⟨S_, .f32⟩ : BufTy).Contents (Elt F)) : (⟨S100000x64, .f32⟩ : BufTy).Contents (Elt F) :=
  (select
    (cmpf .oge x ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F))) : (⟨S100000x64, .i1⟩ : BufTy).Contents (Elt F))
    x
    (mulf ((broadcastInDim S100000x64 ![] bcast_S_S100000x64 : (⟨S_, .f32⟩ : BufTy).Contents (Elt F) → (⟨S100000x64, .f32⟩ : BufTy).Contents (Elt F)) (id α)) x : (⟨S100000x64, .f32⟩ : BufTy).Contents (Elt F)) : (⟨S100000x64, .f32⟩ : BufTy).Contents (Elt F))

/-- The read-out: the 64×1 product plus the scalar bias on every row (`main_v91 … main_v94`). -/
def readout (x : (⟨S100000x64, .f32⟩ : BufTy).Contents (Elt F)) (a7 : (⟨S64x1, .f32⟩ : BufTy).Contents (Elt F)) (a8 : (⟨S1, .f32⟩ : BufTy).Contents (Elt F)) : (⟨S100000x1, .f32⟩ : BufTy).Contents (Elt F) :=
  (addf : (⟨S100000x1, .f32⟩ : BufTy).Contents (Elt F) → (⟨S100000x1, .f32⟩ : BufTy).Contents (Elt F) → (⟨S100000x1, .f32⟩ : BufTy).Contents (Elt F))
    (Host.dotGeneral dot_S100000x64_S64x1_S100000x1_1_0_0_1_n_n none x a7 : (⟨S100000x1, .f32⟩ : BufTy).Contents (Elt F))
    ((broadcastInDim S100000x1 ![0, 1] bcast_S1x1_S100000x1_0_1 : (⟨S1x1, .f32⟩ : BufTy).Contents (Elt F) → (⟨S100000x1, .f32⟩ : BufTy).Contents (Elt F))
      ((broadcastInDim S1x1 ![1] bcast_S1_S1x1_1 : (⟨S1, .f32⟩ : BufTy).Contents (Elt F) → (⟨S1x1, .f32⟩ : BufTy).Contents (Elt F)) a8))

/-- The leaky ReLU's slope, the float nearest to `1/100`. -/
def slope : (⟨S_, .f32⟩ : BufTy).Contents (Elt F) := constant S_ .f32 0x3C23D70A#32

/-- The network over given edge arrays and norms. -/
def net (a0 : (⟨S100000, .f32⟩ : BufTy).Contents (Elt F)) (a3 : (⟨S1x64, .f32⟩ : BufTy).Contents (Elt F)) (a4 : (⟨S64, .f32⟩ : BufTy).Contents (Elt F)) (a5 : (⟨S3x64x64, .f32⟩ : BufTy).Contents (Elt F))
    (a6 : (⟨S3x64, .f32⟩ : BufTy).Contents (Elt F)) (a7 : (⟨S64x1, .f32⟩ : BufTy).Contents (Elt F)) (a8 : (⟨S1, .f32⟩ : BufTy).Contents (Elt F))
    (s d : (⟨S3300000, .i32⟩ : BufTy).Contents (Elt F)) (nS nD : (⟨S100000, .f32⟩ : BufTy).Contents (Elt F)) : (⟨S100000x1, .f32⟩ : BufTy).Contents (Elt F) :=
  readout
    (conv
      (leakyRelu
        (conv
          (leakyRelu
            (conv (embed a0 a3 a4) s d nS nD
              (weightAt ![0, 0, 0] slices_S3x64x64_S1x64x64_0_0_0 a5) (biasAt ![0, 0] slices_S3x64_S1x64_0_0 a6))
            slope)
          s d nS nD
          (weightAt ![1, 0, 0] slices_S3x64x64_S1x64x64_1_0_0 a5) (biasAt ![1, 0] slices_S3x64_S1x64_1_0 a6))
        slope)
      s d nS nD
      (weightAt ![2, 0, 0] slices_S3x64x64_S1x64x64_2_0_0 a5) (biasAt ![2, 0] slices_S3x64_S1x64_2_0 a6))
    a7 a8

/-- The reference's result (`main_v94`) as a function of its nine arguments: node weights `a0`, edge sources `a1` and
    destinations `a2`, input matrix `a3` and bias `a4`, weight stack `a5`, bias stack `a6`, read-out matrix `a7` and
    bias `a8`. The source norm is taken over `a1`'s endpoints and the destination norm over `a2`'s. -/
def refOut (a0 : (⟨S100000, .f32⟩ : BufTy).Contents (Elt F)) (a1 a2 : (⟨S3200000, .i32⟩ : BufTy).Contents (Elt F)) (a3 : (⟨S1x64, .f32⟩ : BufTy).Contents (Elt F)) (a4 : (⟨S64, .f32⟩ : BufTy).Contents (Elt F))
    (a5 : (⟨S3x64x64, .f32⟩ : BufTy).Contents (Elt F)) (a6 : (⟨S3x64, .f32⟩ : BufTy).Contents (Elt F)) (a7 : (⟨S64x1, .f32⟩ : BufTy).Contents (Elt F)) (a8 : (⟨S1, .f32⟩ : BufTy).Contents (Elt F)) :
    (⟨S100000x1, .f32⟩ : BufTy).Contents (Elt F) :=
  net a0 a3 a4 a5 a6 a7 a8 (withSelfLoops a1) (withSelfLoops a2) (degNorm (withSelfLoops a1)) (degNorm (withSelfLoops a2))

end Cert.ReferenceIdeal.Hand

end
-- ==== Proof.Ref.ResG.lean ====
import proofs.«109159_j7215545057639_1_alg».proof.Proof.Ref.Ops
import proofs.«109159_j7215545057639_1_alg».proof.Proof.Ref.Term

/-!
# The graph's preparation, read back

From any contents `W`, after the first stretch: the two endpoint arrays with self loops, and the two degree norms as
columns, each as the named function of `W`'s contents at the edge arrays.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The sources with self loops. -/
theorem cG_v1 (W : Valuation τ sig (Elt F)) :
    after cG W (Proc.devRef .tc main_v1) = withSelfLoops (W (Proc.devRef .tc main_arg1)) := by
  simp only [cG]
  after_results_simp
  rfl

set_option maxRecDepth 16384 in
set_option maxHeartbeats 4000000 in
/-- The destinations with self loops. -/
theorem cG_v2 (W : Valuation τ sig (Elt F)) :
    after cG W (Proc.devRef .tc main_v2) = withSelfLoops (W (Proc.devRef .tc main_arg2)) := by
  simp only [cG]
  after_results_simp
  rfl

set_option maxRecDepth 16384 in
set_option maxHeartbeats 4000000 in
/-- The norm by the sources' degree, as a column. -/
theorem cG_v14 (W : Valuation τ sig (Elt F)) :
    after cG W (Proc.devRef .tc main_v14) = ((broadcastInDim S100000x1 ![0] bcast_S100000_S100000x1_0 : (⟨S100000, .f32⟩ : BufTy).Contents (Elt F) → (⟨S100000x1, .f32⟩ : BufTy).Contents (Elt F)) (degNorm (withSelfLoops (W (Proc.devRef .tc main_arg1))))) := by
  simp only [cG]
  after_results_simp
  rfl

set_option maxRecDepth 16384 in
set_option maxHeartbeats 4000000 in
/-- The norm by the destinations' degree, as a column. -/
theorem cG_v17 (W : Valuation τ sig (Elt F)) :
    after cG W (Proc.devRef .tc main_v17) = ((broadcastInDim S100000x1 ![0] bcast_S100000_S100000x1_0 : (⟨S100000, .f32⟩ : BufTy).Contents (Elt F) → (⟨S100000x1, .f32⟩ : BufTy).Contents (Elt F)) (degNorm (withSelfLoops (W (Proc.devRef .tc main_arg2))))) := by
  simp only [cG]
  after_results_simp
  rfl

end Cert.ReferenceIdeal.Hand

end
-- ==== Proof.Ref.ResL1.lean ====
import proofs.«109159_j7215545057639_1_alg».proof.Proof.Ref.Ops
import proofs.«109159_j7215545057639_1_alg».proof.Proof.Ref.Term

/-!
# The first layer, read back

From any contents `W` whose two norm columns are the columns of vectors `nS` and `nD`: after the second stretch the
activation buffer holds the leaky ReLU of one convolution of the input embedding.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem cL1_v45 (W : Valuation τ sig (Elt F)) (nS nD : (⟨S100000, .f32⟩ : BufTy).Contents (Elt F))
    (h14 : W (Proc.devRef .tc main_v14) = ((broadcastInDim S100000x1 ![0] bcast_S100000_S100000x1_0 : (⟨S100000, .f32⟩ : BufTy).Contents (Elt F) → (⟨S100000x1, .f32⟩ : BufTy).Contents (Elt F)) nS))
    (h17 : W (Proc.devRef .tc main_v17) = ((broadcastInDim S100000x1 ![0] bcast_S100000_S100000x1_0 : (⟨S100000, .f32⟩ : BufTy).Contents (Elt F) → (⟨S100000x1, .f32⟩ : BufTy).Contents (Elt F)) nD)) :
    after cL1 W (Proc.devRef .tc main_v45) = leakyRelu
        (conv (embed (W (Proc.devRef .tc main_arg0)) (W (Proc.devRef .tc main_arg3)) (W (Proc.devRef .tc main_arg4)))
          (W (Proc.devRef .tc main_v1)) (W (Proc.devRef .tc main_v2)) nS nD
          (weightAt ![0, 0, 0] slices_S3x64x64_S1x64x64_0_0_0 (W (Proc.devRef .tc main_arg5)))
          (biasAt ![0, 0] slices_S3x64_S1x64_0_0 (W (Proc.devRef .tc main_arg6))))
        slope := by
  simp only [cL1]
  after_results_simp
  simp only [h14, h17]
  rfl

end Cert.ReferenceIdeal.Hand

end
-- ==== Proof.Ref.ResL2.lean ====
import proofs.«109159_j7215545057639_1_alg».proof.Proof.Ref.Ops
import proofs.«109159_j7215545057639_1_alg».proof.Proof.Ref.Term

/-!
# The second layer, read back

From any contents `W` whose two norm columns are the columns of vectors `nS` and `nD`: after the third and fourth
stretches the activation buffer holds the leaky ReLU of one convolution of the previous activation.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem cL2_v68 (W : Valuation τ sig (Elt F)) (nS nD : (⟨S100000, .f32⟩ : BufTy).Contents (Elt F))
    (h14 : W (Proc.devRef .tc main_v14) = ((broadcastInDim S100000x1 ![0] bcast_S100000_S100000x1_0 : (⟨S100000, .f32⟩ : BufTy).Contents (Elt F) → (⟨S100000x1, .f32⟩ : BufTy).Contents (Elt F)) nS))
    (h17 : W (Proc.devRef .tc main_v17) = ((broadcastInDim S100000x1 ![0] bcast_S100000_S100000x1_0 : (⟨S100000, .f32⟩ : BufTy).Contents (Elt F) → (⟨S100000x1, .f32⟩ : BufTy).Contents (Elt F)) nD)) :
    after cL2b (after cL2a W) (Proc.devRef .tc main_v68) = leakyRelu
        (conv (W (Proc.devRef .tc main_v45)) (W (Proc.devRef .tc main_v1)) (W (Proc.devRef .tc main_v2)) nS nD
          (weightAt ![1, 0, 0] slices_S3x64x64_S1x64x64_1_0_0 (W (Proc.devRef .tc main_arg5)))
          (biasAt ![1, 0] slices_S3x64_S1x64_1_0 (W (Proc.devRef .tc main_arg6))))
        slope := by
  rw [← after_app]
  simp only [cL2a, cL2b, List.cons_append, List.nil_append]
  after_results_simp
  simp only [h14, h17]
  rfl

end Cert.ReferenceIdeal.Hand

end
-- ==== Proof.Ref.ResL3.lean ====
import proofs.«109159_j7215545057639_1_alg».proof.Proof.Ref.Ops
import proofs.«109159_j7215545057639_1_alg».proof.Proof.Ref.Term

/-!
# The third layer and the read-out, read back

From any contents `W` whose two norm columns are the columns of vectors `nS` and `nD`: after the last stretch the
result buffer holds the read-out of one convolution of the previous activation.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem cL3_v94 (W : Valuation τ sig (Elt F)) (nS nD : (⟨S100000, .f32⟩ : BufTy).Contents (Elt F))
    (h14 : W (Proc.devRef .tc main_v14) = ((broadcastInDim S100000x1 ![0] bcast_S100000_S100000x1_0 : (⟨S100000, .f32⟩ : BufTy).Contents (Elt F) → (⟨S100000x1, .f32⟩ : BufTy).Contents (Elt F)) nS))
    (h17 : W (Proc.devRef .tc main_v17) = ((broadcastInDim S100000x1 ![0] bcast_S100000_S100000x1_0 : (⟨S100000, .f32⟩ : BufTy).Contents (Elt F) → (⟨S100000x1, .f32⟩ : BufTy).Contents (Elt F)) nD)) :
    after cL3 W (Proc.devRef .tc main_v94) = readout
        (conv (W (Proc.devRef .tc main_v68)) (W (Proc.devRef .tc main_v1)) (W (Proc.devRef .tc main_v2)) nS nD
          (weightAt ![2, 0, 0] slices_S3x64x64_S1x64x64_2_0_0 (W (Proc.devRef .tc main_arg5)))
          (biasAt ![2, 0] slices_S3x64_S1x64_2_0 (W (Proc.devRef .tc main_arg6))))
        (W (Proc.devRef .tc main_arg7)) (W (Proc.devRef .tc main_arg8)) := by
  simp only [cL3]
  after_results_simp
  simp only [h14, h17]
  rfl

end Cert.ReferenceIdeal.Hand

end
-- ==== Proof.Ref.Out.lean ====
import proofs.«109159_j7215545057639_1_alg».proof.Proof.Ref.ResG
import proofs.«109159_j7215545057639_1_alg».proof.Proof.Ref.ResL1
import proofs.«109159_j7215545057639_1_alg».proof.Proof.Ref.ResL2
import proofs.«109159_j7215545057639_1_alg».proof.Proof.Ref.ResL3

/-!
# The reference's result as the named function of its arguments

The contents after each stage, from any contents `V` at the start: after the preparation, after the first layer,
after the second layer. At each stage the buffers still to be read are the named functions of `V`'s contents at the
argument buffers: the endpoint arrays and norm columns, the activation, and the arguments not yet consumed. The last
stage then gives the result buffer as `refOut` of the nine arguments.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents after the graph's preparation. -/
def val1 (V : Valuation τ sig (Elt F)) : Valuation τ sig (Elt F) := after cG V
/-- The contents after the first layer. -/
def val2 (V : Valuation τ sig (Elt F)) : Valuation τ sig (Elt F) := after cL1 (val1 V)
/-- The contents after the second layer. -/
def val3 (V : Valuation τ sig (Elt F)) : Valuation τ sig (Elt F) := after cL2b (after cL2a (val2 V))

/-- The first layer's activation. -/
def act1 (V : Valuation τ sig (Elt F)) : (⟨S100000x64, .f32⟩ : BufTy).Contents (Elt F) :=
  leakyRelu
    (conv (embed (V (Proc.devRef .tc main_arg0)) (V (Proc.devRef .tc main_arg3)) (V (Proc.devRef .tc main_arg4))) (withSelfLoops (V (Proc.devRef .tc main_arg1))) (withSelfLoops (V (Proc.devRef .tc main_arg2))) (degNorm (withSelfLoops (V (Proc.devRef .tc main_arg1)))) (degNorm (withSelfLoops (V (Proc.devRef .tc main_arg2))))
      (weightAt ![0, 0, 0] slices_S3x64x64_S1x64x64_0_0_0 (V (Proc.devRef .tc main_arg5))) (biasAt ![0, 0] slices_S3x64_S1x64_0_0 (V (Proc.devRef .tc main_arg6))))
    slope

/-- The second layer's activation. -/
def act2 (V : Valuation τ sig (Elt F)) : (⟨S100000x64, .f32⟩ : BufTy).Contents (Elt F) :=
  leakyRelu
    (conv (act1 V) (withSelfLoops (V (Proc.devRef .tc main_arg1))) (withSelfLoops (V (Proc.devRef .tc main_arg2))) (degNorm (withSelfLoops (V (Proc.devRef .tc main_arg1)))) (degNorm (withSelfLoops (V (Proc.devRef .tc main_arg2))))
      (weightAt ![1, 0, 0] slices_S3x64x64_S1x64x64_1_0_0 (V (Proc.devRef .tc main_arg5))) (biasAt ![1, 0] slices_S3x64_S1x64_1_0 (V (Proc.devRef .tc main_arg6))))
    slope

/-! ## After the preparation -/

theorem val1_main_v1 (V : Valuation τ sig (Elt F)) : val1 V (Proc.devRef .tc main_v1) = (withSelfLoops (V (Proc.devRef .tc main_arg1))) := cG_v1 V
theorem val1_main_v2 (V : Valuation τ sig (Elt F)) : val1 V (Proc.devRef .tc main_v2) = (withSelfLoops (V (Proc.devRef .tc main_arg2))) := cG_v2 V
theorem val1_main_v14 (V : Valuation τ sig (Elt F)) : val1 V (Proc.devRef .tc main_v14) = ((broadcastInDim S100000x1 ![0] bcast_S100000_S100000x1_0 : (⟨S100000, .f32⟩ : BufTy).Contents (Elt F) → (⟨S100000x1, .f32⟩ : BufTy).Contents (Elt F)) (degNorm (withSelfLoops (V (Proc.devRef .tc main_arg1))))) := cG_v14 V
theorem val1_main_v17 (V : Valuation τ sig (Elt F)) : val1 V (Proc.devRef .tc main_v17) = ((broadcastInDim S100000x1 ![0] bcast_S100000_S100000x1_0 : (⟨S100000, .f32⟩ : BufTy).Contents (Elt F) → (⟨S100000x1, .f32⟩ : BufTy).Contents (Elt F)) (degNorm (withSelfLoops (V (Proc.devRef .tc main_arg2))))) := cG_v17 V
theorem val1_main_arg0 (V : Valuation τ sig (Elt F)) : val1 V (Proc.devRef .tc main_arg0) = (V (Proc.devRef .tc main_arg0)) := cG_keep V main_arg0 (by decide)
theorem val1_main_arg3 (V : Valuation τ sig (Elt F)) : val1 V (Proc.devRef .tc main_arg3) = (V (Proc.devRef .tc main_arg3)) := cG_keep V main_arg3 (by decide)
theorem val1_main_arg4 (V : Valuation τ sig (Elt F)) : val1 V (Proc.devRef .tc main_arg4) = (V (Proc.devRef .tc main_arg4)) := cG_keep V main_arg4 (by decide)
theorem val1_main_arg5 (V : Valuation τ sig (Elt F)) : val1 V (Proc.devRef .tc main_arg5) = (V (Proc.devRef .tc main_arg5)) := cG_keep V main_arg5 (by decide)
theorem val1_main_arg6 (V : Valuation τ sig (Elt F)) : val1 V (Proc.devRef .tc main_arg6) = (V (Proc.devRef .tc main_arg6)) := cG_keep V main_arg6 (by decide)
theorem val1_main_arg7 (V : Valuation τ sig (Elt F)) : val1 V (Proc.devRef .tc main_arg7) = (V (Proc.devRef .tc main_arg7)) := cG_keep V main_arg7 (by decide)
theorem val1_main_arg8 (V : Valuation τ sig (Elt F)) : val1 V (Proc.devRef .tc main_arg8) = (V (Proc.devRef .tc main_arg8)) := cG_keep V main_arg8 (by decide)

/-! ## After the first layer -/

theorem val2_main_v45 (V : Valuation τ sig (Elt F)) : val2 V (Proc.devRef .tc main_v45) = act1 V := by
  unfold val2 act1
  rw [cL1_v45 (val1 V) _ _ (val1_main_v14 V) (val1_main_v17 V), val1_main_v1, val1_main_v2, val1_main_arg0, val1_main_arg3,
    val1_main_arg4, val1_main_arg5, val1_main_arg6]
theorem val2_main_v1 (V : Valuation τ sig (Elt F)) : val2 V (Proc.devRef .tc main_v1) = (withSelfLoops (V (Proc.devRef .tc main_arg1))) :=
  (cL1_keep (val1 V) main_v1 (by decide)).trans (val1_main_v1 V)
theorem val2_main_v2 (V : Valuation τ sig (Elt F)) : val2 V (Proc.devRef .tc main_v2) = (withSelfLoops (V (Proc.devRef .tc main_arg2))) :=
  (cL1_keep (val1 V) main_v2 (by decide)).trans (val1_main_v2 V)
theorem val2_main_v14 (V : Valuation τ sig (Elt F)) : val2 V (Proc.devRef .tc main_v14) = ((broadcastInDim S100000x1 ![0] bcast_S100000_S100000x1_0 : (⟨S100000, .f32⟩ : BufTy).Contents (Elt F) → (⟨S100000x1, .f32⟩ : BufTy).Contents (Elt F)) (degNorm (withSelfLoops (V (Proc.devRef .tc main_arg1))))) :=
  (cL1_keep (val1 V) main_v14 (by decide)).trans (val1_main_v14 V)
theorem val2_main_v17 (V : Valuation τ sig (Elt F)) : val2 V (Proc.devRef .tc main_v17) = ((broadcastInDim S100000x1 ![0] bcast_S100000_S100000x1_0 : (⟨S100000, .f32⟩ : BufTy).Contents (Elt F) → (⟨S100000x1, .f32⟩ : BufTy).Contents (Elt F)) (degNorm (withSelfLoops (V (Proc.devRef .tc main_arg2))))) :=
  (cL1_keep (val1 V) main_v17 (by decide)).trans (val1_main_v17 V)
theorem val2_main_arg5 (V : Valuation τ sig (Elt F)) : val2 V (Proc.devRef .tc main_arg5) = (V (Proc.devRef .tc main_arg5)) :=
  (cL1_keep (val1 V) main_arg5 (by decide)).trans (val1_main_arg5 V)
theorem val2_main_arg6 (V : Valuation τ sig (Elt F)) : val2 V (Proc.devRef .tc main_arg6) = (V (Proc.devRef .tc main_arg6)) :=
  (cL1_keep (val1 V) main_arg6 (by decide)).trans (val1_main_arg6 V)
theorem val2_main_arg7 (V : Valuation τ sig (Elt F)) : val2 V (Proc.devRef .tc main_arg7) = (V (Proc.devRef .tc main_arg7)) :=
  (cL1_keep (val1 V) main_arg7 (by decide)).trans (val1_main_arg7 V)
theorem val2_main_arg8 (V : Valuation τ sig (Elt F)) : val2 V (Proc.devRef .tc main_arg8) = (V (Proc.devRef .tc main_arg8)) :=
  (cL1_keep (val1 V) main_arg8 (by decide)).trans (val1_main_arg8 V)

/-! ## After the second layer -/

theorem val3_main_v68 (V : Valuation τ sig (Elt F)) : val3 V (Proc.devRef .tc main_v68) = act2 V := by
  unfold val3 act2
  rw [cL2_v68 (val2 V) _ _ (val2_main_v14 V) (val2_main_v17 V), val2_main_v45, val2_main_v1, val2_main_v2, val2_main_arg5,
    val2_main_arg6]
theorem val3_main_v1 (V : Valuation τ sig (Elt F)) : val3 V (Proc.devRef .tc main_v1) = (withSelfLoops (V (Proc.devRef .tc main_arg1))) :=
  ((cL2b_keep (after cL2a (val2 V)) main_v1 (by decide)).trans (cL2a_keep (val2 V) main_v1 (by decide))).trans (val2_main_v1 V)
theorem val3_main_v2 (V : Valuation τ sig (Elt F)) : val3 V (Proc.devRef .tc main_v2) = (withSelfLoops (V (Proc.devRef .tc main_arg2))) :=
  ((cL2b_keep (after cL2a (val2 V)) main_v2 (by decide)).trans (cL2a_keep (val2 V) main_v2 (by decide))).trans (val2_main_v2 V)
theorem val3_main_v14 (V : Valuation τ sig (Elt F)) : val3 V (Proc.devRef .tc main_v14) = ((broadcastInDim S100000x1 ![0] bcast_S100000_S100000x1_0 : (⟨S100000, .f32⟩ : BufTy).Contents (Elt F) → (⟨S100000x1, .f32⟩ : BufTy).Contents (Elt F)) (degNorm (withSelfLoops (V (Proc.devRef .tc main_arg1))))) :=
  ((cL2b_keep (after cL2a (val2 V)) main_v14 (by decide)).trans (cL2a_keep (val2 V) main_v14 (by decide))).trans (val2_main_v14 V)
theorem val3_main_v17 (V : Valuation τ sig (Elt F)) : val3 V (Proc.devRef .tc main_v17) = ((broadcastInDim S100000x1 ![0] bcast_S100000_S100000x1_0 : (⟨S100000, .f32⟩ : BufTy).Contents (Elt F) → (⟨S100000x1, .f32⟩ : BufTy).Contents (Elt F)) (degNorm (withSelfLoops (V (Proc.devRef .tc main_arg2))))) :=
  ((cL2b_keep (after cL2a (val2 V)) main_v17 (by decide)).trans (cL2a_keep (val2 V) main_v17 (by decide))).trans (val2_main_v17 V)
theorem val3_main_arg5 (V : Valuation τ sig (Elt F)) : val3 V (Proc.devRef .tc main_arg5) = (V (Proc.devRef .tc main_arg5)) :=
  ((cL2b_keep (after cL2a (val2 V)) main_arg5 (by decide)).trans (cL2a_keep (val2 V) main_arg5 (by decide))).trans (val2_main_arg5 V)
theorem val3_main_arg6 (V : Valuation τ sig (Elt F)) : val3 V (Proc.devRef .tc main_arg6) = (V (Proc.devRef .tc main_arg6)) :=
  ((cL2b_keep (after cL2a (val2 V)) main_arg6 (by decide)).trans (cL2a_keep (val2 V) main_arg6 (by decide))).trans (val2_main_arg6 V)
theorem val3_main_arg7 (V : Valuation τ sig (Elt F)) : val3 V (Proc.devRef .tc main_arg7) = (V (Proc.devRef .tc main_arg7)) :=
  ((cL2b_keep (after cL2a (val2 V)) main_arg7 (by decide)).trans (cL2a_keep (val2 V) main_arg7 (by decide))).trans (val2_main_arg7 V)
theorem val3_main_arg8 (V : Valuation τ sig (Elt F)) : val3 V (Proc.devRef .tc main_arg8) = (V (Proc.devRef .tc main_arg8)) :=
  ((cL2b_keep (after cL2a (val2 V)) main_arg8 (by decide)).trans (cL2a_keep (val2 V) main_arg8 (by decide))).trans (val2_main_arg8 V)

/-! ## The result -/

/-- The result buffer after the whole line, from any contents `V`: `refOut` of the nine arguments. -/
theorem out_eq (V : Valuation τ sig (Elt F)) :
    after ops V (Proc.devRef .tc main_v94)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops]
  show after cL3 (val3 V) (Proc.devRef .tc main_v94) = _
  rw [cL3_v94 (val3 V) _ _ (val3_main_v14 V) (val3_main_v17 V), val3_main_v68, val3_main_v1, val3_main_v2, val3_main_arg5,
    val3_main_arg6, val3_main_arg7, val3_main_arg8]
  rfl

end Cert.ReferenceIdeal.Hand

end
-- ==== Proof.Ref.Run.lean ====
import proofs.«109159_j7215545057639_1_alg».proof.Proof.Ref.MainEq
import proofs.«109159_j7215545057639_1_alg».proof.Proof.Ref.Out

/-!
# The reference's run

Every weakly fair execution of the reference terminates; at the end the result buffer holds `refOut` of the nine
argument arrays as they were at the start, and the nine argument buffers are unchanged: no operation writes them.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v94)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v94).trans (out_eq (launchContents m c)),
      (h c main_arg0).trans (ops_keep (launchContents m c) main_arg0 (by decide) (by decide) (by decide) (by decide) (by decide)),
      (h c main_arg1).trans (ops_keep (launchContents m c) main_arg1 (by decide) (by decide) (by decide) (by decide) (by decide)),
      (h c main_arg2).trans (ops_keep (launchContents m c) main_arg2 (by decide) (by decide) (by decide) (by decide) (by decide)),
      (h c main_arg3).trans (ops_keep (launchContents m c) main_arg3 (by decide) (by decide) (by decide) (by decide) (by decide)),
      (h c main_arg4).trans (ops_keep (launchContents m c) main_arg4 (by decide) (by decide) (by decide) (by decide) (by decide)),
      (h c main_arg5).trans (ops_keep (launchContents m c) main_arg5 (by decide) (by decide) (by decide) (by decide) (by decide)),
      (h c main_arg6).trans (ops_keep (launchContents m c) main_arg6 (by decide) (by decide) (by decide) (by decide) (by decide)),
      (h c main_arg7).trans (ops_keep (launchContents m c) main_arg7 (by decide) (by decide) (by decide) (by decide) (by decide)),
      (h c main_arg8).trans (ops_keep (launchContents m c) main_arg8 (by decide) (by decide) (by decide) (by decide) (by decide))⟩)
    (run_after m ρ)

end Cert.ReferenceIdeal.Hand

end
-- ==== Proof.Val.Assemble.lean ====
import proofs.«109159_j7215545057639_1_alg».proof.Defs
import proofs.«109159_j7215545057639_1_alg».proof.Proof.K.Run
import proofs.«109159_j7215545057639_1_alg».proof.Proof.KI.Run
import proofs.«109159_j7215545057639_1_alg».proof.Proof.Ref.Run
import proofs.«109159_j7215545057639_1_alg».proof.Proof.Gen.Kernel
import proofs.«109159_j7215545057639_1_alg».proof.Proof.Gen.KernelIdeal
import proofs.«109159_j7215545057639_1_alg».proof.Proof.Gen.ReferenceIdeal
import proofs.«109159_j7215545057639_1_alg».proof.Proof.Gen.Pre_finite_inputs

/-!
# The five conjuncts of the claim from the three programs' runs

Each program's run ends with every argument array as it was at the start: that is its frame. The kernel's
idealization is the kernel's own text read on the extended reals, so there is nothing to preserve. For the
algebraic conjunct the common result is what the idealized kernel's run leaves in its result buffer; the reference's
run leaves `refOut` of its own arguments, which agree with the kernel's, and the two values are equal once the
kernel's result is known to be `refOut` of the kernel's arguments (the hypothesis `hk`).
-/

noncomputable section

namespace Cert.Proof.Parts

open Idealize.ShloMosaic Idealize.SL.Sem

/-- The kernel runs to the end and leaves its nine arguments unchanged. -/
theorem frame_k : @Cert.frame_Kernel Cert.Kernel.Gen.facts Cert.Pre_finite_inputs.Gen.facts :=
  fun m ρ _ => Cert.Kernel.Hand.frame m ρ

/-- The idealized kernel runs to the end and leaves its nine arguments unchanged. -/
theorem frame_ki : @Cert.frame_KernelIdeal Cert.KernelIdeal.Gen.facts Cert.Pre_finite_inputs.Gen.facts :=
  fun m ρ _ => Cert.KernelIdeal.Hand.frame m ρ

/-- The reference runs to the end and leaves its nine arguments unchanged: its run with the result dropped. -/
theorem frame_ri : @Cert.frame_ReferenceIdeal Cert.ReferenceIdeal.Gen.facts Cert.Pre_finite_inputs.Gen.facts :=
  fun m g _ => (θ_run Cert.ReferenceIdeal.defs _ _).mono (fun _ h c => (h c).2)
    (Cert.ReferenceIdeal.Hand.run (F := Ideal) m g)

/-- No operation of the kernel was rewritten for its idealization. -/
theorem preserves : Cert.preserves_Kernel_KernelIdeal := trivial

/-- The two idealized programs end with equal results, given that the kernel's result is `refOut` of its arguments.
    The witness is the kernel's result; the reference's result is `refOut` of the reference's arguments, which are the
    kernel's by the agreement of the two memories. -/
theorem algebraic_of
    (hk : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      (Cert.KernelIdeal.Hand.Wend (F := Ideal) m ρ c (Proc.devRef .tc Cert.KernelIdeal.main_v70) :
          (⟨Cert.ReferenceIdeal.S100000x1, .f32⟩ : BufTy).Contents (Elt Ideal))
        = Cert.ReferenceIdeal.Hand.refOut (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))) :
    @Cert.algebraic_KernelIdeal_ReferenceIdeal Cert.KernelIdeal.Gen.facts Cert.ReferenceIdeal.Gen.facts
      Cert.Pre_finite_inputs.Gen.facts :=
  fun m g m' g' _ hagree =>
    ⟨fun c => Cert.KernelIdeal.Hand.Wend (F := Ideal) m g c (Proc.devRef .tc Cert.KernelIdeal.main_v70),
      (θ_run (Cert.KernelIdeal.defs (F := Ideal)) _ _).mono (fun r h c =>
        ⟨h c _ (Cert.KernelIdeal.Hand.mem_uc Cert.KernelIdeal.main_v70 (by decide)),
         (h c _ (Cert.KernelIdeal.Hand.mem_uc Cert.KernelIdeal.main_arg0 (by decide))).trans (Cert.KernelIdeal.Hand.Wend_main_arg0 m g c),
         (h c _ (Cert.KernelIdeal.Hand.mem_uc Cert.KernelIdeal.main_arg1 (by decide))).trans (Cert.KernelIdeal.Hand.Wend_main_arg1 m g c),
         (h c _ (Cert.KernelIdeal.Hand.mem_uc Cert.KernelIdeal.main_arg2 (by decide))).trans (Cert.KernelIdeal.Hand.Wend_main_arg2 m g c),
         (h c _ (Cert.KernelIdeal.Hand.mem_uc Cert.KernelIdeal.main_arg3 (by decide))).trans (Cert.KernelIdeal.Hand.Wend_main_arg3 m g c),
         (h c _ (Cert.KernelIdeal.Hand.mem_uc Cert.KernelIdeal.main_arg4 (by decide))).trans (Cert.KernelIdeal.Hand.Wend_main_arg4 m g c),
         (h c _ (Cert.KernelIdeal.Hand.mem_uc Cert.KernelIdeal.main_arg5 (by decide))).trans (Cert.KernelIdeal.Hand.Wend_main_arg5 m g c),
         (h c _ (Cert.KernelIdeal.Hand.mem_uc Cert.KernelIdeal.main_arg6 (by decide))).trans (Cert.KernelIdeal.Hand.Wend_main_arg6 m g c),
         (h c _ (Cert.KernelIdeal.Hand.mem_uc Cert.KernelIdeal.main_arg7 (by decide))).trans (Cert.KernelIdeal.Hand.Wend_main_arg7 m g c),
         (h c _ (Cert.KernelIdeal.Hand.mem_uc Cert.KernelIdeal.main_arg8 (by decide))).trans (Cert.KernelIdeal.Hand.Wend_main_arg8 m g c)⟩)
        (Cert.KernelIdeal.Hand.run (F := Ideal) m g),
      (θ_run (Cert.ReferenceIdeal.defs (F := Ideal)) _ _).mono (fun r h c =>
        ⟨(h c).1.trans (by
            obtain ⟨e0, e1, e2, e3, e4, e5, e6, e7, e8⟩ := hagree c
            rw [e0, e1, e2, e3, e4, e5, e6, e7, e8]
            exact (hk m g c).symm),
          (h c).2⟩)
        (Cert.ReferenceIdeal.Hand.run (F := Ideal) m' g')⟩

end Cert.Proof.Parts

end
-- ==== Proof.Val.Spec.lean ====
import Idealize.ShloMosaic.PureOps.Ideal
import Idealize.ShloMosaic.Lib.ValueIdx

/-!
The three dense stages of the graph network, entry by entry, on the extended reals.

Row `r` of a node array is scaled by the out-degree factor `pack (r, 1)` before a 64×64 product and by the in-degree factor
`pack (r, 2)` after an aggregation over the edges; `pack (r, 0)` is the node's input weight.
* `G0`: the input layer and the first product: `∑ₖ ((pack(r,0) · win(0,k) + b(0,k)) · pack(r,1)) · w(k,c)`;
* `Gmid`: bias, leaky rectifier and the next product: `∑ₖ (leaky (agg(r,k) · pack(r,2) + b(0,k)) · pack(r,1)) · w(k,c)`;
* `Gfin`: bias and the 64×1 read-out: `(∑ₖ (agg(r,k) · pack(r,2) + b(0,k)) · w(k,u)) + bp(0,u)`.
-/

noncomputable section

open scoped BigOperators

namespace Cert.Gnn

open Idealize.ShloMosaic Idealize.ShloMosaic.ValueIdx

/-- A rank-2 array of extended reals. -/
abbrev Arr (r c : Nat) : Type := (⟨2, ![r, c]⟩ : Shape).Idx → EReal

/-- The leaky rectifier on one extended real: the value itself where it is at least the zero word, the slope word times
    the value elsewhere (both words kept as their binary values: the same words appear on both sides). -/
def leaky (h : EReal) : EReal :=
  Scalar.select (FloatOps.cmpf (F := Ideal) (φ := .f32) .oge h (Ideal.ofBits .f32 0x00000000#32)) h
    (Ideal.ofBits .f32 0x3C23D70A#32 * h)

/-- The input layer times the out-degree factor, then the first 64×64 product. -/
def G0 (pack : Arr 100000 3) (win b : Arr 1 64) (w : Arr 64 64) : Arr 100000 64 := fun j =>
  ∑ k : Fin 64, ((pack (ix2 (j 0) (0 : Fin 3)) * win (ix2 (0 : Fin 1) k) + b (ix2 (0 : Fin 1) k)) * pack (ix2 (j 0) (1 : Fin 3)))
    * w (ix2 k (j 1))

/-- After an aggregation: the in-degree factor, the bias, the leaky rectifier, the out-degree factor, the next 64×64 product. -/
def Gmid (pack : Arr 100000 3) (agg : Arr 100000 64) (b : Arr 1 64) (w : Arr 64 64) : Arr 100000 64 := fun j =>
  ∑ k : Fin 64, (leaky (agg (ix2 (j 0) k) * pack (ix2 (j 0) (2 : Fin 3)) + b (ix2 (0 : Fin 1) k)) * pack (ix2 (j 0) (1 : Fin 3)))
    * w (ix2 k (j 1))

/-- After the last aggregation: the in-degree factor, the bias, the 64×1 read-out product and its bias. -/
def Gfin (pack : Arr 100000 3) (agg : Arr 100000 64) (b : Arr 1 64) (w : Arr 64 1) (bp : Arr 1 1) : Arr 100000 1 := fun j =>
  (∑ k : Fin 64, (agg (ix2 (j 0) k) * pack (ix2 (j 0) (2 : Fin 3)) + b (ix2 (0 : Fin 1) k)) * w (ix2 k (j 1)))
    + bp (ix2 (0 : Fin 1) (j 1))

end Cert.Gnn

end
-- ==== Proof.Val.HostB.lean ====
import proofs.«109159_j7215545057639_1_alg».proof.Proof.KI.Run
import proofs.«109159_j7215545057639_1_alg».proof.Proof.Ref.Term
import proofs.«109159_j7215545057639_1_alg».proof.Proof.Val.Spec
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

/-!
The stretches of host operations between the regions, read at the buffers the next region stages, from any contents
`V` of the buffers before the stretch: the aggregation over the edges of the previous region's output, the layer's bias
row and weight sliced off the stacks, the read-out bias as a 1×1 array. Then the buffers that travel unchanged from the
first region's entry to the later boundaries.
-/

set_option maxRecDepth 16384

noncomputable section

namespace Cert.KernelIdeal.Val

open Idealize.ShloMosaic Idealize.ShloMosaic.TcCoe Idealize.ShloMosaic.ValueIdx
open Idealize.SL.Sem
open Cert.KernelIdeal Cert.KernelIdeal.Gen Cert.KernelIdeal.Hand

variable [Cert.ReferenceIdeal.Facts]
/-! ## The stretches read at the next region's inputs -/

set_option maxHeartbeats 4000000 in
/-- The stretch before the next region gathers, for every edge, the source node's row of the previous region's output
    and adds it into the destination node's row of a zero array. -/
theorem host1_agg (V : Valuation τ sig (Elt Ideal)) :
    StableHlo.after (hostOps1 (F := Ideal)) V (Proc.devRef .tc main_v34)
      = Cert.ReferenceIdeal.Hand.aggregate (F := Ideal) (V (Proc.devRef .tc main_v23)) (V (Proc.devRef .tc main_v1)) (V (Proc.devRef .tc main_v2)) := by
  dsimp only [hostOps1]
  after_results_simp
  rfl

set_option maxHeartbeats 4000000 in
/-- The stretch before the next region gathers, for every edge, the source node's row of the previous region's output
    and adds it into the destination node's row of a zero array. -/
theorem host2_agg (V : Valuation τ sig (Elt Ideal)) :
    StableHlo.after (hostOps2 (F := Ideal)) V (Proc.devRef .tc main_v50)
      = Cert.ReferenceIdeal.Hand.aggregate (F := Ideal) (V (Proc.devRef .tc main_v40)) (V (Proc.devRef .tc main_v1)) (V (Proc.devRef .tc main_v2)) := by
  dsimp only [hostOps2]
  after_results_simp
  rfl

set_option maxHeartbeats 4000000 in
/-- The stretch before the next region gathers, for every edge, the source node's row of the previous region's output
    and adds it into the destination node's row of a zero array. -/
theorem host3_agg (V : Valuation τ sig (Elt Ideal)) :
    StableHlo.after (hostOps3 (F := Ideal)) V (Proc.devRef .tc main_v66)
      = Cert.ReferenceIdeal.Hand.aggregate (F := Ideal) (V (Proc.devRef .tc main_v56)) (V (Proc.devRef .tc main_v1)) (V (Proc.devRef .tc main_v2)) := by
  dsimp only [hostOps3]
  after_results_simp
  rfl

set_option maxHeartbeats 4000000 in
/-- The layer's bias as a 1×64 row: the slice of the bias stack, read at `(0, k)`. -/
theorem host1_bias (V : Valuation τ sig (Elt Ideal)) (k : Fin 64) :
    (StableHlo.after (hostOps1 (F := Ideal)) V (Proc.devRef .tc main_v37) : Cert.Gnn.Arr 1 64) (ix2 (0 : Fin 1) k)
      = Cert.ReferenceIdeal.Hand.biasAt (F := Ideal) ![0, 0] Cert.ReferenceIdeal.Facts₀.slices_S3x64_S1x64_0_0 (V (Proc.devRef .tc main_arg6)) (ix1 k) := by
  dsimp only [hostOps1]
  after_results_simp
  exact shapeCast_a_1a_apply _ _ (0 : Fin 1) k

set_option maxHeartbeats 4000000 in
/-- The layer's bias as a 1×64 row: the slice of the bias stack, read at `(0, k)`. -/
theorem host2_bias (V : Valuation τ sig (Elt Ideal)) (k : Fin 64) :
    (StableHlo.after (hostOps2 (F := Ideal)) V (Proc.devRef .tc main_v53) : Cert.Gnn.Arr 1 64) (ix2 (0 : Fin 1) k)
      = Cert.ReferenceIdeal.Hand.biasAt (F := Ideal) ![1, 0] Cert.ReferenceIdeal.Facts₀.slices_S3x64_S1x64_1_0 (V (Proc.devRef .tc main_arg6)) (ix1 k) := by
  dsimp only [hostOps2]
  after_results_simp
  exact shapeCast_a_1a_apply _ _ (0 : Fin 1) k

set_option maxHeartbeats 4000000 in
/-- The layer's bias as a 1×64 row: the slice of the bias stack, read at `(0, k)`. -/
theorem host3_bias (V : Valuation τ sig (Elt Ideal)) (k : Fin 64) :
    (StableHlo.after (hostOps3 (F := Ideal)) V (Proc.devRef .tc main_v69) : Cert.Gnn.Arr 1 64) (ix2 (0 : Fin 1) k)
      = Cert.ReferenceIdeal.Hand.biasAt (F := Ideal) ![2, 0] Cert.ReferenceIdeal.Facts₀.slices_S3x64_S1x64_2_0 (V (Proc.devRef .tc main_arg6)) (ix1 k) := by
  dsimp only [hostOps3]
  after_results_simp
  exact shapeCast_a_1a_apply _ _ (0 : Fin 1) k

set_option maxHeartbeats 4000000 in
/-- The layer's 64×64 weight: the slice of the weight stack. -/
theorem host1_weight (V : Valuation τ sig (Elt Ideal)) :
    StableHlo.after (hostOps1 (F := Ideal)) V (Proc.devRef .tc main_v39)
      = Cert.ReferenceIdeal.Hand.weightAt (F := Ideal) ![1, 0, 0] Cert.ReferenceIdeal.Facts₀.slices_S3x64x64_S1x64x64_1_0_0 (V (Proc.devRef .tc main_arg5)) := by
  dsimp only [hostOps1]
  after_results_simp
  rfl

set_option maxHeartbeats 4000000 in
/-- The layer's 64×64 weight: the slice of the weight stack. -/
theorem host2_weight (V : Valuation τ sig (Elt Ideal)) :
    StableHlo.after (hostOps2 (F := Ideal)) V (Proc.devRef .tc main_v55)
      = Cert.ReferenceIdeal.Hand.weightAt (F := Ideal) ![2, 0, 0] Cert.ReferenceIdeal.Facts₀.slices_S3x64x64_S1x64x64_2_0_0 (V (Proc.devRef .tc main_arg5)) := by
  dsimp only [hostOps2]
  after_results_simp
  rfl

set_option maxHeartbeats 4000000 in
/-- The read-out bias as a 1×1 array, read at `(0, u)`. -/
theorem host1_outBias (V : Valuation τ sig (Elt Ideal)) (u : Fin 1) :
    (StableHlo.after (hostOps1 (F := Ideal)) V (Proc.devRef .tc main_v24) : Cert.Gnn.Arr 1 1) (ix2 (0 : Fin 1) u)
      = (V (Proc.devRef .tc main_arg8) : (⟨1, ![1]⟩ : Shape).Idx → EReal) (ix1 u) := by
  dsimp only [hostOps1]
  after_results_simp
  exact shapeCast_a_1a_apply _ _ (0 : Fin 1) u

variable (m : (ℓ : Loc nD τ sig) → Buf (Elt Ideal) ℓ) (ρ : Dev nD → PrngReg) (c : Dev nD)

/-! ## Buffers carried unchanged from one boundary to a later one

No stretch of host operations after the first region's entry writes the packed node array, the two endpoint arrays or
an argument, and a region leaves an array it only reads as it found it. -/

/-- `main_v19` at this boundary is what region 0 was entered with. -/
theorem Win1_pack : Win1 (F := Ideal) m ρ c (Proc.devRef .tc main_v19) = Win0 (F := Ideal) m ρ c (Proc.devRef .tc main_v19) :=
  calc Win1 m ρ c (Proc.devRef .tc main_v19)
    _ = Wexit0 m ρ c (Proc.devRef .tc main_v19) := StableHlo.after_of_writes_sub hostOps1 _ hostOps1_writes (by decide)
    _ = Win0 m ρ c (Proc.devRef .tc main_v19) := Wexit_in0 m ρ c 0 rfl

/-- `main_v19` at this boundary is what region 0 was entered with. -/
theorem Win2_pack : Win2 (F := Ideal) m ρ c (Proc.devRef .tc main_v19) = Win0 (F := Ideal) m ρ c (Proc.devRef .tc main_v19) :=
  calc Win2 m ρ c (Proc.devRef .tc main_v19)
    _ = Wexit1 m ρ c (Proc.devRef .tc main_v19) := StableHlo.after_of_writes_sub hostOps2 _ hostOps2_writes (by decide)
    _ = Win1 m ρ c (Proc.devRef .tc main_v19) := Wexit_in1 m ρ c 0 rfl
    _ = Wexit0 m ρ c (Proc.devRef .tc main_v19) := StableHlo.after_of_writes_sub hostOps1 _ hostOps1_writes (by decide)
    _ = Win0 m ρ c (Proc.devRef .tc main_v19) := Wexit_in0 m ρ c 0 rfl

/-- `main_v19` at this boundary is what region 0 was entered with. -/
theorem Win3_pack : Win3 (F := Ideal) m ρ c (Proc.devRef .tc main_v19) = Win0 (F := Ideal) m ρ c (Proc.devRef .tc main_v19) :=
  calc Win3 m ρ c (Proc.devRef .tc main_v19)
    _ = Wexit2 m ρ c (Proc.devRef .tc main_v19) := StableHlo.after_of_writes_sub hostOps3 _ hostOps3_writes (by decide)
    _ = Win2 m ρ c (Proc.devRef .tc main_v19) := Wexit_in2 m ρ c 0 rfl
    _ = Wexit1 m ρ c (Proc.devRef .tc main_v19) := StableHlo.after_of_writes_sub hostOps2 _ hostOps2_writes (by decide)
    _ = Win1 m ρ c (Proc.devRef .tc main_v19) := Wexit_in1 m ρ c 0 rfl
    _ = Wexit0 m ρ c (Proc.devRef .tc main_v19) := StableHlo.after_of_writes_sub hostOps1 _ hostOps1_writes (by decide)
    _ = Win0 m ρ c (Proc.devRef .tc main_v19) := Wexit_in0 m ρ c 0 rfl

/-- `main_v1` at this boundary is what region 0 was entered with. -/
theorem Wexit0_src : Wexit0 (F := Ideal) m ρ c (Proc.devRef .tc main_v1) = Win0 (F := Ideal) m ρ c (Proc.devRef .tc main_v1) :=
  calc Wexit0 m ρ c (Proc.devRef .tc main_v1)
    _ = Win0 m ρ c (Proc.devRef .tc main_v1) := Wexit_of_ne0 m ρ c main_v1 (by decide)

/-- `main_v1` at this boundary is what region 0 was entered with. -/
theorem Wexit1_src : Wexit1 (F := Ideal) m ρ c (Proc.devRef .tc main_v1) = Win0 (F := Ideal) m ρ c (Proc.devRef .tc main_v1) :=
  calc Wexit1 m ρ c (Proc.devRef .tc main_v1)
    _ = Win1 m ρ c (Proc.devRef .tc main_v1) := Wexit_of_ne1 m ρ c main_v1 (by decide)
    _ = Wexit0 m ρ c (Proc.devRef .tc main_v1) := StableHlo.after_of_writes_sub hostOps1 _ hostOps1_writes (by decide)
    _ = Win0 m ρ c (Proc.devRef .tc main_v1) := Wexit_of_ne0 m ρ c main_v1 (by decide)

/-- `main_v1` at this boundary is what region 0 was entered with. -/
theorem Wexit2_src : Wexit2 (F := Ideal) m ρ c (Proc.devRef .tc main_v1) = Win0 (F := Ideal) m ρ c (Proc.devRef .tc main_v1) :=
  calc Wexit2 m ρ c (Proc.devRef .tc main_v1)
    _ = Win2 m ρ c (Proc.devRef .tc main_v1) := Wexit_of_ne2 m ρ c main_v1 (by decide)
    _ = Wexit1 m ρ c (Proc.devRef .tc main_v1) := StableHlo.after_of_writes_sub hostOps2 _ hostOps2_writes (by decide)
    _ = Win1 m ρ c (Proc.devRef .tc main_v1) := Wexit_of_ne1 m ρ c main_v1 (by decide)
    _ = Wexit0 m ρ c (Proc.devRef .tc main_v1) := StableHlo.after_of_writes_sub hostOps1 _ hostOps1_writes (by decide)
    _ = Win0 m ρ c (Proc.devRef .tc main_v1) := Wexit_of_ne0 m ρ c main_v1 (by decide)

/-- `main_v2` at this boundary is what region 0 was entered with. -/
theorem Wexit0_dst : Wexit0 (F := Ideal) m ρ c (Proc.devRef .tc main_v2) = Win0 (F := Ideal) m ρ c (Proc.devRef .tc main_v2) :=
  calc Wexit0 m ρ c (Proc.devRef .tc main_v2)
    _ = Win0 m ρ c (Proc.devRef .tc main_v2) := Wexit_of_ne0 m ρ c main_v2 (by decide)

/-- `main_v2` at this boundary is what region 0 was entered with. -/
theorem Wexit1_dst : Wexit1 (F := Ideal) m ρ c (Proc.devRef .tc main_v2) = Win0 (F := Ideal) m ρ c (Proc.devRef .tc main_v2) :=
  calc Wexit1 m ρ c (Proc.devRef .tc main_v2)
    _ = Win1 m ρ c (Proc.devRef .tc main_v2) := Wexit_of_ne1 m ρ c main_v2 (by decide)
    _ = Wexit0 m ρ c (Proc.devRef .tc main_v2) := StableHlo.after_of_writes_sub hostOps1 _ hostOps1_writes (by decide)
    _ = Win0 m ρ c (Proc.devRef .tc main_v2) := Wexit_of_ne0 m ρ c main_v2 (by decide)

/-- `main_v2` at this boundary is what region 0 was entered with. -/
theorem Wexit2_dst : Wexit2 (F := Ideal) m ρ c (Proc.devRef .tc main_v2) = Win0 (F := Ideal) m ρ c (Proc.devRef .tc main_v2) :=
  calc Wexit2 m ρ c (Proc.devRef .tc main_v2)
    _ = Win2 m ρ c (Proc.devRef .tc main_v2) := Wexit_of_ne2 m ρ c main_v2 (by decide)
    _ = Wexit1 m ρ c (Proc.devRef .tc main_v2) := StableHlo.after_of_writes_sub hostOps2 _ hostOps2_writes (by decide)
    _ = Win1 m ρ c (Proc.devRef .tc main_v2) := Wexit_of_ne1 m ρ c main_v2 (by decide)
    _ = Wexit0 m ρ c (Proc.devRef .tc main_v2) := StableHlo.after_of_writes_sub hostOps1 _ hostOps1_writes (by decide)
    _ = Win0 m ρ c (Proc.devRef .tc main_v2) := Wexit_of_ne0 m ρ c main_v2 (by decide)

/-- The 1×1 read-out bias array, written before region 1, reaches region 3 unchanged. -/
theorem Win3_outBias : Win3 (F := Ideal) m ρ c (Proc.devRef .tc main_v24) = Win1 (F := Ideal) m ρ c (Proc.devRef .tc main_v24) :=
  calc Win3 m ρ c (Proc.devRef .tc main_v24)
    _ = Wexit2 m ρ c (Proc.devRef .tc main_v24) := StableHlo.after_of_writes_sub hostOps3 _ hostOps3_writes (by decide)
    _ = Win2 m ρ c (Proc.devRef .tc main_v24) := Wexit_of_ne2 m ρ c main_v24 (by decide)
    _ = Wexit1 m ρ c (Proc.devRef .tc main_v24) := StableHlo.after_of_writes_sub hostOps2 _ hostOps2_writes (by decide)
    _ = Win1 m ρ c (Proc.devRef .tc main_v24) := Wexit_of_ne1 m ρ c main_v24 (by decide)

/-- No item before this boundary writes argument 5. -/
theorem Wexit0_arg5 : Wexit0 (F := Ideal) m ρ c (Proc.devRef .tc main_arg5) = m ((c.tc : Thread nD τ).loc main_arg5) :=
  calc Wexit0 m ρ c (Proc.devRef .tc main_arg5)
    _ = Win0 m ρ c (Proc.devRef .tc main_arg5) := Wexit_of_ne0 m ρ c main_arg5 (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c.tc : Thread nD τ).loc main_arg5) := rfl

/-- No item before this boundary writes argument 6. -/
theorem Wexit0_arg6 : Wexit0 (F := Ideal) m ρ c (Proc.devRef .tc main_arg6) = m ((c.tc : Thread nD τ).loc main_arg6) :=
  calc Wexit0 m ρ c (Proc.devRef .tc main_arg6)
    _ = Win0 m ρ c (Proc.devRef .tc main_arg6) := Wexit_of_ne0 m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c.tc : Thread nD τ).loc main_arg6) := rfl

/-- No item before this boundary writes argument 8. -/
theorem Wexit0_arg8 : Wexit0 (F := Ideal) m ρ c (Proc.devRef .tc main_arg8) = m ((c.tc : Thread nD τ).loc main_arg8) :=
  calc Wexit0 m ρ c (Proc.devRef .tc main_arg8)
    _ = Win0 m ρ c (Proc.devRef .tc main_arg8) := Wexit_of_ne0 m ρ c main_arg8 (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c.tc : Thread nD τ).loc main_arg8) := rfl

/-- No item before this boundary writes argument 5. -/
theorem Wexit1_arg5 : Wexit1 (F := Ideal) m ρ c (Proc.devRef .tc main_arg5) = m ((c.tc : Thread nD τ).loc main_arg5) :=
  calc Wexit1 m ρ c (Proc.devRef .tc main_arg5)
    _ = Win1 m ρ c (Proc.devRef .tc main_arg5) := Wexit_of_ne1 m ρ c main_arg5 (by decide)
    _ = Wexit0 m ρ c (Proc.devRef .tc main_arg5) := StableHlo.after_of_writes_sub hostOps1 _ hostOps1_writes (by decide)
    _ = Win0 m ρ c (Proc.devRef .tc main_arg5) := Wexit_of_ne0 m ρ c main_arg5 (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c.tc : Thread nD τ).loc main_arg5) := rfl

/-- No item before this boundary writes argument 6. -/
theorem Wexit1_arg6 : Wexit1 (F := Ideal) m ρ c (Proc.devRef .tc main_arg6) = m ((c.tc : Thread nD τ).loc main_arg6) :=
  calc Wexit1 m ρ c (Proc.devRef .tc main_arg6)
    _ = Win1 m ρ c (Proc.devRef .tc main_arg6) := Wexit_of_ne1 m ρ c main_arg6 (by decide)
    _ = Wexit0 m ρ c (Proc.devRef .tc main_arg6) := StableHlo.after_of_writes_sub hostOps1 _ hostOps1_writes (by decide)
    _ = Win0 m ρ c (Proc.devRef .tc main_arg6) := Wexit_of_ne0 m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c.tc : Thread nD τ).loc main_arg6) := rfl

/-- No item before this boundary writes argument 6. -/
theorem Wexit2_arg6 : Wexit2 (F := Ideal) m ρ c (Proc.devRef .tc main_arg6) = m ((c.tc : Thread nD τ).loc main_arg6) :=
  calc Wexit2 m ρ c (Proc.devRef .tc main_arg6)
    _ = Win2 m ρ c (Proc.devRef .tc main_arg6) := Wexit_of_ne2 m ρ c main_arg6 (by decide)
    _ = Wexit1 m ρ c (Proc.devRef .tc main_arg6) := StableHlo.after_of_writes_sub hostOps2 _ hostOps2_writes (by decide)
    _ = Win1 m ρ c (Proc.devRef .tc main_arg6) := Wexit_of_ne1 m ρ c main_arg6 (by decide)
    _ = Wexit0 m ρ c (Proc.devRef .tc main_arg6) := StableHlo.after_of_writes_sub hostOps1 _ hostOps1_writes (by decide)
    _ = Win0 m ρ c (Proc.devRef .tc main_arg6) := Wexit_of_ne0 m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c.tc : Thread nD τ).loc main_arg6) := rfl

/-- No item before this boundary writes argument 7. -/
theorem Win3_arg7 : Win3 (F := Ideal) m ρ c (Proc.devRef .tc main_arg7) = m ((c.tc : Thread nD τ).loc main_arg7) :=
  calc Win3 m ρ c (Proc.devRef .tc main_arg7)
    _ = Wexit2 m ρ c (Proc.devRef .tc main_arg7) := StableHlo.after_of_writes_sub hostOps3 _ hostOps3_writes (by decide)
    _ = Win2 m ρ c (Proc.devRef .tc main_arg7) := Wexit_of_ne2 m ρ c main_arg7 (by decide)
    _ = Wexit1 m ρ c (Proc.devRef .tc main_arg7) := StableHlo.after_of_writes_sub hostOps2 _ hostOps2_writes (by decide)
    _ = Win1 m ρ c (Proc.devRef .tc main_arg7) := Wexit_of_ne1 m ρ c main_arg7 (by decide)
    _ = Wexit0 m ρ c (Proc.devRef .tc main_arg7) := StableHlo.after_of_writes_sub hostOps1 _ hostOps1_writes (by decide)
    _ = Win0 m ρ c (Proc.devRef .tc main_arg7) := Wexit_of_ne0 m ρ c main_arg7 (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c.tc : Thread nD τ).loc main_arg7) := rfl

end Cert.KernelIdeal.Val

end
-- ==== Proof.Val.PackRead.lean ====
import proofs.«109159_j7215545057639_1_alg».proof.KernelIdeal
import Idealize.ShloMosaic.Lib.Pipeline.Value
import Idealize.ShloMosaic.Lib.ValueIdx

/-!
# Three node vectors packed side by side, read at an entry

Three vectors over the 100000 nodes, each made a 100000×1 column, are concatenated along the second axis into a
100000×3 array. Entry `(r, k)` of the packed array is entry `r` of the `k`-th vector: column `k` lies in the
`k`-th piece (the pieces before it have total width `k`, each piece has width one), at the piece's entry `(r, 0)`,
and a vector made a column reads at `(r, 0)` as the vector at `r`.
-/

noncomputable section

namespace Cert.KernelIdeal.Val

open Idealize.ShloMosaic Idealize.ShloMosaic.ValueIdx Cert.KernelIdeal

variable {α : Type}

/-- A vector made a one-column array, read at `(r, 0)`: the vector at `r`. -/
theorem col_apply (hb : S100000.BroadcastsInDim S100000x1 ![0]) (x : (⟨1, ![100000]⟩ : Shape).Idx → α) (r : Fin 100000) :
    broadcastInDim S100000x1 ![0] hb x (ix2 r (0 : Fin 1)) = x (ix1 r) :=
  broadcastInDim_apply ![0] hb x (ix2 r (0 : Fin 1)) (ix1 r) fun a => by
    match a with
    | ⟨0, _⟩ => exact (if_neg (by decide : ¬ (100000 : Nat) = 1)).symm

/-- Column 0 of the packed array is the first vector. -/
theorem pack_col0 (hb : S100000.BroadcastsInDim S100000x1 ![0])
    (hc : Shape.Concatenates [S100000x1, S100000x1, S100000x1] S100000x3 1)
    (x0 x1 x2 : (⟨1, ![100000]⟩ : Shape).Idx → α) (r : Fin 100000) :
    concatenate S100000x3 1 [⟨S100000x1, broadcastInDim S100000x1 ![0] hb x0⟩, ⟨S100000x1, broadcastInDim S100000x1 ![0] hb x1⟩,
        ⟨S100000x1, broadcastInDim S100000x1 ![0] hb x2⟩] hc (ix2 r (0 : Fin 3)) = x0 (ix1 r) :=
  (concatenate_apply_piece (t := S100000x3) 1
    [⟨S100000x1, broadcastInDim S100000x1 ![0] hb x0⟩, ⟨S100000x1, broadcastInDim S100000x1 ![0] hb x1⟩,
      ⟨S100000x1, broadcastInDim S100000x1 ![0] hb x2⟩]
    hc (ix2 r (0 : Fin 3)) 0 (by decide : (0 : Nat) < 3) S100000x1 _ rfl rfl 0 rfl
    (ix2 r (0 : Fin 1))
    (fun b hne => by
      match b with
      | ⟨0, _⟩ => rfl
      | ⟨1, _⟩ => exact absurd rfl hne)
    rfl).trans (col_apply hb x0 r)

/-- Column 1 of the packed array is the second vector. -/
theorem pack_col1 (hb : S100000.BroadcastsInDim S100000x1 ![0])
    (hc : Shape.Concatenates [S100000x1, S100000x1, S100000x1] S100000x3 1)
    (x0 x1 x2 : (⟨1, ![100000]⟩ : Shape).Idx → α) (r : Fin 100000) :
    concatenate S100000x3 1 [⟨S100000x1, broadcastInDim S100000x1 ![0] hb x0⟩, ⟨S100000x1, broadcastInDim S100000x1 ![0] hb x1⟩,
        ⟨S100000x1, broadcastInDim S100000x1 ![0] hb x2⟩] hc (ix2 r (1 : Fin 3)) = x1 (ix1 r) :=
  (concatenate_apply_piece (t := S100000x3) 1
    [⟨S100000x1, broadcastInDim S100000x1 ![0] hb x0⟩, ⟨S100000x1, broadcastInDim S100000x1 ![0] hb x1⟩,
      ⟨S100000x1, broadcastInDim S100000x1 ![0] hb x2⟩]
    hc (ix2 r (1 : Fin 3)) 1 (by decide : (1 : Nat) < 3) S100000x1 _ rfl rfl 1 rfl
    (ix2 r (0 : Fin 1))
    (fun b hne => by
      match b with
      | ⟨0, _⟩ => rfl
      | ⟨1, _⟩ => exact absurd rfl hne)
    rfl).trans (col_apply hb x1 r)

/-- Column 2 of the packed array is the third vector. -/
theorem pack_col2 (hb : S100000.BroadcastsInDim S100000x1 ![0])
    (hc : Shape.Concatenates [S100000x1, S100000x1, S100000x1] S100000x3 1)
    (x0 x1 x2 : (⟨1, ![100000]⟩ : Shape).Idx → α) (r : Fin 100000) :
    concatenate S100000x3 1 [⟨S100000x1, broadcastInDim S100000x1 ![0] hb x0⟩, ⟨S100000x1, broadcastInDim S100000x1 ![0] hb x1⟩,
        ⟨S100000x1, broadcastInDim S100000x1 ![0] hb x2⟩] hc (ix2 r (2 : Fin 3)) = x2 (ix1 r) :=
  (concatenate_apply_piece (t := S100000x3) 1
    [⟨S100000x1, broadcastInDim S100000x1 ![0] hb x0⟩, ⟨S100000x1, broadcastInDim S100000x1 ![0] hb x1⟩,
      ⟨S100000x1, broadcastInDim S100000x1 ![0] hb x2⟩]
    hc (ix2 r (2 : Fin 3)) 2 (by decide : (2 : Nat) < 3) S100000x1 _ rfl rfl 2 rfl
    (ix2 r (0 : Fin 1))
    (fun b hne => by
      match b with
      | ⟨0, _⟩ => rfl
      | ⟨1, _⟩ => exact absurd rfl hne)
    rfl).trans (col_apply hb x2 r)

end Cert.KernelIdeal.Val

end
-- ==== Proof.Val.HostA.lean ====
import proofs.«109159_j7215545057639_1_alg».proof.Proof.KI.Run
import proofs.«109159_j7215545057639_1_alg».proof.Proof.Ref.Term
import proofs.«109159_j7215545057639_1_alg».proof.Proof.Val.Spec
import proofs.«109159_j7215545057639_1_alg».proof.Proof.Val.PackRead
import Idealize.ShloMosaic.Lib.StableHlo.Run
import Idealize.ShloMosaic.Lib.ValueLayout
import Idealize.ShloMosaic.Lib.Pipeline.Value

/-!
What the first region finds in its operands: the host operations before it, read back as functions of the arguments.
The edge endpoint arrays get one self loop per node; a node's degree factor is its clipped endpoint count to the power -1/2;
the node weights and the two degree factors are packed as the three columns of one array; the input bias becomes a row and the
first weight matrix is cut out of the weight stack.
-/

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Hand Cert.Gnn
open Cert.ReferenceIdeal.Hand (withSelfLoops degree clipBelowOne degNorm weightAt)

variable [Cert.ReferenceIdeal.Facts]

/-! ## Each stretch, from any contents `W` -/

section Stretches

variable (W : Valuation τ sig (Elt Ideal))

set_option maxHeartbeats 4000000 in
theorem s0_v1 : StableHlo.after hostOps0 W (Proc.devRef .tc main_v1) = withSelfLoops (F := Ideal) (W (Proc.devRef .tc main_arg1)) := by
  dsimp only [hostOps0]; after_results; all_goals rfl

set_option maxHeartbeats 4000000 in
theorem s0_v2 : StableHlo.after hostOps0 W (Proc.devRef .tc main_v2) = withSelfLoops (F := Ideal) (W (Proc.devRef .tc main_arg2)) := by
  dsimp only [hostOps0]; after_results; all_goals rfl

set_option maxHeartbeats 4000000 in
theorem s0_v6 : StableHlo.after hostOps0 W (Proc.devRef .tc main_v6) = degree (F := Ideal) (withSelfLoops (F := Ideal) (W (Proc.devRef .tc main_arg1))) := by
  dsimp only [hostOps0]; after_results; all_goals rfl

set_option maxHeartbeats 4000000 in
theorem s0_v3 : StableHlo.after hostOps0 W (Proc.devRef .tc main_v3)
    = broadcastInDim S3300000 ![] bcast_S_S3300000 (constant (F := Ideal) S_ .f32 0x3F800000#32) := by
  dsimp only [hostOps0]; after_results; all_goals rfl

set_option maxHeartbeats 4000000 in
theorem s0_cst1 : StableHlo.after hostOps0 W (Proc.devRef .tc main_cst_1) = constant (F := Ideal) S_ .f32 0x3F800000#32 := by
  dsimp only [hostOps0]; after_results; all_goals rfl

set_option maxHeartbeats 4000000 in
theorem s1_v7 : StableHlo.after hostOps0_1 W (Proc.devRef .tc main_v7)
    = (maximumf (F := Ideal) (s := S100000) (φ := .f32) (broadcastInDim S100000 ![] bcast_S_S100000 (id (W (Proc.devRef .tc main_cst_1)))) (W (Proc.devRef .tc main_v6)) : (⟨S100000, .f32⟩ : BufTy).Contents (Elt Ideal)) := by
  dsimp only [hostOps0_1]; after_results; all_goals rfl

set_option maxHeartbeats 4000000 in
theorem s2_v10 : StableHlo.after hostOps0_2 W (Proc.devRef .tc main_v10)
    = Host.scatterAdd scatter_S100000_S3300000x1_S3300000_n_0_0_1
        (broadcastInDim S100000 ![] bcast_S_S100000 (constant (F := Ideal) S_ .f32 0x00000000#32))
        (broadcastInDim S3300000x1 ![0] bcast_S3300000_S3300000x1_0 (W (Proc.devRef .tc main_v2)))
        (W (Proc.devRef .tc main_v3)) := by
  dsimp only [hostOps0_2]; after_results; all_goals rfl

set_option maxHeartbeats 4000000 in
theorem s2_cst3 : StableHlo.after hostOps0_2 W (Proc.devRef .tc main_cst_3) = constant (F := Ideal) S_ .f32 0x3F800000#32 := by
  dsimp only [hostOps0_2]; after_results; all_goals rfl

set_option maxHeartbeats 4000000 in
theorem s3_v11 : StableHlo.after hostOps0_3 W (Proc.devRef .tc main_v11)
    = (maximumf (F := Ideal) (s := S100000) (φ := .f32) (broadcastInDim S100000 ![] bcast_S_S100000 (id (W (Proc.devRef .tc main_cst_3)))) (W (Proc.devRef .tc main_v10)) : (⟨S100000, .f32⟩ : BufTy).Contents (Elt Ideal)) := by
  dsimp only [hostOps0_3]; after_results; all_goals rfl

/-- Three per-node columns side by side. -/
def pack3 (y0 y1 y2 : (⟨S100000x1, .f32⟩ : BufTy).Contents (Elt Ideal)) : (⟨S100000x3, .f32⟩ : BufTy).Contents (Elt Ideal) :=
  concatenate S100000x3 1 [⟨S100000x1, y0⟩, ⟨S100000x1, y1⟩, ⟨S100000x1, y2⟩] concatenates_S100000x1_S100000x1_S100000x1_S100000x3_d1

set_option maxHeartbeats 4000000 in
theorem s4_v19 : StableHlo.after hostOps0_4 W (Proc.devRef .tc main_v19)
    = pack3 (broadcastInDim S100000x1 ![0] bcast_S100000_S100000x1_0 (W (Proc.devRef .tc main_arg0)))
        (broadcastInDim S100000x1 ![0] bcast_S100000_S100000x1_0 (Host.powf (W (Proc.devRef .tc main_v7))
          (broadcastInDim S100000 ![] bcast_S_S100000 (constant (F := Ideal) S_ .f32 0xBF000000#32))))
        (broadcastInDim S100000x1 ![0] bcast_S100000_S100000x1_0 (Host.powf (W (Proc.devRef .tc main_v11))
          (broadcastInDim S100000 ![] bcast_S_S100000 (constant (F := Ideal) S_ .f32 0xBF000000#32)))) := by
  dsimp only [hostOps0_4]; after_results; all_goals rfl

set_option maxHeartbeats 4000000 in
theorem s4_v20 : StableHlo.after hostOps0_4 W (Proc.devRef .tc main_v20)
    = shapeCast S1x64 (W (Proc.devRef .tc main_arg4)) shapeCasts_S64_S1x64 := by
  dsimp only [hostOps0_4]; after_results; all_goals rfl

set_option maxHeartbeats 4000000 in
theorem s4_v22 : StableHlo.after hostOps0_4 W (Proc.devRef .tc main_v22)
    = weightAt (F := Ideal) ![0, 0, 0] Cert.ReferenceIdeal.Facts₀.slices_S3x64x64_S1x64x64_0_0_0 (W (Proc.devRef .tc main_arg5)) := by
  dsimp only [hostOps0_4]; after_results; all_goals rfl

end Stretches

/-! ## The first region's operands -/

variable (m : (ℓ : Loc nD τ sig) → Buf (Elt Ideal) ℓ) (ρ : Dev nD → PrngReg) (c : Dev nD)

/-- A reference none of the five stretches writes holds its launch contents. -/
theorem Win0_keep (b : Ref sig .tc) (h0 : b ∉ hostOps0_W) (h1 : b ∉ hostOps0_1_W) (h2 : b ∉ hostOps0_2_W) (h3 : b ∉ hostOps0_3_W)
    (h4 : b ∉ hostOps0_4_W) : Win0 m ρ c (Proc.devRef .tc b) = m ((c.tc : Thread nD τ).loc b) :=
  (StableHlo.after_of_writes_sub hostOps0_4 _ hostOps0_4_writes h4).trans <|
    (StableHlo.after_of_writes_sub hostOps0_3 _ hostOps0_3_writes h3).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

theorem Win0_arg3 : Win0 m ρ c (Proc.devRef .tc main_arg3) = m ((c.tc : Thread nD τ).loc main_arg3) :=
  Win0_keep m ρ c main_arg3 (by decide) (by decide) (by decide) (by decide) (by decide)

theorem Win0_v1 : Win0 m ρ c (Proc.devRef .tc main_v1) = withSelfLoops (F := Ideal) (m ((c.tc : Thread nD τ).loc main_arg1)) :=
  (StableHlo.after_of_writes_sub hostOps0_4 _ hostOps0_4_writes (by decide)).trans <|
    (StableHlo.after_of_writes_sub hostOps0_3 _ hostOps0_3_writes (by decide)).trans <|
    (StableHlo.after_of_writes_sub hostOps0_2 _ hostOps0_2_writes (by decide)).trans <|
    (StableHlo.after_of_writes_sub hostOps0_1 _ hostOps0_1_writes (by decide)).trans <| s0_v1 (W0 m ρ c)

theorem Win0_v2 : Win0 m ρ c (Proc.devRef .tc main_v2) = withSelfLoops (F := Ideal) (m ((c.tc : Thread nD τ).loc main_arg2)) :=
  (StableHlo.after_of_writes_sub hostOps0_4 _ hostOps0_4_writes (by decide)).trans <|
    (StableHlo.after_of_writes_sub hostOps0_3 _ hostOps0_3_writes (by decide)).trans <|
    (StableHlo.after_of_writes_sub hostOps0_2 _ hostOps0_2_writes (by decide)).trans <|
    (StableHlo.after_of_writes_sub hostOps0_1 _ hostOps0_1_writes (by decide)).trans <| s0_v2 (W0 m ρ c)

/-- The clipped out-degree count when the last stretch starts. -/
theorem W4_v7 : W4 m ρ c (Proc.devRef .tc main_v7)
    = clipBelowOne (F := Ideal) (degree (F := Ideal) (withSelfLoops (F := Ideal) (m ((c.tc : Thread nD τ).loc main_arg1)))) := by
  refine (StableHlo.after_of_writes_sub hostOps0_3 _ hostOps0_3_writes (by decide)).trans ?_
  refine (StableHlo.after_of_writes_sub hostOps0_2 _ hostOps0_2_writes (by decide)).trans ?_
  refine (s1_v7 (W1 m ρ c)).trans ?_
  rw [show W1 m ρ c (Proc.devRef .tc main_cst_1) = _ from s0_cst1 (W0 m ρ c), show W1 m ρ c (Proc.devRef .tc main_v6) = _ from s0_v6 (W0 m ρ c)]
  rfl

/-- The clipped in-degree count when the last stretch starts. -/
theorem W4_v11 : W4 m ρ c (Proc.devRef .tc main_v11)
    = clipBelowOne (F := Ideal) (degree (F := Ideal) (withSelfLoops (F := Ideal) (m ((c.tc : Thread nD τ).loc main_arg2)))) := by
  refine (s3_v11 (W3 m ρ c)).trans ?_
  rw [show W3 m ρ c (Proc.devRef .tc main_cst_3) = _ from s2_cst3 (W2 m ρ c), show W3 m ρ c (Proc.devRef .tc main_v10) = _ from s2_v10 (W2 m ρ c)]
  have e2 : W2 m ρ c (Proc.devRef .tc main_v2) = withSelfLoops (F := Ideal) (m ((c.tc : Thread nD τ).loc main_arg2)) :=
    (StableHlo.after_of_writes_sub hostOps0_1 _ hostOps0_1_writes (by decide)).trans (s0_v2 (W0 m ρ c))
  have e3 : W2 m ρ c (Proc.devRef .tc main_v3) = _ :=
    (StableHlo.after_of_writes_sub hostOps0_1 _ hostOps0_1_writes (by decide)).trans (s0_v3 (W0 m ρ c))
  rw [e2, e3]
  rfl

/-- A reference none of the first four stretches writes holds its launch contents when the last one starts. -/
theorem W4_keep (b : Ref sig .tc) (h0 : b ∉ hostOps0_W) (h1 : b ∉ hostOps0_1_W) (h2 : b ∉ hostOps0_2_W) (h3 : b ∉ hostOps0_3_W) :
    W4 m ρ c (Proc.devRef .tc b) = m ((c.tc : Thread nD τ).loc b) :=
  (StableHlo.after_of_writes_sub hostOps0_3 _ hostOps0_3_writes h3).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

theorem W4_arg0 : W4 m ρ c (Proc.devRef .tc main_arg0) = m ((c.tc : Thread nD τ).loc main_arg0) :=
  W4_keep m ρ c main_arg0 (by decide) (by decide) (by decide) (by decide)

/-- The packed array: node weights, out-degree factors, in-degree factors. -/
theorem Win0_v19 : Win0 m ρ c (Proc.devRef .tc main_v19)
    = pack3 (broadcastInDim S100000x1 ![0] bcast_S100000_S100000x1_0 (m ((c.tc : Thread nD τ).loc main_arg0)))
        (broadcastInDim S100000x1 ![0] bcast_S100000_S100000x1_0 (degNorm (F := Ideal) (withSelfLoops (F := Ideal) (m ((c.tc : Thread nD τ).loc main_arg1)))))
        (broadcastInDim S100000x1 ![0] bcast_S100000_S100000x1_0 (degNorm (F := Ideal) (withSelfLoops (F := Ideal) (m ((c.tc : Thread nD τ).loc main_arg2))))) := by
  refine (s4_v19 (W4 m ρ c)).trans ?_
  rw [W4_v7, W4_v11, W4_arg0]
  rfl

theorem Win0_pack0 (r : Fin 100000) :
    (Win0 m ρ c (Proc.devRef .tc main_v19) : Arr 100000 3) (ix2 r (0 : Fin 3)) = m ((c.tc : Thread nD τ).loc main_arg0) (ix1 r) := by
  rw [Win0_v19]; exact pack_col0 _ _ _ _ _ r

theorem Win0_pack1 (r : Fin 100000) :
    (Win0 m ρ c (Proc.devRef .tc main_v19) : Arr 100000 3) (ix2 r (1 : Fin 3))
      = degNorm (F := Ideal) (withSelfLoops (F := Ideal) (m ((c.tc : Thread nD τ).loc main_arg1))) (ix1 r) := by
  rw [Win0_v19]; exact pack_col1 _ _ _ _ _ r

theorem Win0_pack2 (r : Fin 100000) :
    (Win0 m ρ c (Proc.devRef .tc main_v19) : Arr 100000 3) (ix2 r (2 : Fin 3))
      = degNorm (F := Ideal) (withSelfLoops (F := Ideal) (m ((c.tc : Thread nD τ).loc main_arg2))) (ix1 r) := by
  rw [Win0_v19]; exact pack_col2 _ _ _ _ _ r

theorem Win0_v20 (k : Fin 64) :
    (Win0 m ρ c (Proc.devRef .tc main_v20) : Arr 1 64) (ix2 (0 : Fin 1) k) = m ((c.tc : Thread nD τ).loc main_arg4) (ix1 k) := by
  rw [show Win0 m ρ c (Proc.devRef .tc main_v20) = _ from s4_v20 (W4 m ρ c)]
  refine (shapeCast_a_1a_apply _ _ (0 : Fin 1) k).trans ?_
  rw [W4_keep m ρ c main_arg4 (by decide) (by decide) (by decide) (by decide)]

theorem Win0_v22 : Win0 m ρ c (Proc.devRef .tc main_v22)
    = weightAt (F := Ideal) ![0, 0, 0] Cert.ReferenceIdeal.Facts₀.slices_S3x64x64_S1x64x64_0_0_0 (m ((c.tc : Thread nD τ).loc main_arg5)) := by
  refine (s4_v22 (W4 m ρ c)).trans ?_
  rw [W4_keep m ρ c main_arg5 (by decide) (by decide) (by decide) (by decide)]

end Cert.KernelIdeal.Val

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.Val.Pay.lean ====
import proofs.«109159_j7215545057639_1_alg».proof.Proof.Gen.KernelIdeal.Skeleton
import proofs.«109159_j7215545057639_1_alg».proof.Proof.LibPlainDot
import proofs.«109159_j7215545057639_1_alg».proof.Proof.LibKeepdims
import proofs.«109159_j7215545057639_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Idealize.ShloMosaic Idealize.ShloMosaic.ValueIdx Cert.KernelIdeal Cert.Gnn

/-- Column `o` of a packed `[4000, 3]` block, kept as a column, then spread over 64 lanes: at `(p, k)` it is the
    block's entry `(p, o)`. -/
theorem packCol_apply (x0 : Vec Ideal S4000x3 .f32) (o : Nat) (oo : Fin 3) (ho : oo.val = o) (h : S4000x3.Slices ![0, o] S4000x1)
    (hb : S4000x1.Broadcasts S4000x64) (p : Fin 4000) (k : Fin 64) :
    broadcastTo S4000x64 (extractStridedSlice S4000x1 ![0, o] x0 h) hb (ix2 p k) = x0 (ix2 p oo) := by
  rw [broadcastTo_a1_ab_apply]
  exact slice2_axis1_apply o x0 h p (0 : Fin 1) oo (by simp [ho])

set_option maxHeartbeats 1000000 in
/-- Region 0's stored block at `(p, q)`: the affine input row times the out-degree factor, against column `q` of the weights. -/
theorem pay0_apply (x0 : Vec Ideal S4000x3 .f32) (x1 x2 : Vec Ideal S1x64 .f32) (x3 : Vec Ideal S64x64 .f32)
    (p : Fin 4000) (q : Fin 64) :
    Gen.k0_pay1 (F := Ideal) x0 x1 x2 x3 (ix2 p q)
      = ∑ k : Fin 64, ((x0 (ix2 p (0 : Fin 3)) * x1 (ix2 (0 : Fin 1) k) + x2 (ix2 (0 : Fin 1) k)) * x0 (ix2 p (1 : Fin 3)))
          * x3 (ix2 k q) := by
  unfold Gen.k0_pay1
  refine (PlainDot.matmul_zero_apply _ rfl none _ _ (ix2 p q)).trans ?_
  refine Finset.sum_congr rfl fun k _ => ?_
  show truncf (F := Ideal) .bf16 _ _ (ix2 p k) * truncf (F := Ideal) .bf16 _ _ (ix2 k q) = _
  simp only [shapeCast_self]
  rw [truncf_apply, truncf_apply, mulf_apply, addf_apply, mulf_apply, broadcastTo_1b_ab_apply,
    broadcastTo_1b_ab_apply,
    packCol_apply x0 0 (0 : Fin 3) rfl Gen.slices_S4000x3_o0_0_S4000x1 Gen.broadcasts_S4000x1_S4000x64 p k,
    packCol_apply x0 1 (1 : Fin 3) rfl Gen.slices_S4000x3_o0_1_S4000x1 Gen.broadcasts_S4000x1_S4000x64 p k]

set_option maxHeartbeats 1000000 in
/-- A middle region's stored block at `(p, q)`: the aggregated row scaled by the in-degree factor plus the bias, through the
    leaky rectifier, times the out-degree factor, against column `q` of the weights. -/
theorem payMid1_apply (x0 : Vec Ideal S4000x3 .f32) (x1 : Vec Ideal S4000x64 .f32) (x2 : Vec Ideal S1x64 .f32) (x3 : Vec Ideal S64x64 .f32)
    (p : Fin 4000) (q : Fin 64) :
    Gen.k1_pay1 (F := Ideal) x0 x1 x2 x3 (ix2 p q)
      = ∑ k : Fin 64, (leaky (x1 (ix2 p k) * x0 (ix2 p (2 : Fin 3)) + x2 (ix2 (0 : Fin 1) k)) * x0 (ix2 p (1 : Fin 3)))
          * x3 (ix2 k q) := by
  unfold Gen.k1_pay1
  refine (PlainDot.matmul_zero_apply _ rfl none _ _ (ix2 p q)).trans ?_
  refine Finset.sum_congr rfl fun k _ => ?_
  show truncf (F := Ideal) .bf16 _ _ (ix2 p k) * truncf (F := Ideal) .bf16 _ _ (ix2 k q) = _
  simp only [shapeCast_self]
  rw [truncf_apply, truncf_apply, mulf_apply, select_apply, cmpf_apply, mulf_apply, addf_apply, mulf_apply, broadcast_apply, broadcast_apply,
    broadcastTo_1b_ab_apply,
    packCol_apply x0 2 (2 : Fin 3) rfl Gen.slices_S4000x3_o0_2_S4000x1 Gen.broadcasts_S4000x1_S4000x64 p k,
    packCol_apply x0 1 (1 : Fin 3) rfl Gen.slices_S4000x3_o0_1_S4000x1 Gen.broadcasts_S4000x1_S4000x64 p k]
  rfl

set_option maxHeartbeats 1000000 in
/-- The second middle region's stored block (the same body) at `(p, q)`: the aggregated row scaled by the in-degree factor plus the bias, through the
    leaky rectifier, times the out-degree factor, against column `q` of the weights. -/
theorem payMid2_apply (x0 : Vec Ideal S4000x3 .f32) (x1 : Vec Ideal S4000x64 .f32) (x2 : Vec Ideal S1x64 .f32) (x3 : Vec Ideal S64x64 .f32)
    (p : Fin 4000) (q : Fin 64) :
    Gen.k2_pay1 (F := Ideal) x0 x1 x2 x3 (ix2 p q)
      = ∑ k : Fin 64, (leaky (x1 (ix2 p k) * x0 (ix2 p (2 : Fin 3)) + x2 (ix2 (0 : Fin 1) k)) * x0 (ix2 p (1 : Fin 3)))
          * x3 (ix2 k q) := by
  unfold Gen.k2_pay1
  refine (PlainDot.matmul_zero_apply _ rfl none _ _ (ix2 p q)).trans ?_
  refine Finset.sum_congr rfl fun k _ => ?_
  show truncf (F := Ideal) .bf16 _ _ (ix2 p k) * truncf (F := Ideal) .bf16 _ _ (ix2 k q) = _
  simp only [shapeCast_self]
  rw [truncf_apply, truncf_apply, mulf_apply, select_apply, cmpf_apply, mulf_apply, addf_apply, mulf_apply, broadcast_apply, broadcast_apply,
    broadcastTo_1b_ab_apply,
    packCol_apply x0 2 (2 : Fin 3) rfl Gen.slices_S4000x3_o0_2_S4000x1 Gen.broadcasts_S4000x1_S4000x64 p k,
    packCol_apply x0 1 (1 : Fin 3) rfl Gen.slices_S4000x3_o0_1_S4000x1 Gen.broadcasts_S4000x1_S4000x64 p k]
  rfl

set_option maxHeartbeats 1000000 in
/-- The last region's stored block at `(p, u)`: the aggregated row scaled by the in-degree factor plus the bias, against the one
    column of the read-out weights, plus the read-out bias. -/
theorem payFin_apply (x0 : Vec Ideal S4000x3 .f32) (x1 : Vec Ideal S4000x64 .f32) (x2 : Vec Ideal S1x64 .f32) (x3 : Vec Ideal S64x1 .f32)
    (x4 : Vec Ideal S1x1 .f32) (p : Fin 4000) (u : Fin 1) :
    Gen.k3_pay1 (F := Ideal) x0 x1 x2 x3 x4 (ix2 p u)
      = (∑ k : Fin 64, (x1 (ix2 p k) * x0 (ix2 p (2 : Fin 3)) + x2 (ix2 (0 : Fin 1) k)) * x3 (ix2 k u)) + x4 (ix2 (0 : Fin 1) u) := by
  unfold Gen.k3_pay1
  rw [addf_apply]
  refine congrArg₂ (· + ·) ((PlainDot.matmul_zero_apply _ rfl none _ _ (ix2 p u)).trans ?_) ?_
  · refine Finset.sum_congr rfl fun k _ => ?_
    show truncf (F := Ideal) .bf16 _ _ (ix2 p k) * truncf (F := Ideal) .bf16 _ _ (ix2 k u) = _
    simp only [shapeCast_self]
    rw [truncf_apply, truncf_apply, addf_apply, mulf_apply, broadcastTo_1b_ab_apply,
      packCol_apply x0 2 (2 : Fin 3) rfl Gen.slices_S4000x3_o0_2_S4000x1 Gen.broadcasts_S4000x1_S4000x64 p k]
  · simp only [shapeCast_self]
    exact broadcastTo_1b_ab_apply x4 _ p u

end Cert.KernelIdeal.Val

end
-- ==== Proof.Val.Final0.lean ====
import proofs.«109159_j7215545057639_1_alg».proof.Proof.KI.Region0
import proofs.«109159_j7215545057639_1_alg».proof.Proof.Val.Pay
import Idealize.ShloMosaic.Lib.Pipeline.Value

/-!
Region 0's output array after the run. Grid point `t` of 25 stores rows `4000·t … 4000·t + 3999`: the payload of the rows'
block of the packed node array and of the three small whole arrays. Every row is in exactly one block, so the array ends
holding the first stage function of the arrays the region found.
-/

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.Gnn

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the 25 grid points: the row-blocked windows move with the point, the others stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the stage function of the arrays as the region finds them. -/
theorem flushed0 (c : Dev nD) (t : Fin cfg0.N) :
    (dat0 V c).flushed 4 t
      = ((cfg0.win 4).blk t).view.read (Elt Ideal) (G0 (V c main_v19) (V c main_arg3) (V c main_v20) (V c main_v22)) := by
  show (cfg0.win 4).cut (grid0.coords t) ((dat0 V c).after 4 t) = _
  rw [after0_4]
  unfold out0_4
  rw [View.canon_unit_zero hz2]
  simp only [View.ld_unit_zero (S := S4000x3) hz2, View.ld_unit_zero (S := S1x64) hz2, View.ld_unit_zero (S := S64x64) hz2]
  funext j
  obtain ⟨p, q, rfl⟩ : ∃ (p : Fin 4000) (q : Fin 64), j = ix2 p q := ⟨j 0, j 1, eq_ix2 j⟩
  have ht : t.val < 25 := by have := t.isLt; have hN : cfg0.N = 25 := N_0; omega
  obtain ⟨e00, e01, e10, e11, e20, e21, e30, e31, e40, e41⟩ := idx0 t
  have hemb : ((cfg0.win 4).blk t).view.emb (ix2 p q) = ix2 (⟨t.val * 4000 + p.val, by omega⟩ : Fin 100000) q := by
    funext a; apply Fin.ext
    match a with
    | ⟨0, _⟩ => show win0_4.index t (0 : Fin 2) * 4000 + 1 * p.val = t.val * 4000 + p.val; omega
    | ⟨1, _⟩ => show win0_4.index t (1 : Fin 2) * 64 + 1 * q.val = q.val; omega
  show k0_pay1 (F := Ideal) (iblk0 V c 0 t) (iblk0 V c 1 t) (iblk0 V c 2 t) (iblk0 V c 3 t) (ix2 p q)
     = G0 (V c main_v19) (V c main_arg3) (V c main_v20) (V c main_v22) (((cfg0.win 4).blk t).view.emb (ix2 p q))
  rw [pay0_apply, hemb]
  have hpack : ∀ o : Fin 3, iblk0 V c 0 t (ix2 p o) = (V c main_v19 : Arr 100000 3) (ix2 (⟨t.val * 4000 + p.val, by omega⟩ : Fin 100000) o) := fun o => by
    show (V c main_v19 : Arr 100000 3) (((cfg0.win 0).blk t).view.emb (ix2 p o)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 3 + 1 * o.val = o.val; omega
  have h1 : ∀ k : Fin 64, iblk0 V c 1 t (ix2 (0 : Fin 1) k) = (V c main_arg3 : Arr 1 64) (ix2 (0 : Fin 1) k) := fun k => by
    show (V c main_arg3 : Arr 1 64) (((cfg0.win 1).blk t).view.emb (ix2 (0 : Fin 1) k)) = _
    refine congrArg _ (funext fun a => Fin.ext ?_)
    match a with
    | ⟨0, _⟩ => show win0_1.index t (0 : Fin 2) * 1 + 1 * 0 = 0; omega
    | ⟨1, _⟩ => show win0_1.index t (1 : Fin 2) * 64 + 1 * k.val = k.val; omega
  have h2 : ∀ k : Fin 64, iblk0 V c 2 t (ix2 (0 : Fin 1) k) = (V c main_v20 : Arr 1 64) (ix2 (0 : Fin 1) k) := fun k => by
    show (V c main_v20 : Arr 1 64) (((cfg0.win 2).blk t).view.emb (ix2 (0 : Fin 1) k)) = _
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * k.val = k.val; omega
  have h3 : ∀ k : Fin 64, iblk0 V c 3 t (ix2 k q) = (V c main_v22 : Arr 64 64) (ix2 k q) := fun k => by
    show (V c main_v22 : Arr 64 64) (((cfg0.win 3).blk t).view.emb (ix2 k q)) = _
    refine congrArg _ (funext fun a => Fin.ext ?_)
    match a with
    | ⟨0, _⟩ => show win0_3.index t (0 : Fin 2) * 64 + 1 * k.val = k.val; omega
    | ⟨1, _⟩ => show win0_3.index t (1 : Fin 2) * 64 + 1 * q.val = q.val; omega
  simp only [G0]
  refine Finset.sum_congr rfl fun k _ => ?_
  rw [hpack, hpack, h1, h2, h3]

/-- An index of the output array is in point `t`'s block iff each coordinate is in the block's range on its axis. -/
theorem mem_blk0 (t : Fin cfg0.N) (i : S100000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v23).slice (win0_4.rect t)).set ↔ _
  rw [View.set_slice_whole, Rect.mem_set_unit]
  exact Iff.rfl

/-- Every row is in the block of the point `row / 4000`. -/
theorem cover0 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 25 := N_0
  refine ⟨⟨(i 0).val / 4000, by omega⟩, flush0_4 _, ?_⟩
  rw [mem_blk0]
  obtain ⟨-, -, -, -, -, -, -, -, e40, e41⟩ := idx0 ⟨(i 0).val / 4000, by omega⟩
  intro a
  match a with
  | ⟨0, _⟩ =>
    show win0_4.index _ (0 : Fin 2) * 4000 ≤ (i 0).val ∧ (i 0).val < win0_4.index _ (0 : Fin 2) * 4000 + 4000
    rw [e40]; show (i 0).val / 4000 * 4000 ≤ (i 0).val ∧ (i 0).val < (i 0).val / 4000 * 4000 + 4000; omega
  | ⟨1, _⟩ =>
    show win0_4.index _ (1 : Fin 2) * 64 ≤ (i 1).val ∧ (i 1).val < win0_4.index _ (1 : Fin 2) * 64 + 64
    rw [e41]; omega

/-- Region 0's output array after the run: the first stage function of the arrays the region found. -/
theorem final0 (c : Dev nD) :
    (dat0 V c).arrAt 4 cfg0.N = G0 (V c main_v19) (V c main_arg3) (V c main_v20) (V c main_v22) :=
  (dat0 V c).arrAt_eq_of_cover 4 _ (fun t _ => flushed0 V c t) cover0

end Cert.KernelIdeal.Val

end
-- ==== Proof.Val.Final1.lean ====
import proofs.«109159_j7215545057639_1_alg».proof.Proof.KI.Region1
import proofs.«109159_j7215545057639_1_alg».proof.Proof.Val.Pay
import Idealize.ShloMosaic.Lib.Pipeline.Value

/-!
Region 1's output array after the run. Grid point `t` of 25 stores rows `4000·t … 4000·t + 3999`: the payload of the rows'
blocks of the packed node array and of the aggregated array, and of the two small whole arrays. Every row is in exactly one
block, so the array ends holding the middle stage function of the arrays the region found.
-/

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.Gnn

variable (V : (c : Dev nD) → (b : Ref sig .tc) → Buf (Elt Ideal) ((c : Thread nD τ).loc b))

theorem hz2_1 : (![0, 0] : Fin 2 → Nat) = fun _ => 0 := funext fun a => by fin_cases a <;> rfl

/-- The printed index maps over the 25 grid points: the row-blocked windows move with the point, the others stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the stage function of the arrays as the region finds them. -/
theorem flushed1 (c : Dev nD) (t : Fin cfg1.N) :
    (dat1 V c).flushed 4 t
      = ((cfg1.win 4).blk t).view.read (Elt Ideal) (Gmid (V c main_v19) (V c main_v34) (V c main_v37) (V c main_v39)) := by
  show (cfg1.win 4).cut (grid1.coords t) ((dat1 V c).after 4 t) = _
  rw [after1_4]
  unfold out1_4
  rw [View.canon_unit_zero hz2_1]
  simp only [View.ld_unit_zero (S := S4000x3) hz2_1, View.ld_unit_zero (S := S4000x64) hz2_1, View.ld_unit_zero (S := S1x64) hz2_1, View.ld_unit_zero (S := S64x64) hz2_1]
  funext j
  obtain ⟨p, q, rfl⟩ : ∃ (p : Fin 4000) (q : Fin 64), j = ix2 p q := ⟨j 0, j 1, eq_ix2 j⟩
  have ht : t.val < 25 := by have := t.isLt; have hN : cfg1.N = 25 := N_1; omega
  obtain ⟨e00, e01, e10, e11, e20, e21, e30, e31, e40, e41⟩ := idx1 t
  have hemb : ((cfg1.win 4).blk t).view.emb (ix2 p q) = ix2 (⟨t.val * 4000 + p.val, by omega⟩ : Fin 100000) q := by
    funext a; apply Fin.ext
    match a with
    | ⟨0, _⟩ => show win1_4.index t (0 : Fin 2) * 4000 + 1 * p.val = t.val * 4000 + p.val; omega
    | ⟨1, _⟩ => show win1_4.index t (1 : Fin 2) * 64 + 1 * q.val = q.val; omega
  show k1_pay1 (F := Ideal) (iblk1 V c 0 t) (iblk1 V c 1 t) (iblk1 V c 2 t) (iblk1 V c 3 t) (ix2 p q)
     = Gmid (V c main_v19) (V c main_v34) (V c main_v37) (V c main_v39) (((cfg1.win 4).blk t).view.emb (ix2 p q))
  rw [payMid1_apply, hemb]
  have hpack : ∀ o : Fin 3, iblk1 V c 0 t (ix2 p o) = (V c main_v19 : Arr 100000 3) (ix2 (⟨t.val * 4000 + p.val, by omega⟩ : Fin 100000) o) := fun o => by
    show (V c main_v19 : Arr 100000 3) (((cfg1.win 0).blk t).view.emb (ix2 p o)) = _
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 3 + 1 * o.val = o.val; omega
  have h1 : ∀ k : Fin 64, iblk1 V c 1 t (ix2 p k) = (V c main_v34 : Arr 100000 64) (ix2 (⟨t.val * 4000 + p.val, by omega⟩ : Fin 100000) k) := fun k => by
    show (V c main_v34 : Arr 100000 64) (((cfg1.win 1).blk t).view.emb (ix2 p k)) = _
    refine congrArg _ (funext fun a => Fin.ext ?_)
    match a with
    | ⟨0, _⟩ => show win1_1.index t (0 : Fin 2) * 4000 + 1 * p.val = t.val * 4000 + p.val; omega
    | ⟨1, _⟩ => show win1_1.index t (1 : Fin 2) * 64 + 1 * k.val = k.val; omega
  have h2 : ∀ k : Fin 64, iblk1 V c 2 t (ix2 (0 : Fin 1) k) = (V c main_v37 : Arr 1 64) (ix2 (0 : Fin 1) k) := fun k => by
    show (V c main_v37 : Arr 1 64) (((cfg1.win 2).blk t).view.emb (ix2 (0 : Fin 1) k)) = _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  have h3 : ∀ k : Fin 64, iblk1 V c 3 t (ix2 k q) = (V c main_v39 : Arr 64 64) (ix2 k q) := fun k => by
    show (V c main_v39 : Arr 64 64) (((cfg1.win 3).blk t).view.emb (ix2 k q)) = _
    refine congrArg _ (funext fun a => Fin.ext ?_)
    match a with
    | ⟨0, _⟩ => show win1_3.index t (0 : Fin 2) * 64 + 1 * k.val = k.val; omega
    | ⟨1, _⟩ => show win1_3.index t (1 : Fin 2) * 64 + 1 * q.val = q.val; omega
  simp only [Gmid]
  refine Finset.sum_congr rfl fun k _ => ?_
  rw [hpack, hpack, h1, h2, h3]

/-- An index of the output array is in point `t`'s block iff each coordinate is in the block's range on its axis. -/
theorem mem_blk1 (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v40).slice (win1_4.rect t)).set ↔ _
  rw [View.set_slice_whole, Rect.mem_set_unit]
  exact Iff.rfl

/-- Every row is in the block of the point `row / 4000`. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 25 := N_1
  refine ⟨⟨(i 0).val / 4000, by omega⟩, flush1_4 _, ?_⟩
  rw [mem_blk1]
  obtain ⟨-, -, -, -, -, -, -, -, e40, e41⟩ := idx1 ⟨(i 0).val / 4000, by omega⟩
  intro a
  match a with
  | ⟨0, _⟩ =>
    show win1_4.index _ (0 : Fin 2) * 4000 ≤ (i 0).val ∧ (i 0).val < win1_4.index _ (0 : Fin 2) * 4000 + 4000
    rw [e40]; show (i 0).val / 4000 * 4000 ≤ (i 0).val ∧ (i 0).val < (i 0).val / 4000 * 4000 + 4000; omega
  | ⟨1, _⟩ =>
    show win1_4.index _ (1 : Fin 2) * 64 ≤ (i 1).val ∧ (i 1).val < win1_4.index _ (1 : Fin 2) * 64 + 64
    rw [e41]; omega

/-- Region 1's output array after the run: the middle stage function of the arrays the region found. -/
theorem final1 (c : Dev nD) :
    (dat1 V c).arrAt 4 cfg1.N = Gmid (V c main_v19) (V c main_v34) (V c main_v37) (V c main_v39) :=
  (dat1 V c).arrAt_eq_of_cover 4 _ (fun t _ => flushed1 V c t) cover1

end Cert.KernelIdeal.Val

end
-- ==== Proof.Val.Final2.lean ====
import proofs.«109159_j7215545057639_1_alg».proof.Proof.KI.Region2
import proofs.«109159_j7215545057639_1_alg».proof.Proof.Val.Pay
import Idealize.ShloMosaic.Lib.Pipeline.Value

/-!
Region 2's output array after the run. Grid point `t` of 25 stores rows `4000·t … 4000·t + 3999`: the payload of the rows'
blocks of the packed node array and of the aggregated array, and of the two small whole arrays. Every row is in exactly one
block, so the array ends holding the middle stage function of the arrays the region found.
-/

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.Gnn

variable (V : (c : Dev nD) → (b : Ref sig .tc) → Buf (Elt Ideal) ((c : Thread nD τ).loc b))

theorem hz2_2 : (![0, 0] : Fin 2 → Nat) = fun _ => 0 := funext fun a => by fin_cases a <;> rfl

/-- The printed index maps over the 25 grid points: the row-blocked windows move with the point, the others stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the stage function of the arrays as the region finds them. -/
theorem flushed2 (c : Dev nD) (t : Fin cfg2.N) :
    (dat2 V c).flushed 4 t
      = ((cfg2.win 4).blk t).view.read (Elt Ideal) (Gmid (V c main_v19) (V c main_v50) (V c main_v53) (V c main_v55)) := by
  show (cfg2.win 4).cut (grid2.coords t) ((dat2 V c).after 4 t) = _
  rw [after2_4]
  unfold out2_4
  rw [View.canon_unit_zero hz2_2]
  simp only [View.ld_unit_zero (S := S4000x3) hz2_2, View.ld_unit_zero (S := S4000x64) hz2_2, View.ld_unit_zero (S := S1x64) hz2_2, View.ld_unit_zero (S := S64x64) hz2_2]
  funext j
  obtain ⟨p, q, rfl⟩ : ∃ (p : Fin 4000) (q : Fin 64), j = ix2 p q := ⟨j 0, j 1, eq_ix2 j⟩
  have ht : t.val < 25 := by have := t.isLt; have hN : cfg2.N = 25 := N_2; omega
  obtain ⟨e00, e01, e10, e11, e20, e21, e30, e31, e40, e41⟩ := idx2 t
  have hemb : ((cfg2.win 4).blk t).view.emb (ix2 p q) = ix2 (⟨t.val * 4000 + p.val, by omega⟩ : Fin 100000) q := by
    funext a; apply Fin.ext
    match a with
    | ⟨0, _⟩ => show win2_4.index t (0 : Fin 2) * 4000 + 1 * p.val = t.val * 4000 + p.val; omega
    | ⟨1, _⟩ => show win2_4.index t (1 : Fin 2) * 64 + 1 * q.val = q.val; omega
  show k2_pay1 (F := Ideal) (iblk2 V c 0 t) (iblk2 V c 1 t) (iblk2 V c 2 t) (iblk2 V c 3 t) (ix2 p q)
     = Gmid (V c main_v19) (V c main_v50) (V c main_v53) (V c main_v55) (((cfg2.win 4).blk t).view.emb (ix2 p q))
  rw [payMid2_apply, hemb]
  have hpack : ∀ o : Fin 3, iblk2 V c 0 t (ix2 p o) = (V c main_v19 : Arr 100000 3) (ix2 (⟨t.val * 4000 + p.val, by omega⟩ : Fin 100000) o) := fun o => by
    show (V c main_v19 : Arr 100000 3) (((cfg2.win 0).blk t).view.emb (ix2 p o)) = _
    refine congrArg _ (funext fun a => Fin.ext ?_)
    match a with
    | ⟨0, _⟩ => show win2_0.index t (0 : Fin 2) * 4000 + 1 * p.val = t.val * 4000 + p.val; omega
    | ⟨1, _⟩ => show win2_0.index t (1 : Fin 2) * 3 + 1 * o.val = o.val; omega
  have h1 : ∀ k : Fin 64, iblk2 V c 1 t (ix2 p k) = (V c main_v50 : Arr 100000 64) (ix2 (⟨t.val * 4000 + p.val, by omega⟩ : Fin 100000) k) := fun k => by
    show (V c main_v50 : Arr 100000 64) (((cfg2.win 1).blk t).view.emb (ix2 p k)) = _
    refine congrArg _ (funext fun a => Fin.ext ?_)
    match a with
    | ⟨0, _⟩ => show win2_1.index t (0 : Fin 2) * 4000 + 1 * p.val = t.val * 4000 + p.val; omega
    | ⟨1, _⟩ => show win2_1.index t (1 : Fin 2) * 64 + 1 * k.val = k.val; omega
  have h2 : ∀ k : Fin 64, iblk2 V c 2 t (ix2 (0 : Fin 1) k) = (V c main_v53 : Arr 1 64) (ix2 (0 : Fin 1) k) := fun k => by
    show (V c main_v53 : Arr 1 64) (((cfg2.win 2).blk t).view.emb (ix2 (0 : Fin 1) k)) = _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * k.val = k.val; omega
  have h3 : ∀ k : Fin 64, iblk2 V c 3 t (ix2 k q) = (V c main_v55 : Arr 64 64) (ix2 k q) := fun k => by
    show (V c main_v55 : Arr 64 64) (((cfg2.win 3).blk t).view.emb (ix2 k q)) = _
    refine congrArg _ (funext fun a => Fin.ext ?_)
    match a with
    | ⟨0, _⟩ => show win2_3.index t (0 : Fin 2) * 64 + 1 * k.val = k.val; omega
    | ⟨1, _⟩ => show win2_3.index t (1 : Fin 2) * 64 + 1 * q.val = q.val; omega
  simp only [Gmid]
  refine Finset.sum_congr rfl fun k _ => ?_
  rw [hpack, hpack, h1, h2, h3]

/-- An index of the output array is in point `t`'s block iff each coordinate is in the block's range on its axis. -/
theorem mem_blk2 (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v56).slice (win2_4.rect t)).set ↔ _
  rw [View.set_slice_whole, Rect.mem_set_unit]
  exact Iff.rfl

/-- Every row is in the block of the point `row / 4000`. -/
theorem cover2 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 25 := N_2
  refine ⟨⟨(i 0).val / 4000, by omega⟩, flush2_4 _, ?_⟩
  rw [mem_blk2]
  obtain ⟨-, -, -, -, -, -, -, -, e40, e41⟩ := idx2 ⟨(i 0).val / 4000, by omega⟩
  intro a
  match a with
  | ⟨0, _⟩ =>
    show win2_4.index _ (0 : Fin 2) * 4000 ≤ (i 0).val ∧ (i 0).val < win2_4.index _ (0 : Fin 2) * 4000 + 4000
    rw [e40]; show (i 0).val / 4000 * 4000 ≤ (i 0).val ∧ (i 0).val < (i 0).val / 4000 * 4000 + 4000; omega
  | ⟨1, _⟩ =>
    show win2_4.index _ (1 : Fin 2) * 64 ≤ (i 1).val ∧ (i 1).val < win2_4.index _ (1 : Fin 2) * 64 + 64
    rw [e41]; omega

/-- Region 2's output array after the run: the middle stage function of the arrays the region found. -/
theorem final2 (c : Dev nD) :
    (dat2 V c).arrAt 4 cfg2.N = Gmid (V c main_v19) (V c main_v50) (V c main_v53) (V c main_v55) :=
  (dat2 V c).arrAt_eq_of_cover 4 _ (fun t _ => flushed2 V c t) cover2

end Cert.KernelIdeal.Val

end
-- ==== Proof.Val.Final3.lean ====
import proofs.«109159_j7215545057639_1_alg».proof.Proof.KI.Region3
import proofs.«109159_j7215545057639_1_alg».proof.Proof.Val.Pay
import Idealize.ShloMosaic.Lib.Pipeline.Value

/-!
The last region's output array after the run. Grid point `t` of 25 stores rows `4000·t … 4000·t + 3999` of the one output
column: the payload of the rows' blocks of the packed node array and of the aggregated array, and of the three small whole
arrays. Every row is in exactly one block, so the array ends holding the read-out stage function of the arrays the region found.
-/

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.Gnn

variable (V : (c : Dev nD) → (b : Ref sig .tc) → Buf (Elt Ideal) ((c : Thread nD τ).loc b))

theorem hz2_3 : (![0, 0] : Fin 2 → Nat) = fun _ => 0 := funext fun a => by fin_cases a <;> rfl

/-- The printed index maps over the 25 grid points: the row-blocked windows move with the point, the others stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the stage function of the arrays as the region finds them. -/
theorem flushed3 (c : Dev nD) (t : Fin cfg3.N) :
    (dat3 V c).flushed 5 t
      = ((cfg3.win 5).blk t).view.read (Elt Ideal) (Gfin (V c main_v19) (V c main_v66) (V c main_v69) (V c main_arg7) (V c main_v24)) := by
  show (cfg3.win 5).cut (grid3.coords t) ((dat3 V c).after 5 t) = _
  rw [after3_5]
  unfold out3_5
  rw [View.canon_unit_zero hz2_3]
  simp only [View.ld_unit_zero (S := S4000x3) hz2_3, View.ld_unit_zero (S := S4000x64) hz2_3, View.ld_unit_zero (S := S1x64) hz2_3,
    View.ld_unit_zero (S := S64x1) hz2_3, View.ld_unit_zero (S := S1x1) hz2_3]
  funext j
  obtain ⟨p, u, rfl⟩ : ∃ (p : Fin 4000) (u : Fin 1), j = ix2 p u := ⟨j 0, j 1, eq_ix2 j⟩
  have ht : t.val < 25 := by have := t.isLt; have hN : cfg3.N = 25 := N_3; omega
  have hu : u.val = 0 := by omega
  obtain ⟨e00, e01, e10, e11, e20, e21, e30, e31, e40, e41, e50, e51⟩ := idx3 t
  have hemb : ((cfg3.win 5).blk t).view.emb (ix2 p u) = ix2 (⟨t.val * 4000 + p.val, by omega⟩ : Fin 100000) u := by
    funext a; apply Fin.ext
    match a with
    | ⟨0, _⟩ => show win3_5.index t (0 : Fin 2) * 4000 + 1 * p.val = t.val * 4000 + p.val; omega
    | ⟨1, _⟩ => show win3_5.index t (1 : Fin 2) * 1 + 1 * u.val = u.val; omega
  show k3_pay1 (F := Ideal) (iblk3 V c 0 t) (iblk3 V c 1 t) (iblk3 V c 2 t) (iblk3 V c 3 t) (iblk3 V c 4 t) (ix2 p u)
     = Gfin (V c main_v19) (V c main_v66) (V c main_v69) (V c main_arg7) (V c main_v24) (((cfg3.win 5).blk t).view.emb (ix2 p u))
  rw [payFin_apply, hemb]
  have hpack : ∀ o : Fin 3, iblk3 V c 0 t (ix2 p o) = (V c main_v19 : Arr 100000 3) (ix2 (⟨t.val * 4000 + p.val, by omega⟩ : Fin 100000) o) := fun o => by
    show (V c main_v19 : Arr 100000 3) (((cfg3.win 0).blk t).view.emb (ix2 p o)) = _
    refine congrArg _ (funext fun a => Fin.ext ?_)
    match a with
    | ⟨0, _⟩ => show win3_0.index t (0 : Fin 2) * 4000 + 1 * p.val = t.val * 4000 + p.val; omega
    | ⟨1, _⟩ => show win3_0.index t (1 : Fin 2) * 3 + 1 * o.val = o.val; omega
  have h1 : ∀ k : Fin 64, iblk3 V c 1 t (ix2 p k) = (V c main_v66 : Arr 100000 64) (ix2 (⟨t.val * 4000 + p.val, by omega⟩ : Fin 100000) k) := fun k => by
    show (V c main_v66 : Arr 100000 64) (((cfg3.win 1).blk t).view.emb (ix2 p k)) = _
    refine congrArg _ (funext fun a => Fin.ext ?_)
    match a with
    | ⟨0, _⟩ => show win3_1.index t (0 : Fin 2) * 4000 + 1 * p.val = t.val * 4000 + p.val; omega
    | ⟨1, _⟩ => show win3_1.index t (1 : Fin 2) * 64 + 1 * k.val = k.val; omega
  have h2 : ∀ k : Fin 64, iblk3 V c 2 t (ix2 (0 : Fin 1) k) = (V c main_v69 : Arr 1 64) (ix2 (0 : Fin 1) k) := fun k => by
    show (V c main_v69 : Arr 1 64) (((cfg3.win 2).blk t).view.emb (ix2 (0 : Fin 1) k)) = _
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * k.val = k.val; omega
  have h3 : ∀ k : Fin 64, iblk3 V c 3 t (ix2 k u) = (V c main_arg7 : Arr 64 1) (ix2 k u) := fun k => by
    show (V c main_arg7 : Arr 64 1) (((cfg3.win 3).blk t).view.emb (ix2 k u)) = _
    refine congrArg _ (funext fun a => Fin.ext ?_)
    match a with
    | ⟨0, _⟩ => show win3_3.index t (0 : Fin 2) * 64 + 1 * k.val = k.val; omega
    | ⟨1, _⟩ => show win3_3.index t (1 : Fin 2) * 1 + 1 * u.val = u.val; omega
  have h4 : iblk3 V c 4 t (ix2 (0 : Fin 1) u) = (V c main_v24 : Arr 1 1) (ix2 (0 : Fin 1) u) := by
    show (V c main_v24 : Arr 1 1) (((cfg3.win 4).blk t).view.emb (ix2 (0 : Fin 1) u)) = _
    refine congrArg _ (funext fun a => Fin.ext ?_)
    match a with
    | ⟨0, _⟩ => show win3_4.index t (0 : Fin 2) * 1 + 1 * 0 = 0; omega
    | ⟨1, _⟩ => show win3_4.index t (1 : Fin 2) * 1 + 1 * u.val = u.val; omega
  simp only [Gfin]
  rw [h4]
  refine congrArg (· + _) (Finset.sum_congr rfl fun k _ => ?_)
  rw [hpack, h1, h2, h3]

/-- An index of the output array is in point `t`'s block iff each coordinate is in the block's range on its axis. -/
theorem mem_blk3 (t : Fin cfg3.N) (i : S100000x1.Idx) :
    i ∈ ((cfg3.win 5).blk t).view.set ↔ ∀ a : Fin 2, win3_5.index t a * S4000x1.size a ≤ (i a).val ∧ (i a).val < win3_5.index t a * S4000x1.size a + S4000x1.size a := by
  show i ∈ ((View.whole main_v70).slice (win3_5.rect t)).set ↔ _
  rw [View.set_slice_whole, Rect.mem_set_unit]
  exact Iff.rfl

/-- Every row is in the block of the point `row / 4000`. -/
theorem cover3 (i : S100000x1.Idx) : ∃ t : Fin cfg3.N, (cfg3.win 5).flush t = true ∧ i ∈ ((cfg3.win 5).blk t).view.set := by
  have hi0 : (i 0).val < 100000 := (i 0).isLt
  have hi1 : (i 1).val < 1 := (i 1).isLt
  have hN : cfg3.N = 25 := N_3
  refine ⟨⟨(i 0).val / 4000, by omega⟩, flush3_5 _, ?_⟩
  rw [mem_blk3]
  obtain ⟨-, -, -, -, -, -, -, -, -, -, e50, e51⟩ := idx3 ⟨(i 0).val / 4000, by omega⟩
  intro a
  match a with
  | ⟨0, _⟩ =>
    show win3_5.index _ (0 : Fin 2) * 4000 ≤ (i 0).val ∧ (i 0).val < win3_5.index _ (0 : Fin 2) * 4000 + 4000
    rw [e50]; show (i 0).val / 4000 * 4000 ≤ (i 0).val ∧ (i 0).val < (i 0).val / 4000 * 4000 + 4000; omega
  | ⟨1, _⟩ =>
    show win3_5.index _ (1 : Fin 2) * 1 ≤ (i 1).val ∧ (i 1).val < win3_5.index _ (1 : Fin 2) * 1 + 1
    rw [e51]; omega

/-- The last region's output array after the run: the read-out stage function of the arrays the region found. -/
theorem final3 (c : Dev nD) :
    (dat3 V c).arrAt 5 cfg3.N = Gfin (V c main_v19) (V c main_v66) (V c main_v69) (V c main_arg7) (V c main_v24) :=
  (dat3 V c).arrAt_eq_of_cover 5 _ (fun t _ => flushed3 V c t) cover3

end Cert.KernelIdeal.Val

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.LibDense.lean ====
/-
  GENERAL LEMMAS: an affine layer of a multi-layer perceptron, read one output at a time on the extended reals.

  Row `p` of a product of an M×K matrix with a K×N matrix, plus a bias row, depends on row `p` of the left matrix only:
  output `c` is `∑ k, x k · w k c + b c` (`lin`). The positive part (`relu`) and the joining of two rows end to end
  (`cat`) are pointwise in the row as well. The lemmas below read the two spellings of such a layer at an entry
  `(p, c)`: the vector program's (a product into the zero accumulator, the bias a `[1, N]` row broadcast down the rows,
  the positive part against a splat zero) and the host's (a `dot_general`, the bias an `[N]` array broadcast twice,
  the positive part against a broadcast scalar zero). Changes of float format are the identity on the extended reals.
  Also here: two blocks joined side by side read at an entry (`concat_cols_apply`), an `[N]` row broadcast over the rows
  (`rowBias_apply`) and an `[A]` column broadcast over the columns (`colBcast_apply`), each a double `broadcast_in_dim`.
-/
import Idealize.ShloMosaic.PureOps.Ideal.Laws
import Idealize.ShloMosaic.Lib.ValueIdx
import Idealize.ShloMosaic.Lib.ValueLayout
import Idealize.ShloMosaic.Lib.Pipeline.Value
import proofs.«109159_j7215545057639_1_alg».proof.Proof.LibPlainDot
import proofs.«109159_j7215545057639_1_alg».proof.Proof.LibConcatPair

noncomputable section

open scoped BigOperators

namespace Idealize.ShloMosaic.Dense

open Idealize.ShloMosaic Idealize.ShloMosaic.ValueIdx

/-- One output of an affine map: the row `x` against column `c` of `w`, plus the bias at `c`. -/
def lin {K N : Nat} (x : Fin K → EReal) (w : Fin K → Fin N → EReal) (b : Fin N → EReal) (c : Fin N) : EReal :=
  (∑ k : Fin K, x k * w k c) + b c

/-- The positive part, against the zero word (the same word on both sides: never evaluated). -/
def relu (v : EReal) : EReal := max v (Ideal.ofBits .f32 0x00000000#32)

/-- Two rows of lengths `a` and `b` joined end to end. -/
def cat {a b c : Nat} (hc : c = a + b) (u : Fin a → EReal) (v : Fin b → EReal) (j : Fin c) : EReal :=
  if h : j.val < a then u ⟨j.val, h⟩ else v ⟨j.val - a, by have := j.isLt; omega⟩

variable {M K N : Nat}

/-- Two blocks side by side, read at `(r, j)`: row `r` of the first joined with row `r` of the second. -/
theorem concat_cols_apply {n a b c : Nat} (hc : c = a + b) (x₁ : (⟨2, ![n, a]⟩ : Shape).Idx → EReal) (x₂ : (⟨2, ![n, b]⟩ : Shape).Idx → EReal)
    (h : Shape.Concatenates [(⟨2, ![n, a]⟩ : Shape), ⟨2, ![n, b]⟩] ⟨2, ![n, c]⟩ (1 : Fin 2)) (r : Fin n) (j : Fin c) :
    concatenate ⟨2, ![n, c]⟩ (1 : Fin 2) [⟨⟨2, ![n, a]⟩, x₁⟩, ⟨⟨2, ![n, b]⟩, x₂⟩] h (ix2 r j)
      = cat hc (fun q => x₁ (ix2 r q)) (fun q => x₂ (ix2 r q)) j := by
  unfold cat
  split
  · rename_i hlt
    exact ConcatPair.cols_fst x₁ x₂ h r ⟨j.val, hlt⟩ j.isLt
  · rename_i hge
    have hj := j.isLt
    have hlt : a + (j.val - a) < c := by omega
    have e : j = ⟨a + (j.val - a), hlt⟩ := Fin.ext (by show j.val = a + (j.val - a); omega)
    refine (congrArg (fun q => concatenate ⟨2, ![n, c]⟩ (1 : Fin 2) [⟨⟨2, ![n, a]⟩, x₁⟩, ⟨⟨2, ![n, b]⟩, x₂⟩] h (ix2 r q)) e).trans ?_
    exact ConcatPair.cols_snd x₁ x₂ h r ⟨j.val - a, by omega⟩ hlt

/-! ## The vector program's spelling -/

/-- A product into the zero accumulator plus a `[1, N]` bias row broadcast down the rows. -/
theorem matmul_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    addf (matmul D none l r (constant (F := Ideal) ⟨2, ![M, N]⟩ .f32 0x00000000#32)) (broadcastTo ⟨2, ![M, N]⟩ b hb) (ix2 p c)
      = lin (fun k => l (ix2 p k)) (fun k n => r (ix2 k n)) (fun n => b (ix2 (0 : Fin 1) n)) c := by
  rw [addf_apply, PlainDot.matmul_zero_apply D hD none l r (ix2 p c), broadcastTo_1b_ab_apply b hb p c]
  rfl

/-- The same followed by the positive part against a splat zero. -/
theorem matmul_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    maximumf (addf (matmul D none l r (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 p c)
      = relu (lin (fun k => l (ix2 p k)) (fun k n => r (ix2 k n)) (fun n => b (ix2 (0 : Fin 1) n)) c) := by
  rw [maximumf_apply, matmul_bias_apply D hD l r b hb p c]
  rfl

/-! ## The host's spelling -/

/-- An `[N]` bias broadcast to a `[1, N]` row and then down `M` rows reads, at `(p, c)`, the bias at `c`. -/
theorem rowBias_apply {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    broadcastInDim ⟨2, ![M, N]⟩ ![0, 1] h2 (broadcastInDim ⟨2, ![1, N]⟩ ![1] h1 b) (ix2 p c) = b (ix1 c) := by
  refine (broadcastInDim_apply _ h2 _ (ix2 p c) (ix2 (0 : Fin 1) c) fun a => ?_).trans
    (broadcastInDim_apply _ h1 b (ix2 (0 : Fin 1) c) (ix1 c) fun a => ?_)
  · match a with
    | ⟨0, _⟩ => show 0 = if (1 : Nat) = 1 then 0 else p.val; rw [if_pos rfl]
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A column `[A]` broadcast to `[A, 1]` and then over `B` columns reads, at `(e, q)`, the column at `e`. -/
theorem colBcast_apply {α : Type} {A B : Nat} (w : (⟨1, ![A]⟩ : Shape).Idx → α)
    (h1 : (⟨1, ![A]⟩ : Shape).BroadcastsInDim ⟨2, ![A, 1]⟩ ![0]) (h2 : (⟨2, ![A, 1]⟩ : Shape).BroadcastsInDim ⟨2, ![A, B]⟩ ![0, 1])
    (e : Fin A) (q : Fin B) :
    broadcastInDim ⟨2, ![A, B]⟩ ![0, 1] h2 (broadcastInDim ⟨2, ![A, 1]⟩ ![0] h1 w) (ix2 e q) = w (ix1 e) := by
  refine (broadcastInDim_apply _ h2 _ (ix2 e q) (ix2 e (0 : Fin 1)) fun a => ?_).trans
    (broadcastInDim_apply _ h1 w (ix2 e (0 : Fin 1)) (ix1 e) fun a => ?_)
  · match a with
    | ⟨0, _⟩ =>
      show e.val = if A = 1 then 0 else e.val
      split
      · have := e.isLt; omega
      · rfl
    | ⟨1, _⟩ => show 0 = if (1 : Nat) = 1 then 0 else q.val; rw [if_pos rfl]
  · match a with
    | ⟨0, _⟩ =>
      show e.val = if A = 1 then 0 else e.val
      split
      · have := e.isLt; omega
      · rfl

/-- A `dot_general` plus an `[N]` bias broadcast over the rows. -/
theorem hostDot_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    addf (Host.dotGeneral D none l r) (broadcastInDim ⟨2, ![M, N]⟩ ![0, 1] h2 (broadcastInDim ⟨2, ![1, N]⟩ ![1] h1 b)) (ix2 p c)
      = lin (fun k => l (ix2 p k)) (fun k n => r (ix2 k n)) (fun n => b (ix1 n)) c := by
  rw [addf_apply, PlainDot.hostDot_apply D hD none l r (ix2 p c), rowBias_apply b h1 h2 p c]
  rfl

/-- The same followed by the positive part against a broadcast scalar zero. -/
theorem hostDot_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) (p : Fin M) (c : Fin N) :
    maximumf (addf (Host.dotGeneral D none l r) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p c)
      = relu (lin (fun k => l (ix2 p k)) (fun k n => r (ix2 k n)) (fun n => b (ix1 n)) c) := by
  rw [maximumf_apply, hostDot_bias_apply D hD l r b h1 h2 p c,
    broadcastInDim_apply _ h0 _ (ix2 p c) ix0 (fun a => a.elim0)]
  rfl

end Idealize.ShloMosaic.Dense

end
-- ==== Proof.Val.Bridge.lean ====
import proofs.«109159_j7215545057639_1_alg».proof.Proof.Ref.Term
import proofs.«109159_j7215545057639_1_alg».proof.Proof.Val.Spec
import proofs.«109159_j7215545057639_1_alg».proof.Proof.LibDense
import proofs.«109159_j7215545057639_1_alg».proof.Proof.LibKeepdims

/-!
The reference's dense stages, read entry by entry on the extended reals, are the three stage functions of the
specification: scaling a row by a per-node factor, adding a per-feature bias, the leaky rectifier and the three products are
all pointwise in the node, and a product's entry is a sum over the 64 (or the one) contracted features.
-/

noncomputable section

open scoped BigOperators

namespace Cert.ReferenceIdeal.Bridge

open Idealize.ShloMosaic Idealize.ShloMosaic.ValueIdx Cert.ReferenceIdeal Cert.ReferenceIdeal.Hand Cert.Gnn

variable [Facts]

/-- A per-node array of extended reals. -/
abbrev Col : Type := (⟨1, ![100000]⟩ : Shape).Idx → EReal
/-- A per-feature array of extended reals. -/
abbrev Row : Type := (⟨1, ![64]⟩ : Shape).Idx → EReal

theorem scaleRows_apply (x : Arr 100000 64) (n : Col) (r : Fin 100000) (k : Fin 64) :
    scaleRows (F := Ideal) x n (ix2 r k) = x (ix2 r k) * n (ix1 r) := by
  unfold scaleRows
  rw [mulf_apply, Dense.colBcast_apply]

theorem addBias_apply (x : Arr 100000 64) (b : Row) (r : Fin 100000) (k : Fin 64) :
    addBias (F := Ideal) x b (ix2 r k) = x (ix2 r k) + b (ix1 k) := by
  unfold addBias
  rw [addf_apply, Dense.rowBias_apply]

theorem leakyRelu_apply (x : Arr 100000 64) (r : Fin 100000) (k : Fin 64) :
    leakyRelu (F := Ideal) x Hand.slope (ix2 r k) = leaky (x (ix2 r k)) := by
  unfold leakyRelu Hand.slope
  rw [select_apply, cmpf_apply, mulf_apply,
    broadcastInDim_apply _ _ _ (ix2 r k) ix0 (fun a => a.elim0),
    broadcastInDim_apply _ _ _ (ix2 r k) ix0 (fun a => a.elim0)]
  rfl

theorem dense_apply (x : Arr 100000 64) (w : Arr 64 64) (r : Fin 100000) (c : Fin 64) :
    dense (F := Ideal) x w (ix2 r c) = ∑ k : Fin 64, x (ix2 r k) * w (ix2 k c) := by
  unfold dense
  exact PlainDot.hostDot_apply _ rfl none x w (ix2 r c)

theorem embed_apply (a0 : Col) (a3 : Arr 1 64) (a4 : Row) (r : Fin 100000) (k : Fin 64) :
    embed (F := Ideal) a0 a3 a4 (ix2 r k) = a0 (ix1 r) * a3 (ix2 (0 : Fin 1) k) + a4 (ix1 k) := by
  unfold embed
  rw [addBias_apply]
  refine congrArg (· + a4 (ix1 k)) ?_
  refine (PlainDot.hostDot_apply _ rfl none _ a3 (ix2 r k)).trans ?_
  rw [Fin.sum_univ_one]
  refine congrArg (· * a3 (ix2 (0 : Fin 1) k)) ?_
  refine broadcastInDim_apply _ _ a0 _ (ix1 r) fun a => ?_
  match a with
  | ⟨0, _⟩ => rfl

theorem readout_apply (x : Arr 100000 64) (a7 : Arr 64 1) (a8 : (⟨1, ![1]⟩ : Shape).Idx → EReal) (r : Fin 100000) (u : Fin 1) :
    readout (F := Ideal) x a7 a8 (ix2 r u) = (∑ k : Fin 64, x (ix2 r k) * a7 (ix2 k u)) + a8 (ix1 u) := by
  unfold readout
  rw [addf_apply, Dense.rowBias_apply]
  exact congrArg (· + a8 (ix1 u)) (PlainDot.hostDot_apply _ rfl none x a7 (ix2 r u))

/-- The input layer, scaled by the out-degree factor, through the first product. -/
theorem stage0 (pack : Arr 100000 3) (a0 nS : Col) (a3 b2 : Arr 1 64) (a4 : Row) (w : Arr 64 64)
    (hp0 : ∀ r : Fin 100000, pack (ix2 r (0 : Fin 3)) = a0 (ix1 r)) (hp1 : ∀ r : Fin 100000, pack (ix2 r (1 : Fin 3)) = nS (ix1 r))
    (hb : ∀ k : Fin 64, b2 (ix2 (0 : Fin 1) k) = a4 (ix1 k)) :
    G0 pack a3 b2 w = dense (F := Ideal) (scaleRows (F := Ideal) (embed (F := Ideal) a0 a3 a4) nS) w := by
  funext j
  obtain ⟨r, c, rfl⟩ : ∃ (r : Fin 100000) (c : Fin 64), j = ix2 r c := ⟨j 0, j 1, eq_ix2 j⟩
  rw [dense_apply]
  show ∑ k : Fin 64, ((pack (ix2 r (0 : Fin 3)) * a3 (ix2 (0 : Fin 1) k) + b2 (ix2 (0 : Fin 1) k)) * pack (ix2 r (1 : Fin 3))) * w (ix2 k c) = _
  refine Finset.sum_congr rfl fun k _ => ?_
  rw [scaleRows_apply, embed_apply, hp0, hp1, hb]

/-- After an aggregation: in-degree factor, bias, leaky rectifier, out-degree factor, the next product. -/
theorem stageMid (pack : Arr 100000 3) (nS nD : Col) (agg : Arr 100000 64) (b2 : Arr 1 64) (b : Row) (w : Arr 64 64)
    (hp1 : ∀ r : Fin 100000, pack (ix2 r (1 : Fin 3)) = nS (ix1 r)) (hp2 : ∀ r : Fin 100000, pack (ix2 r (2 : Fin 3)) = nD (ix1 r))
    (hb : ∀ k : Fin 64, b2 (ix2 (0 : Fin 1) k) = b (ix1 k)) :
    Gmid pack agg b2 w
      = dense (F := Ideal) (scaleRows (F := Ideal) (leakyRelu (F := Ideal) (addBias (F := Ideal) (scaleRows (F := Ideal) agg nD) b) Hand.slope) nS) w := by
  funext j
  obtain ⟨r, c, rfl⟩ : ∃ (r : Fin 100000) (c : Fin 64), j = ix2 r c := ⟨j 0, j 1, eq_ix2 j⟩
  rw [dense_apply]
  show ∑ k : Fin 64, (leaky (agg (ix2 r k) * pack (ix2 r (2 : Fin 3)) + b2 (ix2 (0 : Fin 1) k)) * pack (ix2 r (1 : Fin 3))) * w (ix2 k c) = _
  refine Finset.sum_congr rfl fun k _ => ?_
  rw [scaleRows_apply, leakyRelu_apply, addBias_apply, scaleRows_apply, hp1, hp2, hb]

/-- After the last aggregation: in-degree factor, bias, the read-out product and its bias. -/
theorem stageFin (pack : Arr 100000 3) (nD : Col) (agg : Arr 100000 64) (b2 : Arr 1 64) (b : Row) (a7 : Arr 64 1)
    (bp : Arr 1 1) (a8 : (⟨1, ![1]⟩ : Shape).Idx → EReal)
    (hp2 : ∀ r : Fin 100000, pack (ix2 r (2 : Fin 3)) = nD (ix1 r))
    (hb : ∀ k : Fin 64, b2 (ix2 (0 : Fin 1) k) = b (ix1 k)) (hbp : ∀ u : Fin 1, bp (ix2 (0 : Fin 1) u) = a8 (ix1 u)) :
    Gfin pack agg b2 a7 bp = readout (F := Ideal) (addBias (F := Ideal) (scaleRows (F := Ideal) agg nD) b) a7 a8 := by
  funext j
  obtain ⟨r, u, rfl⟩ : ∃ (r : Fin 100000) (u : Fin 1), j = ix2 r u := ⟨j 0, j 1, eq_ix2 j⟩
  rw [readout_apply]
  show (∑ k : Fin 64, (agg (ix2 r k) * pack (ix2 r (2 : Fin 3)) + b2 (ix2 (0 : Fin 1) k)) * a7 (ix2 k u)) + bp (ix2 (0 : Fin 1) u) = _
  rw [hbp]
  refine congrArg (· + a8 (ix1 u)) (Finset.sum_congr rfl fun k _ => ?_)
  rw [addBias_apply, scaleRows_apply, hp2, hb]

end Cert.ReferenceIdeal.Bridge

end
-- ==== Proof.Val.Chain.lean ====
import proofs.«109159_j7215545057639_1_alg».proof.Proof.Val.HostB
import proofs.«109159_j7215545057639_1_alg».proof.Proof.Val.HostA
import proofs.«109159_j7215545057639_1_alg».proof.Proof.Val.Final0
import proofs.«109159_j7215545057639_1_alg».proof.Proof.Val.Final1
import proofs.«109159_j7215545057639_1_alg».proof.Proof.Val.Final2
import proofs.«109159_j7215545057639_1_alg».proof.Proof.Val.Final3
import proofs.«109159_j7215545057639_1_alg».proof.Proof.Val.Bridge

/-!
The kernel's result is the reference's. Region by region: the array a region leaves is the stage function of the arrays it
found (the blocks-to-array step), which is the reference's dense stage of the same arrays (the bridge); the stretch of
host operations before the next region aggregates that array over the edges, exactly as the reference does; the packed
node array, the endpoint arrays and the arguments travel unchanged. Composing the four regions and the three
aggregations gives the reference's result of the launch contents of the arguments.
-/

set_option maxRecDepth 16384

noncomputable section

namespace Cert.KernelIdeal.Val

open Idealize.ShloMosaic Idealize.ShloMosaic.TcCoe Idealize.ShloMosaic.ValueIdx
open Idealize.SL.Sem
open Cert.KernelIdeal Cert.KernelIdeal.Gen Cert.KernelIdeal.Hand Cert.Gnn

variable [Cert.ReferenceIdeal.Facts]

variable (m : (ℓ : Loc nD τ sig) → Buf (Elt Ideal) ℓ) (ρ : Dev nD → PrngReg) (c : Dev nD)

/-! ## The layers, as the reference's operations on the launch contents of the arguments -/

/-- The edges' source endpoints with one self loop per node appended, -/
def eS := Cert.ReferenceIdeal.Hand.withSelfLoops (F := Ideal) (m ((c.tc : Thread nD τ).loc main_arg1))
/-- and the destination endpoints. -/
def eD := Cert.ReferenceIdeal.Hand.withSelfLoops (F := Ideal) (m ((c.tc : Thread nD τ).loc main_arg2))
/-- The out-degree factor of every node, -/
def normS := Cert.ReferenceIdeal.Hand.degNorm (F := Ideal) (eS m c)
/-- and the in-degree factor. -/
def normD := Cert.ReferenceIdeal.Hand.degNorm (F := Ideal) (eD m c)
/-- What region 0 computes: the input layer scaled by the out-degree factor, times the first weight. -/
def x0 := Cert.ReferenceIdeal.Hand.dense (F := Ideal) (Cert.ReferenceIdeal.Hand.scaleRows (F := Ideal) (Cert.ReferenceIdeal.Hand.embed (F := Ideal) (m ((c.tc : Thread nD τ).loc main_arg0)) (m ((c.tc : Thread nD τ).loc main_arg3)) (m ((c.tc : Thread nD τ).loc main_arg4))) (normS m c)) (Cert.ReferenceIdeal.Hand.weightAt (F := Ideal) ![0, 0, 0] Cert.ReferenceIdeal.Facts₀.slices_S3x64x64_S1x64x64_0_0_0 (m ((c.tc : Thread nD τ).loc main_arg5)))
/-- Its aggregation over the edges. -/
def g0 := Cert.ReferenceIdeal.Hand.aggregate (F := Ideal) (x0 m c) (eS m c) (eD m c)
/-- What region 1 computes: in-degree factor, first bias, leaky rectifier, out-degree factor, second weight. -/
def x1 := Cert.ReferenceIdeal.Hand.dense (F := Ideal) (Cert.ReferenceIdeal.Hand.scaleRows (F := Ideal) (Cert.ReferenceIdeal.Hand.leakyRelu (F := Ideal) (Cert.ReferenceIdeal.Hand.addBias (F := Ideal) (Cert.ReferenceIdeal.Hand.scaleRows (F := Ideal) (g0 m c) (normD m c)) (Cert.ReferenceIdeal.Hand.biasAt (F := Ideal) ![0, 0] Cert.ReferenceIdeal.Facts₀.slices_S3x64_S1x64_0_0 (m ((c.tc : Thread nD τ).loc main_arg6)))) Cert.ReferenceIdeal.Hand.slope) (normS m c)) (Cert.ReferenceIdeal.Hand.weightAt (F := Ideal) ![1, 0, 0] Cert.ReferenceIdeal.Facts₀.slices_S3x64x64_S1x64x64_1_0_0 (m ((c.tc : Thread nD τ).loc main_arg5)))
def g1 := Cert.ReferenceIdeal.Hand.aggregate (F := Ideal) (x1 m c) (eS m c) (eD m c)
/-- What region 2 computes: the same with the second bias and the third weight. -/
def x2 := Cert.ReferenceIdeal.Hand.dense (F := Ideal) (Cert.ReferenceIdeal.Hand.scaleRows (F := Ideal) (Cert.ReferenceIdeal.Hand.leakyRelu (F := Ideal) (Cert.ReferenceIdeal.Hand.addBias (F := Ideal) (Cert.ReferenceIdeal.Hand.scaleRows (F := Ideal) (g1 m c) (normD m c)) (Cert.ReferenceIdeal.Hand.biasAt (F := Ideal) ![1, 0] Cert.ReferenceIdeal.Facts₀.slices_S3x64_S1x64_1_0 (m ((c.tc : Thread nD τ).loc main_arg6)))) Cert.ReferenceIdeal.Hand.slope) (normS m c)) (Cert.ReferenceIdeal.Hand.weightAt (F := Ideal) ![2, 0, 0] Cert.ReferenceIdeal.Facts₀.slices_S3x64x64_S1x64x64_2_0_0 (m ((c.tc : Thread nD τ).loc main_arg5)))
def g2 := Cert.ReferenceIdeal.Hand.aggregate (F := Ideal) (x2 m c) (eS m c) (eD m c)
/-- What region 3 computes: in-degree factor, third bias, the read-out product and its bias. -/
def yOut := Cert.ReferenceIdeal.Hand.readout (F := Ideal) (Cert.ReferenceIdeal.Hand.addBias (F := Ideal) (Cert.ReferenceIdeal.Hand.scaleRows (F := Ideal) (g2 m c) (normD m c)) (Cert.ReferenceIdeal.Hand.biasAt (F := Ideal) ![2, 0] Cert.ReferenceIdeal.Facts₀.slices_S3x64_S1x64_2_0 (m ((c.tc : Thread nD τ).loc main_arg6)))) (m ((c.tc : Thread nD τ).loc main_arg7)) (m ((c.tc : Thread nD τ).loc main_arg8))

/-- The layers composed are the reference's result: three convolutions with two leaky rectifiers between them, then the
    read-out — each convolution cut after its product (where a region ends) instead of after its bias. -/
theorem yOut_eq : yOut m c = Cert.ReferenceIdeal.Hand.refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl

/-! ## The small arrays a later region stages, read off the stretch before it -/

theorem Win1_weight : Win1 (F := Ideal) m ρ c (Proc.devRef .tc main_v39) = (Cert.ReferenceIdeal.Hand.weightAt (F := Ideal) ![1, 0, 0] Cert.ReferenceIdeal.Facts₀.slices_S3x64x64_S1x64x64_1_0_0 (m ((c.tc : Thread nD τ).loc main_arg5))) := by
  refine (host1_weight (Wexit0 m ρ c)).trans ?_
  rw [Wexit0_arg5 m ρ c]
theorem Win2_weight : Win2 (F := Ideal) m ρ c (Proc.devRef .tc main_v55) = (Cert.ReferenceIdeal.Hand.weightAt (F := Ideal) ![2, 0, 0] Cert.ReferenceIdeal.Facts₀.slices_S3x64x64_S1x64x64_2_0_0 (m ((c.tc : Thread nD τ).loc main_arg5))) := by
  refine (host2_weight (Wexit1 m ρ c)).trans ?_
  rw [Wexit1_arg5 m ρ c]
theorem Win1_bias (k : Fin 64) : (Win1 (F := Ideal) m ρ c (Proc.devRef .tc main_v37) : Cert.Gnn.Arr 1 64) (ix2 (0 : Fin 1) k) = (Cert.ReferenceIdeal.Hand.biasAt (F := Ideal) ![0, 0] Cert.ReferenceIdeal.Facts₀.slices_S3x64_S1x64_0_0 (m ((c.tc : Thread nD τ).loc main_arg6))) (ix1 k) := by
  refine (host1_bias (Wexit0 m ρ c) k).trans ?_
  rw [Wexit0_arg6 m ρ c]
theorem Win2_bias (k : Fin 64) : (Win2 (F := Ideal) m ρ c (Proc.devRef .tc main_v53) : Cert.Gnn.Arr 1 64) (ix2 (0 : Fin 1) k) = (Cert.ReferenceIdeal.Hand.biasAt (F := Ideal) ![1, 0] Cert.ReferenceIdeal.Facts₀.slices_S3x64_S1x64_1_0 (m ((c.tc : Thread nD τ).loc main_arg6))) (ix1 k) := by
  refine (host2_bias (Wexit1 m ρ c) k).trans ?_
  rw [Wexit1_arg6 m ρ c]
theorem Win3_bias (k : Fin 64) : (Win3 (F := Ideal) m ρ c (Proc.devRef .tc main_v69) : Cert.Gnn.Arr 1 64) (ix2 (0 : Fin 1) k) = (Cert.ReferenceIdeal.Hand.biasAt (F := Ideal) ![2, 0] Cert.ReferenceIdeal.Facts₀.slices_S3x64_S1x64_2_0 (m ((c.tc : Thread nD τ).loc main_arg6))) (ix1 k) := by
  refine (host3_bias (Wexit2 m ρ c) k).trans ?_
  rw [Wexit2_arg6 m ρ c]
theorem Win3_outBias_apply (u : Fin 1) : (Win3 (F := Ideal) m ρ c (Proc.devRef .tc main_v24) : Cert.Gnn.Arr 1 1) (ix2 (0 : Fin 1) u)
    = ((m ((c.tc : Thread nD τ).loc main_arg8)) : (⟨1, ![1]⟩ : Shape).Idx → EReal) (ix1 u) := by
  rw [Win3_outBias m ρ c]
  refine (host1_outBias (Wexit0 m ρ c) u).trans ?_
  rw [Wexit0_arg8 m ρ c]

/-! ## Region by region -/

/-- Region 0 leaves the first layer's product in its output array. -/
theorem out0 : Wexit0 (F := Ideal) m ρ c (Proc.devRef .tc main_v23) = x0 m c := by
  have hG : (dat0 (Vin0 (F := Ideal) m ρ) c).arrAt 4 cfg0.N
      = G0 (Win0 m ρ c (Proc.devRef .tc main_v19)) (Win0 m ρ c (Proc.devRef .tc main_arg3)) (Win0 m ρ c (Proc.devRef .tc main_v20)) (Win0 m ρ c (Proc.devRef .tc main_v22)) :=
    final0 (Vin0 m ρ) c
  rw [Win0_arg3 m ρ c, Win0_v22 m ρ c] at hG
  exact (Wexit_arr0 m ρ c 4).trans (hG.trans (Cert.ReferenceIdeal.Bridge.stage0 _ (m ((c.tc : Thread nD τ).loc main_arg0)) (normS m c) _ _ (m ((c.tc : Thread nD τ).loc main_arg4)) _
    (Win0_pack0 m ρ c) (Win0_pack1 m ρ c) (Win0_v20 m ρ c)))

/-- Region 1 is entered with the aggregation of region 0's output. -/
theorem in1 : Win1 (F := Ideal) m ρ c (Proc.devRef .tc main_v34) = g0 m c := by
  refine (host1_agg (Wexit0 m ρ c)).trans ?_
  rw [out0 m ρ c, Wexit0_src m ρ c, Wexit0_dst m ρ c, Win0_v1 m ρ c, Win0_v2 m ρ c]
  rfl

theorem out1 : Wexit1 (F := Ideal) m ρ c (Proc.devRef .tc main_v40) = x1 m c := by
  have hG : (dat1 (Vin1 (F := Ideal) m ρ) c).arrAt 4 cfg1.N
      = Gmid (Win1 m ρ c (Proc.devRef .tc main_v19)) (Win1 m ρ c (Proc.devRef .tc main_v34)) (Win1 m ρ c (Proc.devRef .tc main_v37)) (Win1 m ρ c (Proc.devRef .tc main_v39)) :=
    final1 (Vin1 m ρ) c
  rw [Win1_pack m ρ c, in1 m ρ c, Win1_weight m ρ c] at hG
  exact (Wexit_arr1 m ρ c 4).trans (hG.trans (Cert.ReferenceIdeal.Bridge.stageMid _ (normS m c) (normD m c) _ _ (Cert.ReferenceIdeal.Hand.biasAt (F := Ideal) ![0, 0] Cert.ReferenceIdeal.Facts₀.slices_S3x64_S1x64_0_0 (m ((c.tc : Thread nD τ).loc main_arg6))) _
    (Win0_pack1 m ρ c) (Win0_pack2 m ρ c) (Win1_bias m ρ c)))

theorem in2 : Win2 (F := Ideal) m ρ c (Proc.devRef .tc main_v50) = g1 m c := by
  refine (host2_agg (Wexit1 m ρ c)).trans ?_
  rw [out1 m ρ c, Wexit1_src m ρ c, Wexit1_dst m ρ c, Win0_v1 m ρ c, Win0_v2 m ρ c]
  rfl

theorem out2 : Wexit2 (F := Ideal) m ρ c (Proc.devRef .tc main_v56) = x2 m c := by
  have hG : (dat2 (Vin2 (F := Ideal) m ρ) c).arrAt 4 cfg2.N
      = Gmid (Win2 m ρ c (Proc.devRef .tc main_v19)) (Win2 m ρ c (Proc.devRef .tc main_v50)) (Win2 m ρ c (Proc.devRef .tc main_v53)) (Win2 m ρ c (Proc.devRef .tc main_v55)) :=
    final2 (Vin2 m ρ) c
  rw [Win2_pack m ρ c, in2 m ρ c, Win2_weight m ρ c] at hG
  exact (Wexit_arr2 m ρ c 4).trans (hG.trans (Cert.ReferenceIdeal.Bridge.stageMid _ (normS m c) (normD m c) _ _ (Cert.ReferenceIdeal.Hand.biasAt (F := Ideal) ![1, 0] Cert.ReferenceIdeal.Facts₀.slices_S3x64_S1x64_1_0 (m ((c.tc : Thread nD τ).loc main_arg6))) _
    (Win0_pack1 m ρ c) (Win0_pack2 m ρ c) (Win2_bias m ρ c)))

theorem in3 : Win3 (F := Ideal) m ρ c (Proc.devRef .tc main_v66) = g2 m c := by
  refine (host3_agg (Wexit2 m ρ c)).trans ?_
  rw [out2 m ρ c, Wexit2_src m ρ c, Wexit2_dst m ρ c, Win0_v1 m ρ c, Win0_v2 m ρ c]
  rfl

theorem out3 : Wend (F := Ideal) m ρ c (Proc.devRef .tc main_v70) = yOut m c := by
  have hG : (dat3 (Vin3 (F := Ideal) m ρ) c).arrAt 5 cfg3.N
      = Gfin (Win3 m ρ c (Proc.devRef .tc main_v19)) (Win3 m ρ c (Proc.devRef .tc main_v66)) (Win3 m ρ c (Proc.devRef .tc main_v69)) (Win3 m ρ c (Proc.devRef .tc main_arg7)) (Win3 m ρ c (Proc.devRef .tc main_v24)) :=
    final3 (Vin3 m ρ) c
  rw [Win3_pack m ρ c, in3 m ρ c, Win3_arg7 m ρ c] at hG
  exact (Wexit_arr3 m ρ c 5).trans (hG.trans (Cert.ReferenceIdeal.Bridge.stageFin _ (normD m c) _ _ (Cert.ReferenceIdeal.Hand.biasAt (F := Ideal) ![2, 0] Cert.ReferenceIdeal.Facts₀.slices_S3x64_S1x64_2_0 (m ((c.tc : Thread nD τ).loc main_arg6))) _ _ (m ((c.tc : Thread nD τ).loc main_arg8))
    (Win0_pack2 m ρ c) (Win3_bias m ρ c) (Win3_outBias_apply m ρ c)))

/-- THE KERNEL'S RESULT: at the end of @main the last region's output array holds the reference's result of the launch
    contents of the nine arguments. -/
theorem kernel_value : (Wend (F := Ideal) m ρ c (Proc.devRef .tc main_v70) : Cert.Gnn.Arr 100000 1)
    = Cert.ReferenceIdeal.Hand.refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (out3 m ρ c).trans (yOut_eq m c)

end Cert.KernelIdeal.Val

end
-- ==== Proof.lean ====
/- A three-layer graph convolution over 100000 nodes and 3200000 edges (one self loop added per node): the kernel
   computes its four dense stages (the input layer with the first 64×64 product, two bias–leaky-rectifier–product
   stages, the bias with the 64×1 read-out) in row blocks of 4000 nodes, with the gather and scatter-add over the edges
   between them on the host; the reference is the same network in plain array operations. Each program runs to the end
   and leaves its arguments unchanged; on the extended reals both results are the same function of the nine arguments. -/
import proofs.«109159_j7215545057639_1_alg».proof.Defs
import proofs.«109159_j7215545057639_1_alg».proof.Proof.Val.Assemble
import proofs.«109159_j7215545057639_1_alg».proof.Proof.Val.Chain

noncomputable section

namespace Cert.Proof

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves,
    Parts.algebraic_of Cert.KernelIdeal.Val.kernel_value⟩

end Cert.Proof

end
